-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v77)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S200000x256 : Shape := ⟨2, ![200000, 256]⟩
abbrev S256x512 : Shape := ⟨2, ![256, 512]⟩
abbrev S512 : Shape := ⟨1, ![512]⟩
abbrev S512x1 : Shape := ⟨2, ![512, 1]⟩
abbrev S1 : Shape := ⟨1, ![1]⟩
abbrev S512x10 : Shape := ⟨2, ![512, 10]⟩
abbrev S10 : Shape := ⟨1, ![10]⟩
abbrev S200000 : Shape := ⟨1, ![200000]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S200000x256 : S_.BroadcastsInDim S200000x256 (![] : Fin 0 → Fin S200000x256.rank)
  reducesTo_S200000x256_S_d0_1 : S200000x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10 .f32) (main_v33 : IVec S_ 1) : IVec S_ 1 :=
  let main_v34 : FVec F S10 .f32 := Host.absf main_arg7
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg4 : FVec F S512x1 .f32) (main_arg5 : FVec F S1 .f32) (main_arg6 : FVec F S512x10 .f32) (main_arg7 : FVec F S10 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1 .f32 := Host.absf main_arg4
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S512x10 .f32 := Host.absf main_arg6
  let main_cst_10 : FVec F S_ .f32 := constant S_ .f32 0x7F800000#32
  let main_v30 : FVec F S512x10 .f32 := broadcastInDim S512x10 ![] bcast_S_S512x10 main_cst_10
  let main_v31 : IVec S512x10 1 := cmpf .olt main_v29 main_v30
  let main_c_11 : IVec S_ 1 := constantI S_ 1 1#1
  let main_v32 : IVec S_ 1 := (fun x v => Host.reduce IntOp.andi x v reducesTo_S512x10_S_d0_1 h_S_) main_v31 main_c_11
  let main_v33 : IVec S_ 1 := andi main_v28 main_v32
  fn_part2 (F := F) main_arg7 main_v33

def fn {F : FTy → Type} [FloatOps F] (main_arg0 : FVec F S4096x256 .f32) (main_arg1 : FVec F S200000x256 .f32) (main_arg2 : FVec F S256x512 .f32) (main_arg3 : FVec F S512 .f32) (main_arg4 : FVec F S512x1 .f32) (main_arg5 : FVec F S1 .f32) (main_arg6 : FVec F S512x10 .f32) (main_arg7 : FVec F S10 .f32) (main_arg8 : IVec S200000 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S4096x256 : Shape := ⟨2, ![4096, 256]⟩
abbrev S200000x256 : Shape := ⟨2, ![200000, 256]⟩
abbrev S256x512 : Shape := ⟨2, ![256, 512]⟩
abbrev S512 : Shape := ⟨1, ![512]⟩
abbrev S512x1 : Shape := ⟨2, ![512, 1]⟩
abbrev S1 : Shape := ⟨1, ![1]⟩
abbrev S512x10 : Shape := ⟨2, ![512, 10]⟩
abbrev S10 : Shape := ⟨1, ![10]⟩
abbrev S200000 : Shape := ⟨1, ![200000]⟩
abbrev S1x512 : Shape := ⟨2, ![1, 512]⟩
abbrev S1x1 : Shape := ⟨2, ![1, 1]⟩
abbrev S200000x1 : Shape := ⟨2, ![200000, 1]⟩
abbrev S4000x256 : Shape := ⟨2, ![4000, 256]⟩
abbrev S4000x1 : Shape := ⟨2, ![4000, 1]⟩
abbrev S4000x512 : Shape := ⟨2, ![4000, 512]⟩
abbrev S4000 : Shape := ⟨1, ![4000]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S256x256 : Shape := ⟨2, ![256, 256]⟩
abbrev S256x1 : Shape := ⟨2, ![256, 1]⟩
abbrev S256x4096 : Shape := ⟨2, ![256, 4096]⟩
abbrev S256 : Shape := ⟨1, ![256]⟩
abbrev S4096x512 : Shape := ⟨2, ![4096, 512]⟩
abbrev S4096x10 : Shape := ⟨2, ![4096, 10]⟩
abbrev S1x10 : Shape := ⟨2, ![1, 10]⟩

abbrev nBuf : Space → Nat
  | .hbm => 123
  | .vmem => 23
  | .smem => 0
  | _ => 0

abbrev bufTy : (tb : Table) → Fin (tcTables nBuf tb) → BufTy
  | .hbm, ⟨0, _⟩ => ⟨S4096x256, .f32⟩
  | .hbm, ⟨1, _⟩ => ⟨S200000x256, .f32⟩
  | .hbm, ⟨2, _⟩ => ⟨S256x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S512x10, .f32⟩
  | .hbm, ⟨7, _⟩ => ⟨S10, .f32⟩
  | .hbm, ⟨8, _⟩ => ⟨S200000, .i32⟩
  | .hbm, ⟨9, _⟩ => ⟨S256x512, .bf16⟩
  | .hbm, ⟨10, _⟩ => ⟨S1x512, .f32⟩
  | .hbm, ⟨11, _⟩ => ⟨S1x512, .f32⟩
  | .hbm, ⟨12, _⟩ => ⟨S1x1, .f32⟩
  | .hbm, ⟨13, _⟩ => ⟨S200000x1, .f32⟩
  | .hbm, ⟨14, _⟩ => ⟨S200000, .f32⟩
  | .hbm, ⟨15, _⟩ => ⟨S_, .f32⟩
  | .hbm, ⟨16, _⟩ => ⟨S200000, .f32⟩
  | .hbm, ⟨17, _⟩ => ⟨S200000, .i1⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S200000x1, .f32⟩
  | .hbm, ⟨24, _⟩ => ⟨S200000x256, .f32⟩
  | .hbm, ⟨25, _⟩ => ⟨S200000x256, .f32⟩
  | .hbm, ⟨26, _⟩ => ⟨S_, .f32⟩
  | .hbm, ⟨27, _⟩ => ⟨S4096x256, .f32⟩
  | .hbm, ⟨28, _⟩ => ⟨S200000x1, .i32⟩
  | .hbm, ⟨29, _⟩ => ⟨S4096x256, .f32⟩
  | .hbm, ⟨30, _⟩ => ⟨S_, .f32⟩
  | .hbm, ⟨31, _⟩ => ⟨S4096, .f32⟩
  | .hbm, ⟨32, _⟩ => ⟨S200000x1, .i32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096x1, .f32⟩
  | .hbm, ⟨38, _⟩ => ⟨S4096x256, .f32⟩
  | .hbm, ⟨39, _⟩ => ⟨S4096x256, .f32⟩
  | .hbm, ⟨40, _⟩ => ⟨S200000x1, .f32⟩
  | .hbm, ⟨41, _⟩ => ⟨S200000x256, .f32⟩
  | .hbm, ⟨42, _⟩ => ⟨S200000x256, .f32⟩
  | .hbm, ⟨43, _⟩ => ⟨S_, .f32⟩
  | .hbm, ⟨44, _⟩ => ⟨S4096x256, .f32⟩
  | .hbm, ⟨45, _⟩ => ⟨S200000x1, .i32⟩
  | .hbm, ⟨46, _⟩ => ⟨S4096x256, .f32⟩
  | .hbm, ⟨47, _⟩ => ⟨S_, .f32⟩
  | .hbm, ⟨48, _⟩ => ⟨S4096, .f32⟩
  | .hbm, ⟨49, _⟩ => ⟨S200000x1, .i32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S4096x1, .f32⟩
  | .hbm, ⟨55, _⟩ => ⟨S4096x256, .f32⟩
  | .hbm, ⟨56, _⟩ => ⟨S4096x256, .f32⟩
  | .hbm, ⟨57, _⟩ => ⟨S4096x256, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096x256, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S_, .f32⟩
  | .hbm, ⟨72, _⟩ => ⟨S4096x256, .f32⟩
  | .hbm, ⟨73, _⟩ => ⟨S4096x256, .i1⟩
  | .hbm, ⟨74, _⟩ => ⟨S_, .i1⟩
  | .hbm, ⟨75, _⟩ => ⟨S4096, .i1⟩
  | .hbm, ⟨76, _⟩ => ⟨S4096, .f32⟩
  | .hbm, ⟨77, _⟩ => ⟨S4096x1, .f32⟩
  | .hbm, ⟨78, _⟩ => ⟨S1x4096, .f32⟩
  | .hbm, ⟨79, _⟩ => ⟨S1x4096, .f32⟩
  | .hbm, ⟨80, _⟩ => ⟨S1x4096, .f32⟩
  | .hbm, ⟨81, _⟩ => ⟨S4096x1, .f32⟩
  | .hbm, ⟨82, _⟩ => ⟨S4096x1, .f32⟩
  | .hbm, ⟨83, _⟩ => ⟨S4096x1, .f32⟩
  | .hbm, ⟨84, _⟩ => ⟨S4096, .f32⟩
  | .hbm, ⟨85, _⟩ => ⟨S4096, .f32⟩
  | .hbm, ⟨86, _⟩ => ⟨S4096, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S4096, .f32⟩
  | .hbm, ⟨98, _⟩ => ⟨S4096, .f32⟩
  | .hbm, ⟨99, _⟩ => ⟨S4096, .f32⟩
  | .hbm, ⟨100, _⟩ => ⟨S4096, .f32⟩
  | .hbm, ⟨101, _⟩ => ⟨S4096, .f32⟩
  | .hbm, ⟨102, _⟩ => ⟨S_, .f32⟩
  | .hbm, ⟨103, _⟩ => ⟨S4096, .f32⟩
  | .hbm, ⟨104, _⟩ => ⟨S4096, .f32⟩
  | .hbm, ⟨105, _⟩ => ⟨S_, .f32⟩
  | .hbm, ⟨106, _⟩ => ⟨S4096, .f32⟩
  | .hbm, ⟨107, _⟩ => ⟨S4096, .f32⟩
  | .hbm, ⟨108, _⟩ => ⟨S4096, .f32⟩
  | .hbm, ⟨109, _⟩ => ⟨S_, .f32⟩
  | .hbm, ⟨110, _⟩ => ⟨S_, .i1⟩
  | .hbm, ⟨111, _⟩ => ⟨S_, .f32⟩
  | .hbm, ⟨112, _⟩ => ⟨S4096, .f32⟩
  | .hbm, ⟨113, _⟩ => ⟨S4096, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S4096x512, .f32⟩
  | .hbm, ⟨119, _⟩ => ⟨S4096x10, .f32⟩
  | .hbm, ⟨120, _⟩ => ⟨S1x10, .f32⟩
  | .hbm, ⟨121, _⟩ => ⟨S4096x10, .f32⟩
  | .hbm, ⟨122, _⟩ => ⟨S4096x10, .f32⟩
  | .local _ .vmem, ⟨0, _⟩ => ⟨S4000x256, .f32⟩
  | .local _ .vmem, ⟨1, _⟩ => ⟨S4000x256, .f32⟩
  | .local _ .vmem, ⟨2, _⟩ => ⟨S256x512, .bf16⟩
  | .local _ .vmem, ⟨3, _⟩ => ⟨S1x512, .f32⟩
  | .local _ .vmem, ⟨4, _⟩ => ⟨S1x512, .f32⟩
  | .local _ .vmem, ⟨5, _⟩ => ⟨S1x1, .f32⟩
  | .local _ .vmem, ⟨6, _⟩ => ⟨S4000x1, .f32⟩
  | .local _ .vmem, ⟨7, _⟩ => ⟨S4000x1, .f32⟩
  | .local _ .vmem, ⟨8, _⟩ => ⟨S256x256, .f32⟩
  | .local _ .vmem, ⟨9, _⟩ => ⟨S256x256, .f32⟩
  | .local _ .vmem, ⟨10, _⟩ => ⟨S4096x256, .f32⟩
  | .local _ .vmem, ⟨11, _⟩ => ⟨S4096x256, .f32⟩
  | .local _ .vmem, ⟨12, _⟩ => ⟨S256x1, .f32⟩
  | .local _ .vmem, ⟨13, _⟩ => ⟨S256x1, .f32⟩
  | .local _ .vmem, ⟨14, _⟩ => ⟨S1x4096, .f32⟩
  | .local _ .vmem, ⟨15, _⟩ => ⟨S1x4096, .f32⟩
  | .local _ .vmem, ⟨16, _⟩ => ⟨S1x4096, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | .local _ .vmem, ⟨20, _⟩ => ⟨S256x1, .f32⟩
  | .local _ .vmem, ⟨21, _⟩ => ⟨S256x1, .f32⟩
  | .local _ .vmem, ⟨22, _⟩ => ⟨S256x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_v0 : Ref sig .tc := ⟨.hbm, 57, rfl⟩
abbrev main_call0_cst : Ref sig .tc := ⟨.hbm, 58, rfl⟩
abbrev main_call0_v1 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_call1_v0 : Ref sig .tc := ⟨.hbm, 64, rfl⟩
abbrev main_call1_cst : Ref sig .tc := ⟨.hbm, 65, rfl⟩
abbrev main_call1_v1 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_c : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54_0 : Ref sig .tc := ⟨.hbm, 81, rfl⟩
abbrev main_v54_1 : Ref sig .tc := ⟨.hbm, 82, rfl⟩
abbrev main_v54_2 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_cst_13 : Ref sig .tc := ⟨.hbm, 93, rfl⟩
abbrev main_v61 : Ref sig .tc := ⟨.hbm, 94, rfl⟩
abbrev main_cst_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_15 : Ref sig .tc := ⟨.hbm, 102, rfl⟩
abbrev main_v68 : Ref sig .tc := ⟨.hbm, 103, rfl⟩
abbrev main_v69 : Ref sig .tc := ⟨.hbm, 104, rfl⟩
abbrev main_call2_cst : Ref sig .tc := ⟨.hbm, 105, rfl⟩
abbrev main_call2_v0 : Ref sig .tc := ⟨.hbm, 106, rfl⟩
abbrev main_v70 : Ref sig .tc := ⟨.hbm, 107, rfl⟩
abbrev main_v71 : Ref sig .tc := ⟨.hbm, 108, rfl⟩
abbrev main_cst_16 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_17 : Ref sig .tc := ⟨.hbm, 114, rfl⟩
abbrev main_v76 : Ref sig .tc := ⟨.hbm, 115, rfl⟩
abbrev main_cst_18 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  shapeCasts_S512_S1x512 : S512.ShapeCasts S1x512
  shapeCasts_S512x1_S1x512 : S512x1.ShapeCasts S1x512
  shapeCasts_S1_S1x1 : S1.ShapeCasts S1x1
  inb_S4000x256_S4000x256_0_0 : ∀ a, (![0, 0] : Fin 2 → Nat) a + S4000x256.size a ≤ S4000x256.size a
  h_S4000x256 : 0 < S4000x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  reduces_S4000x512_S4000 : S4000x512.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x256_0_1 : S200000x1.BroadcastsInDim S200000x256 (![0, 1] : Fin 2 → Fin S200000x256.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  reducesTo_S4096x256_S4096_d1 : S4096x256.ReducesTo [1] S4096
  h_S_ : 0 < S_.numel
  shapeCasts_S4096_S4096x1 : S4096.ShapeCasts S4096x1
  shapeCasts_S4096_S1x4096 : S4096.ShapeCasts S1x4096
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  transposes_S4096x256_p1_0_S256x4096 : S4096x256.Transposes [1, 0] S256x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  reduces_S256x256_S256 : S256x256.Reduces [1] S256
  shapeCasts_S256_S256x1 : S256.ShapeCasts S256x1
  natLt_1_32 : 1 < 32
  reduces_S256x4096_S256 : S256x4096.Reduces [1] S256
  shapeCasts_S4096x1_S4096 : S4096x1.ShapeCasts S4096
  reducesTo_S4096_S_d0 : S4096.ReducesTo [0] S_
  concatenates_S4096x256_S4096x256_S4096x512_d1 : Shape.Concatenates [S4096x256, S4096x256] S4096x512 1
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  dot_S4000x256_S256x512_S4000x512_1_0_0_1_n_n_wf : DotDims.WF S4000x256 S256x512 S4000x512 [1] [0] [0] [1] [] []
  scatter_S4096x256_S200000x1_S200000x256_1_0_0_1_wf : ScatterDims.WF S4096x256 S200000x1 S200000x256 [1] [0] [0] 1
  scatter_S4096_S200000x1_S200000_n_0_0_1_wf : ScatterDims.WF S4096 S200000x1 S200000 [] [0] [0] 1
  dot_S256x256_S256x4096_S256x4096_1_0_0_1_n_n_wf : DotDims.WF S256x256 S256x4096 S256x4096 [1] [0] [0] [1] [] []
  dot_S4096x512_S512x10_S4096x10_1_0_0_1_n_n_wf : DotDims.WF S4096x512 S512x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S200000x256.size a
  hwx0_0 : ∀ i : grid0.Coords, EltTy.bits .f32 = 32 ∨ (Rect.block (s := S200000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x1.size a ≤ S200000x1.size a
  hwx0_5 : ∀ i : grid0.Coords, EltTy.bits .f32 = 32 ∨ (Rect.block (s := S200000x1) S4000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S4096x256.size a
  hwx1_0 : ∀ i : grid1.Coords, EltTy.bits .f32 = 32 ∨ (Rect.block (s := S4096x256) S256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S4096x256.size a
  hwx1_2 : ∀ i : grid1.Coords, EltTy.bits .f32 = 32 ∨ (Rect.block (s := S4096x256) S4096x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S4096x1.size a
  hwx1_3 : ∀ i : grid1.Coords, EltTy.bits .f32 = 32 ∨ (Rect.block (s := S4096x1) S256x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x4096.size a ≤ S1x4096.size a
  hwx1_6 : ∀ i : grid1.Coords, EltTy.bits .f32 = 32 ∨ (Rect.block (s := S1x4096) S1x4096.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x1.size a ≤ S4096x1.size a
  hwx1_7 : ∀ i : grid1.Coords, EltTy.bits .f32 = 32 ∨ (Rect.block (s := S4096x1) S256x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x1.size a ≤ S4096x1.size a
  hwx1_8 : ∀ i : grid1.Coords, EltTy.bits .f32 = 32 ∨ (Rect.block (s := S4096x1) S256x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x1.size a ≤ S4096x1.size a
  hwx1_9 : ∀ i : grid1.Coords, EltTy.bits .f32 = 32 ∨ (Rect.block (s := S4096x1) S256x1.size (cc1_transform_9 i) (hinb1_9 i)).WholeWords (EltTy.packing .f32)

variable [Facts₀]

def dot_S4000x256_S256x512_S4000x512_1_0_0_1_n_n : DotDims S4000x256 S256x512 S4000x512 where
  lhsContracting := [1]
  rhsContracting := [0]
  lhsNonContracting := [0]
  rhsNonContracting := [1]
  lhsBatch := []
  rhsBatch := []
  wf := dot_S4000x256_S256x512_S4000x512_1_0_0_1_n_n_wf
def scatter_S4096x256_S200000x1_S200000x256_1_0_0_1 : ScatterDims S4096x256 S200000x1 S200000x256 where
  updateWindowDims := [1]
  insertedWindowDims := [0]
  scatterDimsToOperandDims := [0]
  indexVectorDim := 1
  wf := scatter_S4096x256_S200000x1_S200000x256_1_0_0_1_wf
def scatter_S4096_S200000x1_S200000_n_0_0_1 : ScatterDims S4096 S200000x1 S200000 where
  updateWindowDims := []
  insertedWindowDims := [0]
  scatterDimsToOperandDims := [0]
  indexVectorDim := 1
  wf := scatter_S4096_S200000x1_S200000_n_0_0_1_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S4096x512_S512x10_S4096x10_1_0_0_1_n_n : DotDims S4096x512 S512x10 S4096x10 where
  lhsContracting := [1]
  rhsContracting := [0]
  lhsNonContracting := [0]
  rhsNonContracting := [1]
  lhsBatch := []
  rhsBatch := []
  wf := dot_S4096x512_S512x10_S4096x10_1_0_0_1_n_n_wf

abbrev win0_0 : Pipeline.Window sig grid0 :=
  Pipeline.Window.ofSpec (Memref.whole main_arg1) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S4096x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S1x4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54_0) S256x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v54_1) S256x1.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v54_2) S256x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4096x256 : Shape := ⟨2, ![4096, 256]⟩
abbrev S200000x256 : Shape := ⟨2, ![200000, 256]⟩
abbrev S256x512 : Shape := ⟨2, ![256, 512]⟩
abbrev S512 : Shape := ⟨1, ![512]⟩
abbrev S512x1 : Shape := ⟨2, ![512, 1]⟩
abbrev S1 : Shape := ⟨1, ![1]⟩
abbrev S512x10 : Shape := ⟨2, ![512, 10]⟩
abbrev S10 : Shape := ⟨1, ![10]⟩
abbrev S200000 : Shape := ⟨1, ![200000]⟩
abbrev S200000x512 : Shape := ⟨2, ![200000, 512]⟩
abbrev S1x512 : Shape := ⟨2, ![1, 512]⟩
abbrev S_ : Shape := ⟨0, ![]⟩
abbrev S200000x1 : Shape := ⟨2, ![200000, 1]⟩
abbrev S1x1 : Shape := ⟨2, ![1, 1]⟩
abbrev S4096 : Shape := ⟨1, ![4096]⟩
abbrev S4096x1 : Shape := ⟨2, ![4096, 1]⟩
abbrev S256x4096 : Shape := ⟨2, ![256, 4096]⟩
abbrev S4096x4096 : Shape := ⟨2, ![4096, 4096]⟩
abbrev S1x4096 : Shape := ⟨2, ![1, 4096]⟩
abbrev S4096x512 : Shape := ⟨2, ![4096, 512]⟩
abbrev S4096x10 : Shape := ⟨2, ![4096, 10]⟩
abbrev S1x10 : Shape := ⟨2, ![1, 10]⟩

abbrev nBuf : Space → Nat
  | .hbm => 166
  | .vmem => 0
  | .smem => 0
  | _ => 0

abbrev hbmTy0_0 (i : Nat) : BufTy := match i % 128 with
  | 0 => ⟨S4096x256, .f32⟩
  | 1 => ⟨S200000x256, .f32⟩
  | 2 => ⟨S256x512, .f32⟩
  | 3 => ⟨S512, .f32⟩
  | 4 => ⟨S512x1, .f32⟩
  | 5 => ⟨S1, .f32⟩
  | 6 => ⟨S512x10, .f32⟩
  | 7 => ⟨S10, .f32⟩
  | 8 => ⟨S200000, .i32⟩
  | 9 => ⟨S200000x512, .f32⟩
  | 10 => ⟨S1x512, .f32⟩
  | 11 => ⟨S200000x512, .f32⟩
  | 12 => ⟨S200000x512, .f32⟩
  | 13 => ⟨S_, .f32⟩
  | 14 => ⟨S200000x512, .f32⟩
  | 15 => ⟨S200000x512, .f32⟩
  | 16 => ⟨S200000x1, .f32⟩
  | 17 => ⟨S1x1, .f32⟩
  | 18 => ⟨S200000x1, .f32⟩
  | 19 => ⟨S200000x1, .f32⟩
  | 20 => ⟨S200000, .f32⟩
  | 21 => ⟨S200000, .f32⟩
  | 22 => ⟨S200000, .f32⟩
  | 23 => ⟨S_, .f32⟩
  | 24 => ⟨S200000, .f32⟩
  | 25 => ⟨S200000, .f32⟩
  | 26 => ⟨S_, .f32⟩
  | 27 => ⟨S200000, .f32⟩
  | 28 => ⟨S200000, .f32⟩
  | 29 => ⟨S_, .f32⟩
  | 30 => ⟨S200000, .f32⟩
  | 31 => ⟨S200000, .i1⟩
  | 32 => ⟨S200000, .f32⟩
  | 33 => ⟨S_, .f32⟩
  | 34 => ⟨S200000, .f32⟩
  | 35 => ⟨S200000, .i1⟩
  | 36 => ⟨S200000, .f32⟩
  | 37 => ⟨S200000x1, .f32⟩
  | 38 => ⟨S200000x256, .f32⟩
  | 39 => ⟨S200000x256, .f32⟩
  | 40 => ⟨S_, .f32⟩
  | 41 => ⟨S4096x256, .f32⟩
  | 42 => ⟨S200000x1, .i32⟩
  | 43 => ⟨S4096x256, .f32⟩
  | 44 => ⟨S_, .f32⟩
  | 45 => ⟨S4096, .f32⟩
  | 46 => ⟨S200000x1, .i32⟩
  | 47 => ⟨S4096, .f32⟩
  | 48 => ⟨S_, .f32⟩
  | 49 => ⟨S4096, .f32⟩
  | 50 => ⟨S4096, .f32⟩
  | 51 => ⟨S4096x1, .f32⟩
  | 52 => ⟨S4096x256, .f32⟩
  | 53 => ⟨S4096x256, .f32⟩
  | 54 => ⟨S200000x1, .f32⟩
  | 55 => ⟨S200000x256, .f32⟩
  | 56 => ⟨S200000x256, .f32⟩
  | 57 => ⟨S_, .f32⟩
  | 58 => ⟨S4096x256, .f32⟩
  | 59 => ⟨S200000x1, .i32⟩
  | 60 => ⟨S4096x256, .f32⟩
  | 61 => ⟨S_, .f32⟩
  | 62 => ⟨S4096, .f32⟩
  | 63 => ⟨S200000x1, .i32⟩
  | 64 => ⟨S4096, .f32⟩
  | 65 => ⟨S_, .f32⟩
  | 66 => ⟨S4096, .f32⟩
  | 67 => ⟨S4096, .f32⟩
  | 68 => ⟨S4096x1, .f32⟩
  | 69 => ⟨S4096x256, .f32⟩
  | 70 => ⟨S4096x256, .f32⟩
  | 71 => ⟨S4096x256, .f32⟩
  | 72 => ⟨S_, .f32⟩
  | 73 => ⟨S4096, .f32⟩
  | 74 => ⟨S4096, .f32⟩
  | 75 => ⟨S_, .f32⟩
  | 76 => ⟨S4096, .f32⟩
  | 77 => ⟨S4096, .f32⟩
  | 78 => ⟨S4096x256, .f32⟩
  | 79 => ⟨S_, .f32⟩
  | 80 => ⟨S4096, .f32⟩
  | 81 => ⟨S4096, .f32⟩
  | 82 => ⟨S_, .f32⟩
  | 83 => ⟨S4096, .f32⟩
  | 84 => ⟨S4096, .f32⟩
  | 85 => ⟨S256x4096, .f32⟩
  | 86 => ⟨S4096x4096, .f32⟩
  | 87 => ⟨S4096x1, .f32⟩
  | 88 => ⟨S1x4096, .f32⟩
  | 89 => ⟨S4096x4096, .f32⟩
  | 90 => ⟨S4096x4096, .f32⟩
  | 91 => ⟨S4096x4096, .f32⟩
  | 92 => ⟨S4096x4096, .f32⟩
  | 93 => ⟨S_, .f32⟩
  | 94 => ⟨S4096x4096, .f32⟩
  | 95 => ⟨S4096x4096, .f32⟩
  | 96 => ⟨S256x4096, .f32⟩
  | 97 => ⟨S4096x4096, .f32⟩
  | 98 => ⟨S4096x1, .f32⟩
  | 99 => ⟨S1x4096, .f32⟩
  | 100 => ⟨S4096x4096, .f32⟩
  | 101 => ⟨S4096x4096, .f32⟩
  | 102 => ⟨S4096x4096, .f32⟩
  | 103 => ⟨S4096x4096, .f32⟩
  | 104 => ⟨S_, .f32⟩
  | 105 => ⟨S4096x4096, .f32⟩
  | 106 => ⟨S4096x4096, .f32⟩
  | 107 => ⟨S_, .f32⟩
  | 108 => ⟨S4096x256, .f32⟩
  | 109 => ⟨S4096x256, .i1⟩
  | 110 => ⟨S_, .i1⟩
  | 111 => ⟨S4096, .i1⟩
  | 112 => ⟨S_, .f32⟩
  | 113 => ⟨S4096x256, .f32⟩
  | 114 => ⟨S4096x256, .i1⟩
  | 115 => ⟨S_, .i1⟩
  | 116 => ⟨S4096, .i1⟩
  | 117 => ⟨S4096, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .f32⟩
  | 125 => ⟨S4096, .i32⟩
  | 126 => ⟨S_, .i32⟩
  | 127 => ⟨S_, .i32⟩
  | _ => ⟨S4096x256, .f32⟩

abbrev hbmTy0_1 (i : Nat) : BufTy := match i % 128 with
  | 0 => ⟨S1x4096, .i1⟩
  | 1 => ⟨S1x4096, .f32⟩
  | 2 => ⟨S4096x4096, .f32⟩
  | 3 => ⟨S4096x4096, .f32⟩
  | 4 => ⟨S_, .f32⟩
  | 5 => ⟨S4096, .f32⟩
  | 6 => ⟨S_, .i32⟩
  | 7 => ⟨S_, .i32⟩
  | 8 => ⟨S_, .f32⟩
  | 9 => ⟨S4096, .f32⟩
  | 10 => ⟨S4096, .f32⟩
  | 11 => ⟨S_, .f32⟩
  | 12 => ⟨S4096, .f32⟩
  | 13 => ⟨S4096, .f32⟩
  | 14 => ⟨S4096, .f32⟩
  | 15 => ⟨S4096, .f32⟩
  | 16 => ⟨S_, .f32⟩
  | 17 => ⟨S4096, .f32⟩
  | 18 => ⟨S4096, .f32⟩
  | 19 => ⟨S_, .f32⟩
  | 20 => ⟨S4096, .f32⟩
  | 21 => ⟨S4096, .f32⟩
  | 22 => ⟨S4096, .f32⟩
  | 23 => ⟨S4096, .f32⟩
  | 24 => ⟨S_, .i32⟩
  | 25 => ⟨S_, .i1⟩
  | 26 => ⟨S_, .f32⟩
  | 27 => ⟨S4096, .f32⟩
  | 28 => ⟨S4096, .f32⟩
  | 29 => ⟨S_, .f32⟩
  | 30 => ⟨S_, .f32⟩
  | 31 => ⟨S_, .f32⟩
  | 32 => ⟨S_, .f32⟩
  | 33 => ⟨S4096x512, .f32⟩
  | 34 => ⟨S4096x10, .f32⟩
  | 35 => ⟨S1x10, .f32⟩
  | 36 => ⟨S4096x10, .f32⟩
  | 37 => ⟨S4096x10, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_v0 : Ref sig .tc := ⟨.hbm, 71, rfl⟩
abbrev main_call1_cst : Ref sig .tc := ⟨.hbm, 72, rfl⟩
abbrev main_call1_v1 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_call2_v0 : Ref sig .tc := ⟨.hbm, 78, rfl⟩
abbrev main_call2_cst : Ref sig .tc := ⟨.hbm, 79, rfl⟩
abbrev main_call2_v1 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_12 : Ref sig .tc := ⟨.hbm, 104, rfl⟩
abbrev main_v74 : Ref sig .tc := ⟨.hbm, 105, rfl⟩
abbrev main_v75 : Ref sig .tc := ⟨.hbm, 106, rfl⟩
abbrev main_cst_13 : Ref sig .tc := ⟨.hbm, 107, rfl⟩
abbrev main_v76 : Ref sig .tc := ⟨.hbm, 108, rfl⟩
abbrev main_v77 : Ref sig .tc := ⟨.hbm, 109, rfl⟩
abbrev main_c : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_c_15 : Ref sig .tc := ⟨.hbm, 115, rfl⟩
abbrev main_v81 : Ref sig .tc := ⟨.hbm, 116, rfl⟩
abbrev main_v82 : Ref sig .tc := ⟨.hbm, 117, rfl⟩
abbrev main_c_16 : Ref sig .tc := ⟨.hbm, 118, rfl⟩
abbrev main_v83 : Ref sig .tc := ⟨.hbm, 119, rfl⟩
abbrev main_c_17 : Ref sig .tc := ⟨.hbm, 120, rfl⟩
abbrev main_v84 : Ref sig .tc := ⟨.hbm, 121, rfl⟩
abbrev main_c_18 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_19 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_20 : Ref sig .tc := ⟨.hbm, 132, rfl⟩
abbrev main_v93 : Ref sig .tc := ⟨.hbm, 133, rfl⟩
abbrev main_c_21 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_22 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_23 : Ref sig .tc := ⟨.hbm, 144, rfl⟩
abbrev main_v102 : Ref sig .tc := ⟨.hbm, 145, rfl⟩
abbrev main_v103 : Ref sig .tc := ⟨.hbm, 146, rfl⟩
abbrev main_call3_cst : Ref sig .tc := ⟨.hbm, 147, rfl⟩
abbrev main_call3_v0 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_24 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_25 : Ref sig .tc := ⟨.hbm, 157, rfl⟩
abbrev main_v111 : Ref sig .tc := ⟨.hbm, 158, rfl⟩
abbrev main_cst_26 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x256_0_1 : S200000x1.BroadcastsInDim S200000x256 (![0, 1] : Fin 2 → Fin S200000x256.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  reducesTo_S4096x256_S4096_d1 : S4096x256.ReducesTo [1] S4096
  h_S_ : 0 < S_.numel
  transposes_S4096x256_S256x4096_1_0 : S4096x256.Transposes [1, 0] S256x4096
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  natLt_1_32 : 1 < 32
  reducesTo_S4096_S_d0 : S4096.ReducesTo [0] S_
  reducesTo_S4096x4096_S4096_d1 : S4096x4096.ReducesTo [1] S4096
  concatenates_S4096x256_S4096x256_S4096x512_d1 : Shape.Concatenates [S4096x256, S4096x256] S4096x512 1
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  dot_S200000x256_S256x512_S200000x512_1_0_0_1_n_n_wf : DotDims.WF S200000x256 S256x512 S200000x512 [1] [0] [0] [1] [] []
  dot_S200000x512_S512x1_S200000x1_1_0_0_1_n_n_wf : DotDims.WF S200000x512 S512x1 S200000x1 [1] [0] [0] [1] [] []
  scatter_S4096x256_S200000x1_S200000x256_1_0_0_1_wf : ScatterDims.WF S4096x256 S200000x1 S200000x256 [1] [0] [0] 1
  scatter_S4096_S200000x1_S200000_n_0_0_1_wf : ScatterDims.WF S4096 S200000x1 S200000 [] [0] [0] 1
  dot_S4096x256_S256x4096_S4096x4096_1_0_0_1_n_n_wf : DotDims.WF S4096x256 S256x4096 S4096x4096 [1] [0] [0] [1] [] []
  dot_S4096x512_S512x10_S4096x10_1_0_0_1_n_n_wf : DotDims.WF S4096x512 S512x10 S4096x10 [1] [0] [0] [1] [] []

variable [Facts₀]

def dot_S200000x256_S256x512_S200000x512_1_0_0_1_n_n : DotDims S200000x256 S256x512 S200000x512 where
  lhsContracting := [1]
  rhsContracting := [0]
  lhsNonContracting := [0]
  rhsNonContracting := [1]
  lhsBatch := []
  rhsBatch := []
  wf := dot_S200000x256_S256x512_S200000x512_1_0_0_1_n_n_wf
def dot_S200000x512_S512x1_S200000x1_1_0_0_1_n_n : DotDims S200000x512 S512x1 S200000x1 where
  lhsContracting := [1]
  rhsContracting := [0]
  lhsNonContracting := [0]
  rhsNonContracting := [1]
  lhsBatch := []
  rhsBatch := []
  wf := dot_S200000x512_S512x1_S200000x1_1_0_0_1_n_n_wf
def scatter_S4096x256_S200000x1_S200000x256_1_0_0_1 : ScatterDims S4096x256 S200000x1 S200000x256 where
  updateWindowDims := [1]
  insertedWindowDims := [0]
  scatterDimsToOperandDims := [0]
  indexVectorDim := 1
  wf := scatter_S4096x256_S200000x1_S200000x256_1_0_0_1_wf
def scatter_S4096_S200000x1_S200000_n_0_0_1 : ScatterDims S4096 S200000x1 S200000 where
  updateWindowDims := []
  insertedWindowDims := [0]
  scatterDimsToOperandDims := [0]
  indexVectorDim := 1
  wf := scatter_S4096_S200000x1_S200000_n_0_0_1_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x512_S512x10_S4096x10_1_0_0_1_n_n : DotDims S4096x512 S512x10 S4096x10 where
  lhsContracting := [1]
  rhsContracting := [0]
  lhsNonContracting := [0]
  rhsNonContracting := [1]
  lhsBatch := []
  rhsBatch := []
  wf := dot_S4096x512_S512x10_S4096x10_1_0_0_1_n_n_wf

class Facts : Prop extends Facts₀ where

variable [Facts]
-- ==== Proof.KFrame0.lean ====
/-
  Region 0 (the mask kernel) of the program, at the contents V the region is entered with.
  A grid point t of the 50 stages rows [4000·t, 4000·t+4000) of the subgraph features, the whole
  weight matrix, both bias rows and the output bias, and writes back the 4000 masks of those rows:
  the body loads the five input blocks whole, computes one value from them and stores it whole
  into the output block.  What the output block holds after the body is that value of the input
  blocks at t; the input blocks are left as found.
-/
import proofs.«104446_j49211735277597_1_alg».proof.Proof.Gen.Kernel.Launch
import proofs.«104446_j49211735277597_1_alg».proof.Proof.Gen.Kernel.Skeleton
import proofs.«104446_j49211735277597_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S4000x256 := Rect.unit (s := S4000x256) ![0, 0] S4000x256.size inb_S4000x256_S4000x256_0_0
abbrev rW : Rect S256x512 := Rect.unit (s := S256x512) ![0, 0] S256x512.size inb_S256x512_S256x512_0_0
abbrev rB : Rect S1x512 := Rect.unit (s := S1x512) ![0, 0] S1x512.size inb_S1x512_S1x512_0_0
abbrev rC : Rect S1x1 := Rect.unit (s := S1x1) ![0, 0] S1x1.size inb_S1x1_S1x1_0_0
abbrev rO : Rect S4000x1 := Rect.unit (s := S4000x1) ![0, 0] S4000x1.size inb_S4000x1_S4000x1_0_0

/-- The output block after the body, from the five input blocks: its one store, which covers it. -/
def out0_5 (x0 : Vec F S4000x256 .f32) (x1 : Vec F S256x512 .bf16) (x2 x3 : Vec F S1x512 .f32) (x4 : Vec F S1x1 .f32) : Vec F S4000x1 .f32 :=
  View.canon [⟨rO, k0_pay1 (View.ld x0 rX) (View.ld x1 rW) (View.ld x2 rB) (View.ld x3 rB) (View.ld x4 rC)⟩]

theorem cover0_5 (p0 : Vec F S4000x1 .f32) (y : S4000x1.Idx) :
    ∃ pc ∈ ([⟨rO, p0⟩] : List (View.Piece (Elt F) S4000x1 .f32)), y ∈ pc.1.set :=
  View.cover_of_tiled [⟨rO, p0⟩] S4000x1.size (by rfl) y

set_option maxHeartbeats 4000000 in
/-- The body on whole staging buffers: the inputs at read contents, the output at anything, runs to
    the continuation holding the inputs as they were and the output at out0_5 of the inputs. -/
theorem sound_kernel0 (c : Dev nD) (E : Set ℕ) (i : grid0.Coords)
    (arg1 : Memref sig .tc .vmem S4000x256 .f32) (harg1 : arg1.IsWhole) (arg2 : Memref sig .tc .vmem S256x512 .bf16) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S4000x1 .f32) (harg6 : arg6.IsWhole)
    (x0 : Vec F S4000x256 .f32) (x1 : Vec F S256x512 .bf16) (x2 x3 : Vec F S1x512 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mask_kernel i arg1 harg1 arg2 harg2 arg3 harg3 arg4 harg4 arg5 harg5 arg6 harg6) K := by
  simp only [cc0__mask_kernel_eq_skeleton]; unfold cc0__mask_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core c: the arrays as the region finds them; after the body at
    point t each input's buffer at its block and the output's at out0_5 of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KFrame1.lean ====
/-
  Region 1 (the pair kernel) of the program, at the contents V the region is entered with.
  A grid point t of the 16 stages rows [256·t, 256·t+256) of the aligned means and of their clamped
  norms, the whole of the aligned and environment means, both norm rows and the flag row, and writes
  back three columns of 256 sums for those rows.  The body loads the seven input blocks whole and
  stores three values computed from them, each whole into its output block; the input blocks are
  left as found.
-/
import proofs.«104446_j49211735277597_1_alg».proof.Proof.Gen.Kernel.Launch
import proofs.«104446_j49211735277597_1_alg».proof.Proof.Gen.Kernel.Skeleton
import proofs.«104446_j49211735277597_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev rA : Rect S256x256 := Rect.unit (s := S256x256) ![0, 0] S256x256.size inb_S256x256_S256x256_0_0
abbrev rM : Rect S4096x256 := Rect.unit (s := S4096x256) ![0, 0] S4096x256.size inb_S4096x256_S4096x256_0_0
abbrev rN : Rect S256x1 := Rect.unit (s := S256x1) ![0, 0] S256x1.size inb_S256x1_S256x1_0_0
abbrev rR : Rect S1x4096 := Rect.unit (s := S1x4096) ![0, 0] S1x4096.size inb_S1x4096_S1x4096_0_0

/-- The three output blocks after the body, from the seven input blocks: each its one store, which covers it. -/
def out1_7 (x0 : Vec F S256x256 .f32) (x1 : Vec F S4096x256 .f32) (x3 : Vec F S256x1 .f32) (x4 : Vec F S1x4096 .f32) : Vec F S256x1 .f32 :=
  View.canon [⟨rN, k1_pay2 (k1_pay8 (View.ld x0 rA) (View.ld x1 rM) (View.ld x3 rN) (View.ld x4 rR))⟩]
def out1_8 (x0 : Vec F S256x256 .f32) (x2 : Vec F S4096x256 .f32) (x3 : Vec F S256x1 .f32) (x5 x6 : Vec F S1x4096 .f32) : Vec F S256x1 .f32 :=
  View.canon [⟨rN, k1_pay3 (k1_pay7 (View.ld x6 rR)) (k1_pay9 (View.ld x0 rA) (View.ld x2 rM) (View.ld x3 rN) (View.ld x5 rR))⟩]
def out1_9 (x0 : Vec F S256x256 .f32) : Vec F S256x1 .f32 :=
  View.canon [⟨rN, k1_pay1 (k1_pay10 (View.ld x0 rA))⟩]

theorem cover1_o (p0 : Vec F S256x1 .f32) (y : S256x1.Idx) :
    ∃ pc ∈ ([⟨rN, p0⟩] : List (View.Piece (Elt F) S256x1 .f32)), y ∈ pc.1.set :=
  View.cover_of_tiled [⟨rN, p0⟩] S256x1.size (by rfl) y

set_option maxHeartbeats 8000000 in
/-- The body on whole staging buffers: the inputs at read contents, the outputs at anything, runs to the
    continuation holding the inputs as they were and the outputs at out1_7, out1_8, out1_9 of the inputs. -/
theorem sound_kernel1 (c : Dev nD) (E : Set ℕ) (i : grid1.Coords)
    (arg1 : Memref sig .tc .vmem S256x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S256x1 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole)
    (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (x0 : Vec F S256x256 .f32) (x1 x2 : Vec F S4096x256 .f32) (x3 : Vec F S256x1 .f32) (x4 x5 x6 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x3 x4) ∗ owns (c : Thread nD τ) arg9 fullShare (out1_8 x0 x2 x3 x5 x6)
            ∗ owns (c : Thread nD τ) arg10 fullShare (out1_9 x0)) -∗ K ⟨⟩))
      ⊢ wp frame (wpE (defs₀ (F := F)) Variants.none c none) E (cc1__pair_kernel i arg1 harg1 arg2 harg2 arg3 harg3 arg4 harg4 arg5 harg5 arg6 harg6 arg7 harg7 arg8 harg8 arg9 harg9 arg10 harg10) K := by
  simp only [cc1__pair_kernel_eq_skeleton]; unfold cc1__pair_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_o _)
  isplitl [H8]
  · iexists _; isplitr
    swap; · iexact H8
    ipureintro
    exact View.read_writes_eq_canon _ _ _ (cover1_o _)
  iexists _; isplitr
  swap; · iexact H9
  ipureintro
  exact View.read_writes_eq_canon _ _ _ (cover1_o _)

/-- The proof data of pipeline 1 on core c: the arrays as the region finds them; after the body at point t
    each input's buffer at its block and each output's at its value of the input blocks.  The aligned means
    are read through two windows, which hold them at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 3 t) (iblk1 V c 4 t)
    | ⟨8, _⟩ => out1_8 (iblk1 V c 0 t) (iblk1 V c 2 t) (iblk1 V c 3 t) (iblk1 V c 5 t) (iblk1 V c 6 t)
    | ⟨9, _⟩ => out1_9 (iblk1 V c 0 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 3 t) (iblk1 V c 4 t) := by dsimp only [dat1]
theorem after1_8 (c : Dev nD) (t : Fin cfg1.N) : (dat1 V c).after 8 t = out1_8 (iblk1 V c 0 t) (iblk1 V c 2 t) (iblk1 V c 3 t) (iblk1 V c 5 t) (iblk1 V c 6 t) := by dsimp only [dat1]
theorem after1_9 (c : Dev nD) (t : Fin cfg1.N) : (dat1 V c).after 9 t = out1_9 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KShare.lean ====
/-
  Region 1 reads the aligned means through two windows.  The nine distinct buffers behind its ten
  windows, each held whole at the full share, are the ten windows' arrays at the same contents with
  the aligned means' buffer held twice, at the left and at the right half of the full share.
-/
import proofs.«104446_j49211735277597_1_alg».proof.Proof.KFrame1

set_option maxRecDepth 16384

noncomputable section

namespace Cert.Kernel.Frm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-- The distinct buffers behind region 1's windows. -/
theorem img1 : Finset.univ.image (Pipeline.arrRef spec1) =
    ({main_v25, main_v39, main_v50, main_v51, main_v52, main_v53, main_v54_0, main_v54_1, main_v54_2} : Finset (Ref sig .tc)) := by decide

theorem arrays1_eq (V : (c : Dev nD) → (b : Ref sig .tc) → Buf (Elt F) ((c : Thread nD τ).loc b)) (c : Dev nD)
    (Vv : (b : Ref sig .tc) → Buf (Elt F) ((c : Thread nD τ).loc b))
    (Fw : (w : Fin cfg1.W) → Buf (Elt F) ((cfg1.win w).arr.view.loc (c : Thread nD τ)))
    (hF : ∀ w, Fw w = Vv (Pipeline.arrRef spec1 w)) :
    ((dat1 V c).arrays Fw : sProp 𝕄) = Pipeline.arrBufs spec1 c Vv := by
  have h1 : ((dat1 V c).arrays Fw : sProp 𝕄) = bigSep Finset.univ fun w : Fin cfg1.W =>
      (((c : Thread nD τ).loc (Pipeline.arrRef spec1 w)) ↦{(dat1 V c).share w} Vv (Pipeline.arrRef spec1 w) : sProp 𝕄) := by
    unfold Dat.arrays
    exact bigSep_congr fun w _ => by rw [(arr_whole1 w).set_eq_univ, hF w]
  rw [h1, bigSep_W1]
  unfold Pipeline.arrBufs
  rw [img1]
  rw [bigSep_insert (by decide), bigSep_insert (by decide), bigSep_insert (by decide), bigSep_insert (by decide),
    bigSep_insert (by decide), bigSep_insert (by decide), bigSep_insert (by decide), bigSep_insert (by decide), bigSep_singleton]
  have hs : (((c : Thread nD τ).loc main_v25) ↦{fullShare} Vv main_v25 : sProp 𝕄)
      = iprop((((c : Thread nD τ).loc main_v25) ↦{fullShare.left} Vv main_v25) ∗ (((c : Thread nD τ).loc main_v25) ↦{fullShare.right} Vv main_v25)) :=
    BI.Entails.antisymm (pointsTo_share (PosShare.mem_left_op_right fullShare)).1 (pointsTo_share (PosShare.mem_left_op_right fullShare)).2
  rw [hs]
  show iprop((((c : Thread nD τ).loc main_v25) ↦{fullShare.left} Vv main_v25) ∗ (((c : Thread nD τ).loc main_v25) ↦{fullShare.right} Vv main_v25)
    ∗ (((c : Thread nD τ).loc main_v39) ↦{fullShare} Vv main_v39) ∗ (((c : Thread nD τ).loc main_v50) ↦{fullShare} Vv main_v50)
    ∗ (((c : Thread nD τ).loc main_v51) ↦{fullShare} Vv main_v51) ∗ (((c : Thread nD τ).loc main_v52) ↦{fullShare} Vv main_v52)
    ∗ (((c : Thread nD τ).loc main_v53) ↦{fullShare} Vv main_v53) ∗ (((c : Thread nD τ).loc main_v54_0) ↦{fullShare} Vv main_v54_0)
    ∗ (((c : Thread nD τ).loc main_v54_1) ↦{fullShare} Vv main_v54_1) ∗ (((c : Thread nD τ).loc main_v54_2) ↦{fullShare} Vv main_v54_2)) = _
  exact BI.Entails.antisymm BI.sep_assoc' BI.sep_assoc

/-- A core's unscoped buffers are the buffers behind region 1's windows and the rest. -/
theorem ub_split1 (c : Dev nD) (Vv : (b : Ref sig .tc) → Buf (Elt F) ((c : Thread nD τ).loc b)) :
    (unscopedBufs c Vv : sProp 𝕄) = iprop(Pipeline.arrBufs spec1 c Vv ∗ Pipeline.unscopedRest spec1 c Vv) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

end Cert.Kernel.Frm

end
-- ==== Proof.KRun.lean ====
/-
  The whole run of the program: its host stretches and its two kernel regions in order, the contents
  of every buffer at each boundary as a fold from the launch memory, and the launch: every weakly fair
  execution terminates, faults nowhere, and ends with every buffer at the last boundary's contents.
  Region 1 reads the aligned means through two windows: at its entry the buffer's full share is split
  in two halves, one per window, and joined again at its exit.
-/
import proofs.«104446_j49211735277597_1_alg».proof.Proof.KFrame0
import proofs.«104446_j49211735277597_1_alg».proof.Proof.KFrame1
import proofs.«104446_j49211735277597_1_alg».proof.Proof.Gen.Kernel.Regions
import proofs.«104446_j49211735277597_1_alg».proof.Proof.KShare

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 (c : Dev nD) : Valuation τ sig (Elt F) := fun b => m (c, b)
abbrev W1 (c : Dev nD) : Valuation τ sig (Elt F) := StableHlo.after hostOps0 (W0 m c)
abbrev T1 : (c : Dev nD) → (b : Ref sig .tc) → Buf (Elt F) ((c : Thread nD τ).loc b) := fun c b => W1 m c b
/-- After region 0: the mask buffer at what the write-backs leave, every other buffer as entered. -/
def W2 (c : Dev nD) : Valuation τ sig (Elt F) :=
  Function.update (W1 m c) main_v4 ((dat0 (T1 m) c).arrAt 5 cfg0.N)
abbrev T2 : (c : Dev nD) → (b : Ref sig .tc) → Buf (Elt F) ((c : Thread nD τ).loc b) := fun c b => W2 m c b
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
abbrev T7 : (c : Dev nD) → (b : Ref sig .tc) → Buf (Elt F) ((c : Thread nD τ).loc b) := fun c b => W7 m c b
/-- After region 1: its three result buffers at what the write-backs leave, every other buffer as entered. -/
def W8 (c : Dev nD) : Valuation τ sig (Elt F) :=
  Function.update (Function.update (Function.update (W7 m c) main_v54_0 ((dat1 (T7 m) c).arrAt 7 cfg1.N))
    main_v54_1 ((dat1 (T7 m) c).arrAt 8 cfg1.N)) main_v54_2 ((dat1 (T7 m) c).arrAt 9 cfg1.N)
abbrev T8 : (c : Dev nD) → (b : Ref sig .tc) → Buf (Elt F) ((c : Thread nD τ).loc b) := fun c b => W8 m c b
abbrev W9 (c : Dev nD) : Valuation τ sig (Elt F) := StableHlo.after hostOps2 (W8 m c)
abbrev W10 (c : Dev nD) : Valuation τ sig (Elt F) := StableHlo.after hostOps2_1 (W9 m c)
abbrev W11 (c : Dev nD) : Valuation τ sig (Elt F) := StableHlo.after hostOps2_2 (W10 m c)

theorem W2_v4 (c : Dev nD) : W2 m c (Proc.devRef .tc main_v4) = (dat0 (T1 m) c).arrAt 5 cfg0.N := by
  unfold W2; exact Function.update_self _ _ _
theorem W2_of_ne (c : Dev nD) (b : Ref sig .tc) (hb : b ≠ main_v4) : W2 m c (Proc.devRef .tc b) = W1 m c (Proc.devRef .tc b) := by
  unfold W2; exact Function.update_of_ne (StableHlo.devRef_ne_of_ne hb) _ _

theorem W8_v54_0 (c : Dev nD) : W8 m c (Proc.devRef .tc main_v54_0) = (dat1 (T7 m) c).arrAt 7 cfg1.N := by
  unfold W8
  rw [Function.update_of_ne (StableHlo.devRef_ne_of_ne (by decide : main_v54_0 ≠ main_v54_2)),
    Function.update_of_ne (StableHlo.devRef_ne_of_ne (by decide : main_v54_0 ≠ main_v54_1))]
  exact Function.update_self _ _ _
theorem W8_v54_1 (c : Dev nD) : W8 m c (Proc.devRef .tc main_v54_1) = (dat1 (T7 m) c).arrAt 8 cfg1.N := by
  unfold W8
  rw [Function.update_of_ne (StableHlo.devRef_ne_of_ne (by decide : main_v54_1 ≠ main_v54_2))]
  exact Function.update_self _ _ _
theorem W8_v54_2 (c : Dev nD) : W8 m c (Proc.devRef .tc main_v54_2) = (dat1 (T7 m) c).arrAt 9 cfg1.N := by
  unfold W8; exact Function.update_self _ _ _
theorem W8_of_ne (c : Dev nD) (b : Ref sig .tc) (h0 : b ≠ main_v54_0) (h1 : b ≠ main_v54_1) (h2 : b ≠ main_v54_2) :
    W8 m c (Proc.devRef .tc b) = W7 m c (Proc.devRef .tc b) := by
  unfold W8
  rw [Function.update_of_ne (StableHlo.devRef_ne_of_ne h2), Function.update_of_ne (StableHlo.devRef_ne_of_ne h1),
    Function.update_of_ne (StableHlo.devRef_ne_of_ne h0)]

/-! ## The proof data family and the thread state -/

abbrev ad : (p : Fin 2) → (pcfgs (F := F) p).Adm := fun p => (cfgs p).toPCfg_adm
def pd : (p : Fin 2) → (c : Dev nD) → Dat τ (Elt F) Unit ℕ (UR sig nD τ) ℕ (Pipeline.pin (pcfgs (F := F)) ad p) c
  | ⟨0, _⟩ => fun c => dat0 (T1 m) c
  | ⟨1, _⟩ => fun c => dat1 (T7 m) c
abbrev 𝒱₀ : Variants := Variants.none
abbrev Lz : GSem nD τ sig → Finset Unit := fun _ => ∅
abbrev lvz : GSem nD τ sig → Unit → ℕ := fun _ _ => 0
/-- What rides beside the buffers through every segment: the generator register at some state and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (W11 m c) ∗ ∃ r, prngReg c r)

/-! ## Region 0 as a segment -/

theorem hF0 (c : Dev nD) (w : Fin cfg0.W) : (dat0 (T1 m) c).arrAt w cfg0.N = T2 m c (Pipeline.arrRef spec0 w) :=
  match w with
  | ⟨0, _⟩ => ((dat0 (T1 m) c).arrAt_in 0 rfl _).trans ((A_eq0 (T1 m) c 0).trans (W2_of_ne m c main_arg1 (by decide)).symm)
  | ⟨1, _⟩ => ((dat0 (T1 m) c).arrAt_in 1 rfl _).trans ((A_eq0 (T1 m) c 1).trans (W2_of_ne m c main_v0 (by decide)).symm)
  | ⟨2, _⟩ => ((dat0 (T1 m) c).arrAt_in 2 rfl _).trans ((A_eq0 (T1 m) c 2).trans (W2_of_ne m c main_v1 (by decide)).symm)
  | ⟨3, _⟩ => ((dat0 (T1 m) c).arrAt_in 3 rfl _).trans ((A_eq0 (T1 m) c 3).trans (W2_of_ne m c main_v2 (by decide)).symm)
  | ⟨4, _⟩ => ((dat0 (T1 m) c).arrAt_in 4 rfl _).trans ((A_eq0 (T1 m) c 4).trans (W2_of_ne m c main_v3 (by decide)).symm)
  | ⟨5, _⟩ => (W2_v4 m c).symm
theorem hrest0 (c : Dev nD) : ∀ b, b ∉ Finset.univ.image (Pipeline.arrRef spec0) → T2 m c b = T1 m c b :=
  fun b hb => W2_of_ne m c b fun e => hb (Finset.mem_image.mpr ⟨5, Finset.mem_univ _, e.symm⟩)

set_option backward.isDefEq.respectTransparency.types false in
def rg0 : Pipeline.RegionSeg (pcfgs (F := F)) ad (pd m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) ad (pd m) launch0.win launch0.arr_whole c
      ((pd m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) ad (Ix := Unit) (Name := ℕ) (U := UR sig nD τ) (Lvl := ℕ)
      launch0.win launch0.arr_whole c (pd m) ((pd m 0 c).share_full fun _ => rfl)
      (T1 m c) (T2 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

theorem hF1_0 (c : Dev nD) : (dat1 (T7 m) c).arrAt 0 cfg1.N = T8 m c (Pipeline.arrRef spec1 0) :=
  ((dat1 (T7 m) c).arrAt_in 0 rfl _).trans ((A_eq1 (T7 m) c 0).trans (W8_of_ne m c main_v25 (by decide) (by decide) (by decide)).symm)
theorem hF1_1 (c : Dev nD) : (dat1 (T7 m) c).arrAt 1 cfg1.N = T8 m c (Pipeline.arrRef spec1 1) :=
  ((dat1 (T7 m) c).arrAt_in 1 rfl _).trans ((A_eq1 (T7 m) c 1).trans (W8_of_ne m c main_v25 (by decide) (by decide) (by decide)).symm)
theorem hF1_2 (c : Dev nD) : (dat1 (T7 m) c).arrAt 2 cfg1.N = T8 m c (Pipeline.arrRef spec1 2) :=
  ((dat1 (T7 m) c).arrAt_in 2 rfl _).trans ((A_eq1 (T7 m) c 2).trans (W8_of_ne m c main_v39 (by decide) (by decide) (by decide)).symm)
theorem hF1_3 (c : Dev nD) : (dat1 (T7 m) c).arrAt 3 cfg1.N = T8 m c (Pipeline.arrRef spec1 3) :=
  ((dat1 (T7 m) c).arrAt_in 3 rfl _).trans ((A_eq1 (T7 m) c 3).trans (W8_of_ne m c main_v50 (by decide) (by decide) (by decide)).symm)
theorem hF1_4 (c : Dev nD) : (dat1 (T7 m) c).arrAt 4 cfg1.N = T8 m c (Pipeline.arrRef spec1 4) :=
  ((dat1 (T7 m) c).arrAt_in 4 rfl _).trans ((A_eq1 (T7 m) c 4).trans (W8_of_ne m c main_v51 (by decide) (by decide) (by decide)).symm)
theorem hF1_5 (c : Dev nD) : (dat1 (T7 m) c).arrAt 5 cfg1.N = T8 m c (Pipeline.arrRef spec1 5) :=
  ((dat1 (T7 m) c).arrAt_in 5 rfl _).trans ((A_eq1 (T7 m) c 5).trans (W8_of_ne m c main_v52 (by decide) (by decide) (by decide)).symm)
theorem hF1_6 (c : Dev nD) : (dat1 (T7 m) c).arrAt 6 cfg1.N = T8 m c (Pipeline.arrRef spec1 6) :=
  ((dat1 (T7 m) c).arrAt_in 6 rfl _).trans ((A_eq1 (T7 m) c 6).trans (W8_of_ne m c main_v53 (by decide) (by decide) (by decide)).symm)
set_option maxHeartbeats 1000000 in
theorem hF1 (c : Dev nD) (w : Fin cfg1.W) : (dat1 (T7 m) c).arrAt w cfg1.N = T8 m c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => (W8_v54_0 m c).symm
  | ⟨8, _⟩ => (W8_v54_1 m c).symm
  | ⟨9, _⟩ => (W8_v54_2 m c).symm
theorem hrest1 (c : Dev nD) : ∀ b, b ∉ Finset.univ.image (Pipeline.arrRef spec1) → T8 m c b = T7 m c b :=
  fun b hb => W8_of_ne m c b (fun e => hb (Finset.mem_image.mpr ⟨7, Finset.mem_univ _, e.symm⟩))
    (fun e => hb (Finset.mem_image.mpr ⟨8, Finset.mem_univ _, e.symm⟩)) (fun e => hb (Finset.mem_image.mpr ⟨9, Finset.mem_univ _, e.symm⟩))

/-- Entry: the core's unscoped buffers are region 1's arrays (the aligned means' buffer split in two halves) and the rest. -/
theorem split1 (c : Dev nD) : (unscopedBufs c (T7 m c) : sProp 𝕄)
    = iprop((dat1 (T7 m) c).arrays ((dat1 (T7 m) c).arrAt · 0) ∗ Pipeline.unscopedRest spec1 c (T7 m c)) := by
  rw [ub_split1 c (T7 m c), arrays1_eq (T7 m) c (T7 m c) ((dat1 (T7 m) c).arrAt · 0) (fun w => A_eq1 (T7 m) c w)]
/-- Exit: the arrays at what the write-backs leave and the rest as entered are the unscoped buffers at the exit contents. -/
theorem join1 (c : Dev nD) : iprop((dat1 (T7 m) c).arrays ((dat1 (T7 m) c).arrAt · cfg1.N) ∗ Pipeline.unscopedRest spec1 c (T7 m c))
    = (unscopedBufs c (T8 m c) : sProp 𝕄) := by
  have hr : (Pipeline.unscopedRest spec1 c (T7 m c) : sProp 𝕄) = Pipeline.unscopedRest spec1 c (T8 m c) := by
    unfold Pipeline.unscopedRest
    exact bigSep_congr fun b hb => by rw [hrest1 m c b (Finset.mem_sdiff.mp hb).2]
  rw [hr, ub_split1 c (T8 m c), arrays1_eq (T7 m) c (T8 m c) ((dat1 (T7 m) c).arrAt · cfg1.N) (hF1 m c)]

theorem entry1 (c : Dev nD) : (StableHlo.held (c : Thread nD τ) (Pipeline.ucRefs τ sig) (W7 m c) : sProp 𝕄)
    ⊢ iprop((dat1 (T7 m) c).arrays ((dat1 (T7 m) c).arrAt · 0) ∗ Pipeline.unscopedRest spec1 c (T7 m c)) := by
  rw [← Pipeline.unscopedBufs_held c (W7 m c)]
  exact Entails.of_eq (split1 m c)
theorem exit1 (c : Dev nD) : iprop((dat1 (T7 m) c).arrays ((dat1 (T7 m) c).arrAt · cfg1.N) ∗ Pipeline.unscopedRest spec1 c (T7 m c))
    ⊢ (StableHlo.held (c : Thread nD τ) (Pipeline.ucRefs τ sig) (W8 m c) : sProp 𝕄) := by
  rw [← Pipeline.unscopedBufs_held c (W8 m c)]
  exact Entails.of_eq (join1 m c)

set_option backward.isDefEq.respectTransparency.types false in
def rg1 : Pipeline.RegionSeg (pcfgs (F := F)) ad (pd m) () defs₀ 𝒱₀ Lz lvz 1 where
  win := winFacts₀1
  block_pos := block_pos1
  stage_whole := stage_whole1
  K := PEmpty
  osem k := k.elim
  ho := Pipeline.OwnSemFacts.none _
  hbody c := (body_obligation1 (T7 m) c).loose
  hwaits := Pipeline.hwaits_of_owed_zero _ _ _ _ Lz lvz 1 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec1 c (T7 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

/-- The last stretch's exit state is the final thread state beside nothing owed. -/
theorem last_chain (c : Dev nD) : iprop(StableHlo.held (c : Thread nD τ) (Pipeline.ucRefs τ sig) (W11 m c) ∗ Rr (F := F) c)
    ⊢ iprop(Tn m c ∗ ∃ W, owes (c : Thread nD τ) (0 : CellTallies nD τ sig Unit) W) := by
  iintro ⟨Hh, Hp, HO⟩
  isplitl [Hh Hp]
  · isplitl [Hh]; · iexact Hh
    iexact Hp
  iexact HO

abbrev sgs : List (Pipeline.Seg (pcfgs (F := F)) ad (pd m) () defs₀ 𝒱₀ Lz lvz) :=
  [ .host (hseg hostOps0 hostOps0_sub hostOps0_fresh (W0 m)),
    .region (rg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .region (rg1 m),
    .host (hseg hostOps2 hostOps2_sub hostOps2_fresh (W8 m)),
    .host (hseg hostOps2_1 hostOps2_1_sub hostOps2_1_fresh (W9 m)),
    .host (hseg hostOps2_2 hostOps2_2_sub hostOps2_2_fresh (W10 m)) ]

set_option backward.isDefEq.respectTransparency.types false in
/-- THE RUN: from any memory with zero counters every weakly fair execution of the program terminates, nothing
    faulting, and every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit_dev (pcfgs (F := F)) ad (pd m) () cellOf_inj emb₁ defs₀ 𝒱₀ Lz lvz m ρ main (fun _ => sgs m)
    (fun c Q => by
      rewrite [main_chain c, Pipeline.Seg.run_eq_chain,
        show (sgs m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2 ] from rfl]
      exact .rfl)
    (fun c => by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tn m)
    (hch := fun c => ⟨.rfl, .rfl, .rfl, .rfl, .rfl, .rfl, .rfl, .rfl, .rfl, .rfl, .rfl, last_chain m c⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

end Cert.Kernel.Frm

end
-- ==== Proof.KVals.lean ====
/-
  Reading the boundaries' contents back: a buffer no later item writes keeps its contents, so the
  arguments end as launched, the mask vector is what the stretch after region 0 left, and the aligned
  means reach the last stretch as region 1 found them.
-/
import proofs.«104446_j49211735277597_1_alg».proof.Proof.KRun

set_option maxRecDepth 16384

noncomputable section

namespace Cert.Kernel.Frm

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

/-- From the last boundary back to region 1's exit. -/
theorem W11_back8 (c : Dev nD) (r : Ref sig .tc) (h22 : r ∉ hostOps2_2_W) (h21 : r ∉ hostOps2_1_W) (h2 : r ∉ hostOps2_W) :
    W11 m c (Proc.devRef .tc r) = W8 m c (Proc.devRef .tc r) :=
  (StableHlo.after_of_writes_sub hostOps2_2 _ hostOps2_2_writes h22).trans <|
    (StableHlo.after_of_writes_sub hostOps2_1 _ hostOps2_1_writes h21).trans <|
      StableHlo.after_of_writes_sub hostOps2 _ hostOps2_writes h2
/-- From region 1's entry back to region 0's exit. -/
theorem W7_back2 (c : Dev nD) (r : Ref sig .tc) (h14 : r ∉ hostOps1_4_W) (h13 : r ∉ hostOps1_3_W) (h12 : r ∉ hostOps1_2_W)
    (h11 : r ∉ hostOps1_1_W) (h1 : r ∉ hostOps1_W) : W7 m c (Proc.devRef .tc r) = W2 m c (Proc.devRef .tc r) :=
  (StableHlo.after_of_writes_sub hostOps1_4 _ hostOps1_4_writes h14).trans <|
    (StableHlo.after_of_writes_sub hostOps1_3 _ hostOps1_3_writes h13).trans <|
      (StableHlo.after_of_writes_sub hostOps1_2 _ hostOps1_2_writes h12).trans <|
        (StableHlo.after_of_writes_sub hostOps1_1 _ hostOps1_1_writes h11).trans <|
          StableHlo.after_of_writes_sub hostOps1 _ hostOps1_writes h1
/-- From region 1's entry back to the stretch after region 0. -/
theorem W7_back3 (c : Dev nD) (r : Ref sig .tc) (h14 : r ∉ hostOps1_4_W) (h13 : r ∉ hostOps1_3_W) (h12 : r ∉ hostOps1_2_W)
    (h11 : r ∉ hostOps1_1_W) : W7 m c (Proc.devRef .tc r) = W3 m c (Proc.devRef .tc r) :=
  (StableHlo.after_of_writes_sub hostOps1_4 _ hostOps1_4_writes h14).trans <|
    (StableHlo.after_of_writes_sub hostOps1_3 _ hostOps1_3_writes h13).trans <|
      (StableHlo.after_of_writes_sub hostOps1_2 _ hostOps1_2_writes h12).trans <|
        StableHlo.after_of_writes_sub hostOps1_1 _ hostOps1_1_writes h11
/-- From region 0's entry back to the launch. -/
theorem W1_back0 (c : Dev nD) (r : Ref sig .tc) (h0 : r ∉ hostOps0_W) : W1 m c (Proc.devRef .tc r) = m ((c : Thread nD τ).loc r) :=
  StableHlo.after_of_writes_sub hostOps0 _ hostOps0_writes h0

/-- A buffer no item writes ends as launched. -/
theorem W11_launch (c : Dev nD) (r : Ref sig .tc) (h22 : r ∉ hostOps2_2_W) (h21 : r ∉ hostOps2_1_W) (h2 : r ∉ hostOps2_W)
    (n0 : r ≠ main_v54_0) (n1 : r ≠ main_v54_1) (n2 : r ≠ main_v54_2)
    (h14 : r ∉ hostOps1_4_W) (h13 : r ∉ hostOps1_3_W) (h12 : r ∉ hostOps1_2_W) (h11 : r ∉ hostOps1_1_W) (h1 : r ∉ hostOps1_W)
    (n4 : r ≠ main_v4) (h0 : r ∉ hostOps0_W) : W11 m c (Proc.devRef .tc r) = m ((c : Thread nD τ).loc r) :=
  (W11_back8 m c r h22 h21 h2).trans <| (W8_of_ne m c r n0 n1 n2).trans <| (W7_back2 m c r h14 h13 h12 h11 h1).trans <|
    (W2_of_ne m c r n4).trans (W1_back0 m c r h0)

theorem W11_arg0 (c : Dev nD) : W11 m c (Proc.devRef .tc main_arg0) = m ((c : Thread nD τ).loc main_arg0) :=
  W11_launch m c main_arg0 (by decide) (by decide) (by decide) (by decide) (by decide) (by decide) (by decide) (by decide) (by decide) (by decide) (by decide) (by decide) (by decide)
theorem W11_arg1 (c : Dev nD) : W11 m c (Proc.devRef .tc main_arg1) = m ((c : Thread nD τ).loc main_arg1) :=
  W11_launch m c main_arg1 (by decide) (by decide) (by decide) (by decide) (by decide) (by decide) (by decide) (by decide) (by decide) (by decide) (by decide) (by decide) (by decide)
theorem W11_arg2 (c : Dev nD) : W11 m c (Proc.devRef .tc main_arg2) = m ((c : Thread nD τ).loc main_arg2) :=
  W11_launch m c main_arg2 (by decide) (by decide) (by decide) (by decide) (by decide) (by decide) (by decide) (by decide) (by decide) (by decide) (by decide) (by decide) (by decide)
theorem W11_arg3 (c : Dev nD) : W11 m c (Proc.devRef .tc main_arg3) = m ((c : Thread nD τ).loc main_arg3) :=
  W11_launch m c main_arg3 (by decide) (by decide) (by decide) (by decide) (by decide) (by decide) (by decide) (by decide) (by decide) (by decide) (by decide) (by decide) (by decide)
theorem W11_arg4 (c : Dev nD) : W11 m c (Proc.devRef .tc main_arg4) = m ((c : Thread nD τ).loc main_arg4) :=
  W11_launch m c main_arg4 (by decide) (by decide) (by decide) (by decide) (by decide) (by decide) (by decide) (by decide) (by decide) (by decide) (by decide) (by decide) (by decide)
theorem W11_arg5 (c : Dev nD) : W11 m c (Proc.devRef .tc main_arg5) = m ((c : Thread nD τ).loc main_arg5) :=
  W11_launch m c main_arg5 (by decide) (by decide) (by decide) (by decide) (by decide) (by decide) (by decide) (by decide) (by decide) (by decide) (by decide) (by decide) (by decide)
theorem W11_arg6 (c : Dev nD) : W11 m c (Proc.devRef .tc main_arg6) = m ((c : Thread nD τ).loc main_arg6) :=
  W11_launch m c main_arg6 (by decide) (by decide) (by decide) (by decide) (by decide) (by decide) (by decide) (by decide) (by decide) (by decide) (by decide) (by decide) (by decide)
theorem W11_arg7 (c : Dev nD) : W11 m c (Proc.devRef .tc main_arg7) = m ((c : Thread nD τ).loc main_arg7) :=
  W11_launch m c main_arg7 (by decide) (by decide) (by decide) (by decide) (by decide) (by decide) (by decide) (by decide) (by decide) (by decide) (by decide) (by decide) (by decide)
theorem W11_arg8 (c : Dev nD) : W11 m c (Proc.devRef .tc main_arg8) = m ((c : Thread nD τ).loc main_arg8) :=
  W11_launch m c main_arg8 (by decide) (by decide) (by decide) (by decide) (by decide) (by decide) (by decide) (by decide) (by decide) (by decide) (by decide) (by decide) (by decide)

/-- The mask vector ends as the stretch after region 0 left it. -/
theorem W11_v5 (c : Dev nD) : W11 m c (Proc.devRef .tc main_v5) = W3 m c (Proc.devRef .tc main_v5) :=
  (W11_back8 m c main_v5 (by decide) (by decide) (by decide)).trans <|
    (W8_of_ne m c main_v5 (by decide) (by decide) (by decide)).trans (W7_back3 m c main_v5 (by decide) (by decide) (by decide) (by decide))

/-- The frame: every argument ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W11_arg0 m c),
    (h c _ (mem_uc main_arg1 (by decide))).trans (W11_arg1 m c),
    (h c _ (mem_uc main_arg2 (by decide))).trans (W11_arg2 m c),
    (h c _ (mem_uc main_arg3 (by decide))).trans (W11_arg3 m c),
    (h c _ (mem_uc main_arg4 (by decide))).trans (W11_arg4 m c),
    (h c _ (mem_uc main_arg5 (by decide))).trans (W11_arg5 m c),
    (h c _ (mem_uc main_arg6 (by decide))).trans (W11_arg6 m c),
    (h c _ (mem_uc main_arg7 (by decide))).trans (W11_arg7 m c),
    (h c _ (mem_uc main_arg8 (by decide))).trans (W11_arg8 m c)⟩)
    (run_main m ρ)

end Cert.Kernel.Frm

end
-- ==== Proof.KIFrame0.lean ====
/-
  Region 0 (the mask kernel) of the program, at the contents V the region is entered with.
  A grid point t of the 50 stages rows [4000·t, 4000·t+4000) of the subgraph features, the whole
  weight matrix, both bias rows and the output bias, and writes back the 4000 masks of those rows:
  the body loads the five input blocks whole, computes one value from them and stores it whole
  into the output block.  What the output block holds after the body is that value of the input
  blocks at t; the input blocks are left as found.
-/
import proofs.«104446_j49211735277597_1_alg».proof.Proof.Gen.KernelIdeal.Launch
import proofs.«104446_j49211735277597_1_alg».proof.Proof.Gen.KernelIdeal.Skeleton
import proofs.«104446_j49211735277597_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S4000x256 := Rect.unit (s := S4000x256) ![0, 0] S4000x256.size inb_S4000x256_S4000x256_0_0
abbrev rW : Rect S256x512 := Rect.unit (s := S256x512) ![0, 0] S256x512.size inb_S256x512_S256x512_0_0
abbrev rB : Rect S1x512 := Rect.unit (s := S1x512) ![0, 0] S1x512.size inb_S1x512_S1x512_0_0
abbrev rC : Rect S1x1 := Rect.unit (s := S1x1) ![0, 0] S1x1.size inb_S1x1_S1x1_0_0
abbrev rO : Rect S4000x1 := Rect.unit (s := S4000x1) ![0, 0] S4000x1.size inb_S4000x1_S4000x1_0_0

/-- The output block after the body, from the five input blocks: its one store, which covers it. -/
def out0_5 (x0 : Vec F S4000x256 .f32) (x1 : Vec F S256x512 .bf16) (x2 x3 : Vec F S1x512 .f32) (x4 : Vec F S1x1 .f32) : Vec F S4000x1 .f32 :=
  View.canon [⟨rO, k0_pay1 (View.ld x0 rX) (View.ld x1 rW) (View.ld x2 rB) (View.ld x3 rB) (View.ld x4 rC)⟩]

theorem cover0_5 (p0 : Vec F S4000x1 .f32) (y : S4000x1.Idx) :
    ∃ pc ∈ ([⟨rO, p0⟩] : List (View.Piece (Elt F) S4000x1 .f32)), y ∈ pc.1.set :=
  View.cover_of_tiled [⟨rO, p0⟩] S4000x1.size (by rfl) y

set_option maxHeartbeats 4000000 in
/-- The body on whole staging buffers: the inputs at read contents, the output at anything, runs to
    the continuation holding the inputs as they were and the output at out0_5 of the inputs. -/
theorem sound_kernel0 (c : Dev nD) (E : Set ℕ) (i : grid0.Coords)
    (arg1 : Memref sig .tc .vmem S4000x256 .f32) (harg1 : arg1.IsWhole) (arg2 : Memref sig .tc .vmem S256x512 .bf16) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S4000x1 .f32) (harg6 : arg6.IsWhole)
    (x0 : Vec F S4000x256 .f32) (x1 : Vec F S256x512 .bf16) (x2 x3 : Vec F S1x512 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mask_kernel i arg1 harg1 arg2 harg2 arg3 harg3 arg4 harg4 arg5 harg5 arg6 harg6) K := by
  simp only [cc0__mask_kernel_eq_skeleton]; unfold cc0__mask_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core c: the arrays as the region finds them; after the body at
    point t each input's buffer at its block and the output's at out0_5 of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KIFrame1.lean ====
/-
  Region 1 (the pair kernel) of the program, at the contents V the region is entered with.
  A grid point t of the 16 stages rows [256·t, 256·t+256) of the aligned means and of their clamped
  norms, the whole of the aligned and environment means, both norm rows and the flag row, and writes
  back three columns of 256 sums for those rows.  The body loads the seven input blocks whole and
  stores three values computed from them, each whole into its output block; the input blocks are
  left as found.
-/
import proofs.«104446_j49211735277597_1_alg».proof.Proof.Gen.KernelIdeal.Launch
import proofs.«104446_j49211735277597_1_alg».proof.Proof.Gen.KernelIdeal.Skeleton
import proofs.«104446_j49211735277597_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev rA : Rect S256x256 := Rect.unit (s := S256x256) ![0, 0] S256x256.size inb_S256x256_S256x256_0_0
abbrev rM : Rect S4096x256 := Rect.unit (s := S4096x256) ![0, 0] S4096x256.size inb_S4096x256_S4096x256_0_0
abbrev rN : Rect S256x1 := Rect.unit (s := S256x1) ![0, 0] S256x1.size inb_S256x1_S256x1_0_0
abbrev rR : Rect S1x4096 := Rect.unit (s := S1x4096) ![0, 0] S1x4096.size inb_S1x4096_S1x4096_0_0

/-- The three output blocks after the body, from the seven input blocks: each its one store, which covers it. -/
def out1_7 (x0 : Vec F S256x256 .f32) (x1 : Vec F S4096x256 .f32) (x3 : Vec F S256x1 .f32) (x4 : Vec F S1x4096 .f32) : Vec F S256x1 .f32 :=
  View.canon [⟨rN, k1_pay2 (k1_pay8 (View.ld x0 rA) (View.ld x1 rM) (View.ld x3 rN) (View.ld x4 rR))⟩]
def out1_8 (x0 : Vec F S256x256 .f32) (x2 : Vec F S4096x256 .f32) (x3 : Vec F S256x1 .f32) (x5 x6 : Vec F S1x4096 .f32) : Vec F S256x1 .f32 :=
  View.canon [⟨rN, k1_pay3 (k1_pay7 (View.ld x6 rR)) (k1_pay9 (View.ld x0 rA) (View.ld x2 rM) (View.ld x3 rN) (View.ld x5 rR))⟩]
def out1_9 (x0 : Vec F S256x256 .f32) : Vec F S256x1 .f32 :=
  View.canon [⟨rN, k1_pay1 (k1_pay10 (View.ld x0 rA))⟩]

theorem cover1_o (p0 : Vec F S256x1 .f32) (y : S256x1.Idx) :
    ∃ pc ∈ ([⟨rN, p0⟩] : List (View.Piece (Elt F) S256x1 .f32)), y ∈ pc.1.set :=
  View.cover_of_tiled [⟨rN, p0⟩] S256x1.size (by rfl) y

set_option maxHeartbeats 8000000 in
/-- The body on whole staging buffers: the inputs at read contents, the outputs at anything, runs to the
    continuation holding the inputs as they were and the outputs at out1_7, out1_8, out1_9 of the inputs. -/
theorem sound_kernel1 (c : Dev nD) (E : Set ℕ) (i : grid1.Coords)
    (arg1 : Memref sig .tc .vmem S256x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S256x1 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole)
    (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (x0 : Vec F S256x256 .f32) (x1 x2 : Vec F S4096x256 .f32) (x3 : Vec F S256x1 .f32) (x4 x5 x6 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x3 x4) ∗ owns (c : Thread nD τ) arg9 fullShare (out1_8 x0 x2 x3 x5 x6)
            ∗ owns (c : Thread nD τ) arg10 fullShare (out1_9 x0)) -∗ K ⟨⟩))
      ⊢ wp frame (wpE (defs₀ (F := F)) Variants.none c none) E (cc1__pair_kernel i arg1 harg1 arg2 harg2 arg3 harg3 arg4 harg4 arg5 harg5 arg6 harg6 arg7 harg7 arg8 harg8 arg9 harg9 arg10 harg10) K := by
  simp only [cc1__pair_kernel_eq_skeleton]; unfold cc1__pair_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_o _)
  isplitl [H8]
  · iexists _; isplitr
    swap; · iexact H8
    ipureintro
    exact View.read_writes_eq_canon _ _ _ (cover1_o _)
  iexists _; isplitr
  swap; · iexact H9
  ipureintro
  exact View.read_writes_eq_canon _ _ _ (cover1_o _)

/-- The proof data of pipeline 1 on core c: the arrays as the region finds them; after the body at point t
    each input's buffer at its block and each output's at its value of the input blocks.  The aligned means
    are read through two windows, which hold them at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 3 t) (iblk1 V c 4 t)
    | ⟨8, _⟩ => out1_8 (iblk1 V c 0 t) (iblk1 V c 2 t) (iblk1 V c 3 t) (iblk1 V c 5 t) (iblk1 V c 6 t)
    | ⟨9, _⟩ => out1_9 (iblk1 V c 0 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 3 t) (iblk1 V c 4 t) := by dsimp only [dat1]
theorem after1_8 (c : Dev nD) (t : Fin cfg1.N) : (dat1 V c).after 8 t = out1_8 (iblk1 V c 0 t) (iblk1 V c 2 t) (iblk1 V c 3 t) (iblk1 V c 5 t) (iblk1 V c 6 t) := by dsimp only [dat1]
theorem after1_9 (c : Dev nD) (t : Fin cfg1.N) : (dat1 V c).after 9 t = out1_9 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KIShare.lean ====
/-
  Region 1 reads the aligned means through two windows.  The nine distinct buffers behind its ten
  windows, each held whole at the full share, are the ten windows' arrays at the same contents with
  the aligned means' buffer held twice, at the left and at the right half of the full share.
-/
import proofs.«104446_j49211735277597_1_alg».proof.Proof.KIFrame1

set_option maxRecDepth 16384

noncomputable section

namespace Cert.KernelIdeal.Frm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-- The distinct buffers behind region 1's windows. -/
theorem img1 : Finset.univ.image (Pipeline.arrRef spec1) =
    ({main_v25, main_v39, main_v50, main_v51, main_v52, main_v53, main_v54_0, main_v54_1, main_v54_2} : Finset (Ref sig .tc)) := by decide

theorem arrays1_eq (V : (c : Dev nD) → (b : Ref sig .tc) → Buf (Elt F) ((c : Thread nD τ).loc b)) (c : Dev nD)
    (Vv : (b : Ref sig .tc) → Buf (Elt F) ((c : Thread nD τ).loc b))
    (Fw : (w : Fin cfg1.W) → Buf (Elt F) ((cfg1.win w).arr.view.loc (c : Thread nD τ)))
    (hF : ∀ w, Fw w = Vv (Pipeline.arrRef spec1 w)) :
    ((dat1 V c).arrays Fw : sProp 𝕄) = Pipeline.arrBufs spec1 c Vv := by
  have h1 : ((dat1 V c).arrays Fw : sProp 𝕄) = bigSep Finset.univ fun w : Fin cfg1.W =>
      (((c : Thread nD τ).loc (Pipeline.arrRef spec1 w)) ↦{(dat1 V c).share w} Vv (Pipeline.arrRef spec1 w) : sProp 𝕄) := by
    unfold Dat.arrays
    exact bigSep_congr fun w _ => by rw [(arr_whole1 w).set_eq_univ, hF w]
  rw [h1, bigSep_W1]
  unfold Pipeline.arrBufs
  rw [img1]
  rw [bigSep_insert (by decide), bigSep_insert (by decide), bigSep_insert (by decide), bigSep_insert (by decide),
    bigSep_insert (by decide), bigSep_insert (by decide), bigSep_insert (by decide), bigSep_insert (by decide), bigSep_singleton]
  have hs : (((c : Thread nD τ).loc main_v25) ↦{fullShare} Vv main_v25 : sProp 𝕄)
      = iprop((((c : Thread nD τ).loc main_v25) ↦{fullShare.left} Vv main_v25) ∗ (((c : Thread nD τ).loc main_v25) ↦{fullShare.right} Vv main_v25)) :=
    BI.Entails.antisymm (pointsTo_share (PosShare.mem_left_op_right fullShare)).1 (pointsTo_share (PosShare.mem_left_op_right fullShare)).2
  rw [hs]
  show iprop((((c : Thread nD τ).loc main_v25) ↦{fullShare.left} Vv main_v25) ∗ (((c : Thread nD τ).loc main_v25) ↦{fullShare.right} Vv main_v25)
    ∗ (((c : Thread nD τ).loc main_v39) ↦{fullShare} Vv main_v39) ∗ (((c : Thread nD τ).loc main_v50) ↦{fullShare} Vv main_v50)
    ∗ (((c : Thread nD τ).loc main_v51) ↦{fullShare} Vv main_v51) ∗ (((c : Thread nD τ).loc main_v52) ↦{fullShare} Vv main_v52)
    ∗ (((c : Thread nD τ).loc main_v53) ↦{fullShare} Vv main_v53) ∗ (((c : Thread nD τ).loc main_v54_0) ↦{fullShare} Vv main_v54_0)
    ∗ (((c : Thread nD τ).loc main_v54_1) ↦{fullShare} Vv main_v54_1) ∗ (((c : Thread nD τ).loc main_v54_2) ↦{fullShare} Vv main_v54_2)) = _
  exact BI.Entails.antisymm BI.sep_assoc' BI.sep_assoc

/-- A core's unscoped buffers are the buffers behind region 1's windows and the rest. -/
theorem ub_split1 (c : Dev nD) (Vv : (b : Ref sig .tc) → Buf (Elt F) ((c : Thread nD τ).loc b)) :
    (unscopedBufs c Vv : sProp 𝕄) = iprop(Pipeline.arrBufs spec1 c Vv ∗ Pipeline.unscopedRest spec1 c Vv) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

end Cert.KernelIdeal.Frm

end
-- ==== Proof.KIRun.lean ====
/-
  The whole run of the program: its host stretches and its two kernel regions in order, the contents
  of every buffer at each boundary as a fold from the launch memory, and the launch: every weakly fair
  execution terminates, faults nowhere, and ends with every buffer at the last boundary's contents.
  Region 1 reads the aligned means through two windows: at its entry the buffer's full share is split
  in two halves, one per window, and joined again at its exit.
-/
import proofs.«104446_j49211735277597_1_alg».proof.Proof.KIFrame0
import proofs.«104446_j49211735277597_1_alg».proof.Proof.KIFrame1
import proofs.«104446_j49211735277597_1_alg».proof.Proof.Gen.KernelIdeal.Regions
import proofs.«104446_j49211735277597_1_alg».proof.Proof.KIShare

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 (c : Dev nD) : Valuation τ sig (Elt F) := fun b => m (c, b)
abbrev W1 (c : Dev nD) : Valuation τ sig (Elt F) := StableHlo.after hostOps0 (W0 m c)
abbrev T1 : (c : Dev nD) → (b : Ref sig .tc) → Buf (Elt F) ((c : Thread nD τ).loc b) := fun c b => W1 m c b
/-- After region 0: the mask buffer at what the write-backs leave, every other buffer as entered. -/
def W2 (c : Dev nD) : Valuation τ sig (Elt F) :=
  Function.update (W1 m c) main_v4 ((dat0 (T1 m) c).arrAt 5 cfg0.N)
abbrev T2 : (c : Dev nD) → (b : Ref sig .tc) → Buf (Elt F) ((c : Thread nD τ).loc b) := fun c b => W2 m c b
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
abbrev T7 : (c : Dev nD) → (b : Ref sig .tc) → Buf (Elt F) ((c : Thread nD τ).loc b) := fun c b => W7 m c b
/-- After region 1: its three result buffers at what the write-backs leave, every other buffer as entered. -/
def W8 (c : Dev nD) : Valuation τ sig (Elt F) :=
  Function.update (Function.update (Function.update (W7 m c) main_v54_0 ((dat1 (T7 m) c).arrAt 7 cfg1.N))
    main_v54_1 ((dat1 (T7 m) c).arrAt 8 cfg1.N)) main_v54_2 ((dat1 (T7 m) c).arrAt 9 cfg1.N)
abbrev T8 : (c : Dev nD) → (b : Ref sig .tc) → Buf (Elt F) ((c : Thread nD τ).loc b) := fun c b => W8 m c b
abbrev W9 (c : Dev nD) : Valuation τ sig (Elt F) := StableHlo.after hostOps2 (W8 m c)
abbrev W10 (c : Dev nD) : Valuation τ sig (Elt F) := StableHlo.after hostOps2_1 (W9 m c)
abbrev W11 (c : Dev nD) : Valuation τ sig (Elt F) := StableHlo.after hostOps2_2 (W10 m c)

theorem W2_v4 (c : Dev nD) : W2 m c (Proc.devRef .tc main_v4) = (dat0 (T1 m) c).arrAt 5 cfg0.N := by
  unfold W2; exact Function.update_self _ _ _
theorem W2_of_ne (c : Dev nD) (b : Ref sig .tc) (hb : b ≠ main_v4) : W2 m c (Proc.devRef .tc b) = W1 m c (Proc.devRef .tc b) := by
  unfold W2; exact Function.update_of_ne (StableHlo.devRef_ne_of_ne hb) _ _

theorem W8_v54_0 (c : Dev nD) : W8 m c (Proc.devRef .tc main_v54_0) = (dat1 (T7 m) c).arrAt 7 cfg1.N := by
  unfold W8
  rw [Function.update_of_ne (StableHlo.devRef_ne_of_ne (by decide : main_v54_0 ≠ main_v54_2)),
    Function.update_of_ne (StableHlo.devRef_ne_of_ne (by decide : main_v54_0 ≠ main_v54_1))]
  exact Function.update_self _ _ _
theorem W8_v54_1 (c : Dev nD) : W8 m c (Proc.devRef .tc main_v54_1) = (dat1 (T7 m) c).arrAt 8 cfg1.N := by
  unfold W8
  rw [Function.update_of_ne (StableHlo.devRef_ne_of_ne (by decide : main_v54_1 ≠ main_v54_2))]
  exact Function.update_self _ _ _
theorem W8_v54_2 (c : Dev nD) : W8 m c (Proc.devRef .tc main_v54_2) = (dat1 (T7 m) c).arrAt 9 cfg1.N := by
  unfold W8; exact Function.update_self _ _ _
theorem W8_of_ne (c : Dev nD) (b : Ref sig .tc) (h0 : b ≠ main_v54_0) (h1 : b ≠ main_v54_1) (h2 : b ≠ main_v54_2) :
    W8 m c (Proc.devRef .tc b) = W7 m c (Proc.devRef .tc b) := by
  unfold W8
  rw [Function.update_of_ne (StableHlo.devRef_ne_of_ne h2), Function.update_of_ne (StableHlo.devRef_ne_of_ne h1),
    Function.update_of_ne (StableHlo.devRef_ne_of_ne h0)]

/-! ## The proof data family and the thread state -/

abbrev ad : (p : Fin 2) → (pcfgs (F := F) p).Adm := fun p => (cfgs p).toPCfg_adm
def pd : (p : Fin 2) → (c : Dev nD) → Dat τ (Elt F) Unit ℕ (UR sig nD τ) ℕ (Pipeline.pin (pcfgs (F := F)) ad p) c
  | ⟨0, _⟩ => fun c => dat0 (T1 m) c
  | ⟨1, _⟩ => fun c => dat1 (T7 m) c
abbrev 𝒱₀ : Variants := Variants.none
abbrev Lz : GSem nD τ sig → Finset Unit := fun _ => ∅
abbrev lvz : GSem nD τ sig → Unit → ℕ := fun _ _ => 0
/-- What rides beside the buffers through every segment: the generator register at some state and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (W11 m c) ∗ ∃ r, prngReg c r)

/-! ## Region 0 as a segment -/

theorem hF0 (c : Dev nD) (w : Fin cfg0.W) : (dat0 (T1 m) c).arrAt w cfg0.N = T2 m c (Pipeline.arrRef spec0 w) :=
  match w with
  | ⟨0, _⟩ => ((dat0 (T1 m) c).arrAt_in 0 rfl _).trans ((A_eq0 (T1 m) c 0).trans (W2_of_ne m c main_arg1 (by decide)).symm)
  | ⟨1, _⟩ => ((dat0 (T1 m) c).arrAt_in 1 rfl _).trans ((A_eq0 (T1 m) c 1).trans (W2_of_ne m c main_v0 (by decide)).symm)
  | ⟨2, _⟩ => ((dat0 (T1 m) c).arrAt_in 2 rfl _).trans ((A_eq0 (T1 m) c 2).trans (W2_of_ne m c main_v1 (by decide)).symm)
  | ⟨3, _⟩ => ((dat0 (T1 m) c).arrAt_in 3 rfl _).trans ((A_eq0 (T1 m) c 3).trans (W2_of_ne m c main_v2 (by decide)).symm)
  | ⟨4, _⟩ => ((dat0 (T1 m) c).arrAt_in 4 rfl _).trans ((A_eq0 (T1 m) c 4).trans (W2_of_ne m c main_v3 (by decide)).symm)
  | ⟨5, _⟩ => (W2_v4 m c).symm
theorem hrest0 (c : Dev nD) : ∀ b, b ∉ Finset.univ.image (Pipeline.arrRef spec0) → T2 m c b = T1 m c b :=
  fun b hb => W2_of_ne m c b fun e => hb (Finset.mem_image.mpr ⟨5, Finset.mem_univ _, e.symm⟩)

set_option backward.isDefEq.respectTransparency.types false in
def rg0 : Pipeline.RegionSeg (pcfgs (F := F)) ad (pd m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) ad (pd m) launch0.win launch0.arr_whole c
      ((pd m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) ad (Ix := Unit) (Name := ℕ) (U := UR sig nD τ) (Lvl := ℕ)
      launch0.win launch0.arr_whole c (pd m) ((pd m 0 c).share_full fun _ => rfl)
      (T1 m c) (T2 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

theorem hF1_0 (c : Dev nD) : (dat1 (T7 m) c).arrAt 0 cfg1.N = T8 m c (Pipeline.arrRef spec1 0) :=
  ((dat1 (T7 m) c).arrAt_in 0 rfl _).trans ((A_eq1 (T7 m) c 0).trans (W8_of_ne m c main_v25 (by decide) (by decide) (by decide)).symm)
theorem hF1_1 (c : Dev nD) : (dat1 (T7 m) c).arrAt 1 cfg1.N = T8 m c (Pipeline.arrRef spec1 1) :=
  ((dat1 (T7 m) c).arrAt_in 1 rfl _).trans ((A_eq1 (T7 m) c 1).trans (W8_of_ne m c main_v25 (by decide) (by decide) (by decide)).symm)
theorem hF1_2 (c : Dev nD) : (dat1 (T7 m) c).arrAt 2 cfg1.N = T8 m c (Pipeline.arrRef spec1 2) :=
  ((dat1 (T7 m) c).arrAt_in 2 rfl _).trans ((A_eq1 (T7 m) c 2).trans (W8_of_ne m c main_v39 (by decide) (by decide) (by decide)).symm)
theorem hF1_3 (c : Dev nD) : (dat1 (T7 m) c).arrAt 3 cfg1.N = T8 m c (Pipeline.arrRef spec1 3) :=
  ((dat1 (T7 m) c).arrAt_in 3 rfl _).trans ((A_eq1 (T7 m) c 3).trans (W8_of_ne m c main_v50 (by decide) (by decide) (by decide)).symm)
theorem hF1_4 (c : Dev nD) : (dat1 (T7 m) c).arrAt 4 cfg1.N = T8 m c (Pipeline.arrRef spec1 4) :=
  ((dat1 (T7 m) c).arrAt_in 4 rfl _).trans ((A_eq1 (T7 m) c 4).trans (W8_of_ne m c main_v51 (by decide) (by decide) (by decide)).symm)
theorem hF1_5 (c : Dev nD) : (dat1 (T7 m) c).arrAt 5 cfg1.N = T8 m c (Pipeline.arrRef spec1 5) :=
  ((dat1 (T7 m) c).arrAt_in 5 rfl _).trans ((A_eq1 (T7 m) c 5).trans (W8_of_ne m c main_v52 (by decide) (by decide) (by decide)).symm)
theorem hF1_6 (c : Dev nD) : (dat1 (T7 m) c).arrAt 6 cfg1.N = T8 m c (Pipeline.arrRef spec1 6) :=
  ((dat1 (T7 m) c).arrAt_in 6 rfl _).trans ((A_eq1 (T7 m) c 6).trans (W8_of_ne m c main_v53 (by decide) (by decide) (by decide)).symm)
set_option maxHeartbeats 1000000 in
theorem hF1 (c : Dev nD) (w : Fin cfg1.W) : (dat1 (T7 m) c).arrAt w cfg1.N = T8 m c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => (W8_v54_0 m c).symm
  | ⟨8, _⟩ => (W8_v54_1 m c).symm
  | ⟨9, _⟩ => (W8_v54_2 m c).symm
theorem hrest1 (c : Dev nD) : ∀ b, b ∉ Finset.univ.image (Pipeline.arrRef spec1) → T8 m c b = T7 m c b :=
  fun b hb => W8_of_ne m c b (fun e => hb (Finset.mem_image.mpr ⟨7, Finset.mem_univ _, e.symm⟩))
    (fun e => hb (Finset.mem_image.mpr ⟨8, Finset.mem_univ _, e.symm⟩)) (fun e => hb (Finset.mem_image.mpr ⟨9, Finset.mem_univ _, e.symm⟩))

/-- Entry: the core's unscoped buffers are region 1's arrays (the aligned means' buffer split in two halves) and the rest. -/
theorem split1 (c : Dev nD) : (unscopedBufs c (T7 m c) : sProp 𝕄)
    = iprop((dat1 (T7 m) c).arrays ((dat1 (T7 m) c).arrAt · 0) ∗ Pipeline.unscopedRest spec1 c (T7 m c)) := by
  rw [ub_split1 c (T7 m c), arrays1_eq (T7 m) c (T7 m c) ((dat1 (T7 m) c).arrAt · 0) (fun w => A_eq1 (T7 m) c w)]
/-- Exit: the arrays at what the write-backs leave and the rest as entered are the unscoped buffers at the exit contents. -/
theorem join1 (c : Dev nD) : iprop((dat1 (T7 m) c).arrays ((dat1 (T7 m) c).arrAt · cfg1.N) ∗ Pipeline.unscopedRest spec1 c (T7 m c))
    = (unscopedBufs c (T8 m c) : sProp 𝕄) := by
  have hr : (Pipeline.unscopedRest spec1 c (T7 m c) : sProp 𝕄) = Pipeline.unscopedRest spec1 c (T8 m c) := by
    unfold Pipeline.unscopedRest
    exact bigSep_congr fun b hb => by rw [hrest1 m c b (Finset.mem_sdiff.mp hb).2]
  rw [hr, ub_split1 c (T8 m c), arrays1_eq (T7 m) c (T8 m c) ((dat1 (T7 m) c).arrAt · cfg1.N) (hF1 m c)]

theorem entry1 (c : Dev nD) : (StableHlo.held (c : Thread nD τ) (Pipeline.ucRefs τ sig) (W7 m c) : sProp 𝕄)
    ⊢ iprop((dat1 (T7 m) c).arrays ((dat1 (T7 m) c).arrAt · 0) ∗ Pipeline.unscopedRest spec1 c (T7 m c)) := by
  rw [← Pipeline.unscopedBufs_held c (W7 m c)]
  exact Entails.of_eq (split1 m c)
theorem exit1 (c : Dev nD) : iprop((dat1 (T7 m) c).arrays ((dat1 (T7 m) c).arrAt · cfg1.N) ∗ Pipeline.unscopedRest spec1 c (T7 m c))
    ⊢ (StableHlo.held (c : Thread nD τ) (Pipeline.ucRefs τ sig) (W8 m c) : sProp 𝕄) := by
  rw [← Pipeline.unscopedBufs_held c (W8 m c)]
  exact Entails.of_eq (join1 m c)

set_option backward.isDefEq.respectTransparency.types false in
def rg1 : Pipeline.RegionSeg (pcfgs (F := F)) ad (pd m) () defs₀ 𝒱₀ Lz lvz 1 where
  win := winFacts₀1
  block_pos := block_pos1
  stage_whole := stage_whole1
  K := PEmpty
  osem k := k.elim
  ho := Pipeline.OwnSemFacts.none _
  hbody c := (body_obligation1 (T7 m) c).loose
  hwaits := Pipeline.hwaits_of_owed_zero _ _ _ _ Lz lvz 1 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec1 c (T7 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

/-- The last stretch's exit state is the final thread state beside nothing owed. -/
theorem last_chain (c : Dev nD) : iprop(StableHlo.held (c : Thread nD τ) (Pipeline.ucRefs τ sig) (W11 m c) ∗ Rr (F := F) c)
    ⊢ iprop(Tn m c ∗ ∃ W, owes (c : Thread nD τ) (0 : CellTallies nD τ sig Unit) W) := by
  iintro ⟨Hh, Hp, HO⟩
  isplitl [Hh Hp]
  · isplitl [Hh]; · iexact Hh
    iexact Hp
  iexact HO

abbrev sgs : List (Pipeline.Seg (pcfgs (F := F)) ad (pd m) () defs₀ 𝒱₀ Lz lvz) :=
  [ .host (hseg hostOps0 hostOps0_sub hostOps0_fresh (W0 m)),
    .region (rg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .region (rg1 m),
    .host (hseg hostOps2 hostOps2_sub hostOps2_fresh (W8 m)),
    .host (hseg hostOps2_1 hostOps2_1_sub hostOps2_1_fresh (W9 m)),
    .host (hseg hostOps2_2 hostOps2_2_sub hostOps2_2_fresh (W10 m)) ]

set_option backward.isDefEq.respectTransparency.types false in
/-- THE RUN: from any memory with zero counters every weakly fair execution of the program terminates, nothing
    faulting, and every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit_dev (pcfgs (F := F)) ad (pd m) () cellOf_inj emb₁ defs₀ 𝒱₀ Lz lvz m ρ main (fun _ => sgs m)
    (fun c Q => by
      rewrite [main_chain c, Pipeline.Seg.run_eq_chain,
        show (sgs m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2 ] from rfl]
      exact .rfl)
    (fun c => by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tn m)
    (hch := fun c => ⟨.rfl, .rfl, .rfl, .rfl, .rfl, .rfl, .rfl, .rfl, .rfl, .rfl, .rfl, last_chain m c⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

end Cert.KernelIdeal.Frm

end
-- ==== Proof.KIVals.lean ====
/-
  Reading the boundaries' contents back: a buffer no later item writes keeps its contents, so the
  arguments end as launched, the mask vector is what the stretch after region 0 left, and the aligned
  means reach the last stretch as region 1 found them.
-/
import proofs.«104446_j49211735277597_1_alg».proof.Proof.KIRun

set_option maxRecDepth 16384

noncomputable section

namespace Cert.KernelIdeal.Frm

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- From the last boundary back to region 1's exit. -/
theorem W11_back8 (c : Dev nD) (r : Ref sig .tc) (h22 : r ∉ hostOps2_2_W) (h21 : r ∉ hostOps2_1_W) (h2 : r ∉ hostOps2_W) :
    W11 m c (Proc.devRef .tc r) = W8 m c (Proc.devRef .tc r) :=
  (StableHlo.after_of_writes_sub hostOps2_2 _ hostOps2_2_writes h22).trans <|
    (StableHlo.after_of_writes_sub hostOps2_1 _ hostOps2_1_writes h21).trans <|
      StableHlo.after_of_writes_sub hostOps2 _ hostOps2_writes h2
/-- From region 1's entry back to region 0's exit. -/
theorem W7_back2 (c : Dev nD) (r : Ref sig .tc) (h14 : r ∉ hostOps1_4_W) (h13 : r ∉ hostOps1_3_W) (h12 : r ∉ hostOps1_2_W)
    (h11 : r ∉ hostOps1_1_W) (h1 : r ∉ hostOps1_W) : W7 m c (Proc.devRef .tc r) = W2 m c (Proc.devRef .tc r) :=
  (StableHlo.after_of_writes_sub hostOps1_4 _ hostOps1_4_writes h14).trans <|
    (StableHlo.after_of_writes_sub hostOps1_3 _ hostOps1_3_writes h13).trans <|
      (StableHlo.after_of_writes_sub hostOps1_2 _ hostOps1_2_writes h12).trans <|
        (StableHlo.after_of_writes_sub hostOps1_1 _ hostOps1_1_writes h11).trans <|
          StableHlo.after_of_writes_sub hostOps1 _ hostOps1_writes h1
/-- From region 1's entry back to the stretch after region 0. -/
theorem W7_back3 (c : Dev nD) (r : Ref sig .tc) (h14 : r ∉ hostOps1_4_W) (h13 : r ∉ hostOps1_3_W) (h12 : r ∉ hostOps1_2_W)
    (h11 : r ∉ hostOps1_1_W) : W7 m c (Proc.devRef .tc r) = W3 m c (Proc.devRef .tc r) :=
  (StableHlo.after_of_writes_sub hostOps1_4 _ hostOps1_4_writes h14).trans <|
    (StableHlo.after_of_writes_sub hostOps1_3 _ hostOps1_3_writes h13).trans <|
      (StableHlo.after_of_writes_sub hostOps1_2 _ hostOps1_2_writes h12).trans <|
        StableHlo.after_of_writes_sub hostOps1_1 _ hostOps1_1_writes h11
/-- From region 0's entry back to the launch. -/
theorem W1_back0 (c : Dev nD) (r : Ref sig .tc) (h0 : r ∉ hostOps0_W) : W1 m c (Proc.devRef .tc r) = m ((c : Thread nD τ).loc r) :=
  StableHlo.after_of_writes_sub hostOps0 _ hostOps0_writes h0

/-- A buffer no item writes ends as launched. -/
theorem W11_launch (c : Dev nD) (r : Ref sig .tc) (h22 : r ∉ hostOps2_2_W) (h21 : r ∉ hostOps2_1_W) (h2 : r ∉ hostOps2_W)
    (n0 : r ≠ main_v54_0) (n1 : r ≠ main_v54_1) (n2 : r ≠ main_v54_2)
    (h14 : r ∉ hostOps1_4_W) (h13 : r ∉ hostOps1_3_W) (h12 : r ∉ hostOps1_2_W) (h11 : r ∉ hostOps1_1_W) (h1 : r ∉ hostOps1_W)
    (n4 : r ≠ main_v4) (h0 : r ∉ hostOps0_W) : W11 m c (Proc.devRef .tc r) = m ((c : Thread nD τ).loc r) :=
  (W11_back8 m c r h22 h21 h2).trans <| (W8_of_ne m c r n0 n1 n2).trans <| (W7_back2 m c r h14 h13 h12 h11 h1).trans <|
    (W2_of_ne m c r n4).trans (W1_back0 m c r h0)

theorem W11_arg0 (c : Dev nD) : W11 m c (Proc.devRef .tc main_arg0) = m ((c : Thread nD τ).loc main_arg0) :=
  W11_launch m c main_arg0 (by decide) (by decide) (by decide) (by decide) (by decide) (by decide) (by decide) (by decide) (by decide) (by decide) (by decide) (by decide) (by decide)
theorem W11_arg1 (c : Dev nD) : W11 m c (Proc.devRef .tc main_arg1) = m ((c : Thread nD τ).loc main_arg1) :=
  W11_launch m c main_arg1 (by decide) (by decide) (by decide) (by decide) (by decide) (by decide) (by decide) (by decide) (by decide) (by decide) (by decide) (by decide) (by decide)
theorem W11_arg2 (c : Dev nD) : W11 m c (Proc.devRef .tc main_arg2) = m ((c : Thread nD τ).loc main_arg2) :=
  W11_launch m c main_arg2 (by decide) (by decide) (by decide) (by decide) (by decide) (by decide) (by decide) (by decide) (by decide) (by decide) (by decide) (by decide) (by decide)
theorem W11_arg3 (c : Dev nD) : W11 m c (Proc.devRef .tc main_arg3) = m ((c : Thread nD τ).loc main_arg3) :=
  W11_launch m c main_arg3 (by decide) (by decide) (by decide) (by decide) (by decide) (by decide) (by decide) (by decide) (by decide) (by decide) (by decide) (by decide) (by decide)
theorem W11_arg4 (c : Dev nD) : W11 m c (Proc.devRef .tc main_arg4) = m ((c : Thread nD τ).loc main_arg4) :=
  W11_launch m c main_arg4 (by decide) (by decide) (by decide) (by decide) (by decide) (by decide) (by decide) (by decide) (by decide) (by decide) (by decide) (by decide) (by decide)
theorem W11_arg5 (c : Dev nD) : W11 m c (Proc.devRef .tc main_arg5) = m ((c : Thread nD τ).loc main_arg5) :=
  W11_launch m c main_arg5 (by decide) (by decide) (by decide) (by decide) (by decide) (by decide) (by decide) (by decide) (by decide) (by decide) (by decide) (by decide) (by decide)
theorem W11_arg6 (c : Dev nD) : W11 m c (Proc.devRef .tc main_arg6) = m ((c : Thread nD τ).loc main_arg6) :=
  W11_launch m c main_arg6 (by decide) (by decide) (by decide) (by decide) (by decide) (by decide) (by decide) (by decide) (by decide) (by decide) (by decide) (by decide) (by decide)
theorem W11_arg7 (c : Dev nD) : W11 m c (Proc.devRef .tc main_arg7) = m ((c : Thread nD τ).loc main_arg7) :=
  W11_launch m c main_arg7 (by decide) (by decide) (by decide) (by decide) (by decide) (by decide) (by decide) (by decide) (by decide) (by decide) (by decide) (by decide) (by decide)
theorem W11_arg8 (c : Dev nD) : W11 m c (Proc.devRef .tc main_arg8) = m ((c : Thread nD τ).loc main_arg8) :=
  W11_launch m c main_arg8 (by decide) (by decide) (by decide) (by decide) (by decide) (by decide) (by decide) (by decide) (by decide) (by decide) (by decide) (by decide) (by decide)

/-- The mask vector ends as the stretch after region 0 left it. -/
theorem W11_v5 (c : Dev nD) : W11 m c (Proc.devRef .tc main_v5) = W3 m c (Proc.devRef .tc main_v5) :=
  (W11_back8 m c main_v5 (by decide) (by decide) (by decide)).trans <|
    (W8_of_ne m c main_v5 (by decide) (by decide) (by decide)).trans (W7_back3 m c main_v5 (by decide) (by decide) (by decide) (by decide))

/-- The frame: every argument ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W11_arg0 m c),
    (h c _ (mem_uc main_arg1 (by decide))).trans (W11_arg1 m c),
    (h c _ (mem_uc main_arg2 (by decide))).trans (W11_arg2 m c),
    (h c _ (mem_uc main_arg3 (by decide))).trans (W11_arg3 m c),
    (h c _ (mem_uc main_arg4 (by decide))).trans (W11_arg4 m c),
    (h c _ (mem_uc main_arg5 (by decide))).trans (W11_arg5 m c),
    (h c _ (mem_uc main_arg6 (by decide))).trans (W11_arg6 m c),
    (h c _ (mem_uc main_arg7 (by decide))).trans (W11_arg7 m c),
    (h c _ (mem_uc main_arg8 (by decide))).trans (W11_arg8 m c)⟩)
    (run_main m ρ)

end Cert.KernelIdeal.Frm

end
-- ==== Proof.KMid.lean ====
/-
  The host operations of the kernel's program between its two kernel regions, matched with the reference's:
  from the mask column they compute the threshold flags, the per-segment means of the flagged rows (aligned and
  environment), the clamped norms of those means, the "row is not zero" flags of the environment means, and four
  reshapes of these.  Both programs spell these stages with the same operations in the same order, so each side is
  read as one stage function of the mask, the rows and the segment ids, and the two readings are compared.
-/
import proofs.«104446_j49211735277597_1_alg».proof.Proof.Gen.KernelIdeal.Launch
import proofs.«104446_j49211735277597_1_alg».proof.Proof.Gen.ReferenceIdeal.Read
import Idealize.ShloMosaic.Lib.StableHlo.Run

set_option maxRecDepth 4096

noncomputable section

namespace Cert.KMid

open Idealize.ShloMosaic Idealize.ShloMosaic.ValueIdx Idealize.ShloMosaic.StableHlo
open Cert.ReferenceIdeal Cert.ReferenceIdeal.Gen Cert.ReferenceIdeal.Read

/-! ## The stages as functions -/

/-- The 0/1 flags of the rows whose mask exceeds 0.4. -/
def validOf (M : FVec Ideal S200000 .f32) : FVec Ideal S200000 .f32 :=
  uitofp (F := Ideal) .f32 (cmpf (F := Ideal) .ogt M (broadcastInDim S200000 ![] bcast_S_S200000 (constant (F := Ideal) S_ .f32 0x3ECCCCCD#32)))

/-- The 0/1 flags of the rows whose mask is at most 0.3. -/
def envOf (M : FVec Ideal S200000 .f32) : FVec Ideal S200000 .f32 :=
  uitofp (F := Ideal) .f32 (cmpf (F := Ideal) .ole M (broadcastInDim S200000 ![] bcast_S_S200000 (constant (F := Ideal) S_ .f32 0x3E99999A#32)))

/-- The per-segment mean of the rows of x weighted by w: the segment sums of w·x over the segment sums of w clamped
    below at one. -/
def meanOf (w : FVec Ideal S200000 .f32) (x : FVec Ideal S200000x256 .f32)
    (g : (⟨S200000, .i32⟩ : BufTy).Contents (Elt Ideal)) : FVec Ideal S4096x256 .f32 :=
  Host.divf (F := Ideal)
    (Host.scatterAdd (F := Ideal) scatter_S4096x256_S200000x1_S200000x256_1_0_0_1
      (broadcastInDim S4096x256 ![] bcast_S_S4096x256 (constant (F := Ideal) S_ .f32 0x00000000#32))
      (broadcastInDim S200000x1 ![0] bcast_S200000_S200000x1_0 g)
      (mulf (F := Ideal) x (broadcastInDim S200000x256 ![0, 1] bcast_S200000x1_S200000x256_0_1
        (broadcastInDim S200000x1 ![0] bcast_S200000_S200000x1_0 w))))
    (broadcastInDim S4096x256 ![0, 1] bcast_S4096x1_S4096x256_0_1
      (broadcastInDim S4096x1 ![0] bcast_S4096_S4096x1_0
        (maximumf (F := Ideal)
          (Host.scatterAdd (F := Ideal) scatter_S4096_S200000x1_S200000_n_0_0_1
            (broadcastInDim S4096 ![] bcast_S_S4096 (constant (F := Ideal) S_ .f32 0x00000000#32))
            (broadcastInDim S200000x1 ![0] bcast_S200000_S200000x1_0 g) w)
          (broadcastInDim S4096 ![] bcast_S_S4096 (constant (F := Ideal) S_ .f32 0x3F800000#32)))))

/-- The Euclidean norm of each row, clamped below at the word 0x322BCC77. -/
def normOf (A : FVec Ideal S4096x256 .f32) : FVec Ideal S4096 .f32 :=
  maximumf (F := Ideal)
    (Host.sqrt (F := Ideal) (Host.reduceAdd (F := Ideal) (mulf (F := Ideal) A A) (constant (F := Ideal) S_ .f32 0x00000000#32)
      reducesTo_S4096x256_S4096_d1 h_S_))
    (broadcastInDim S4096 ![] bcast_S_S4096 (constant (F := Ideal) S_ .f32 0x322BCC77#32))

/-- The one-bit flags "row r has an entry different from zero". -/
def flagOf (E : FVec Ideal S4096x256 .f32) : (⟨S4096, .i1⟩ : BufTy).Contents (Elt Ideal) :=
  Host.reduce IntOp.ori
    (cmpf (F := Ideal) .une E (broadcastInDim S4096x256 ![] bcast_S_S4096x256 (constant (F := Ideal) S_ .f32 0x00000000#32)))
    (constantI S_ 1 0#1 : (⟨S_, .i1⟩ : BufTy).Contents (Elt Ideal)) reducesTo_S4096x256_S4096_d1 h_S_

/-! ## The reference's stages -/

/-- The reference's aligned means are the means weighted by the mask's "above 0.4" flags. -/
theorem r_v35 (x1 : FVec Ideal S200000x256 .f32) (x2 : FVec Ideal S256x512 .f32) (x3 : FVec Ideal S512 .f32)
    (x4 : FVec Ideal S512x1 .f32) (x5 : FVec Ideal S1 .f32) (x8 : (⟨S200000, .i32⟩ : BufTy).Contents (Elt Ideal)) :
    val_main_v35 (F := Ideal) x1 x2 x3 x4 x5 x8 = meanOf (validOf (val_main_v15 (F := Ideal) x1 x2 x3 x4 x5)) x1 x8 := by
  generalize hM : val_main_v15 (F := Ideal) x1 x2 x3 x4 x5 = M
  simp only [val_main_v35, val_main_v34, val_main_v33, val_main_v32, val_main_v31, val_main_cst_5, val_main_v30,
    val_main_v29, val_main_v28, val_main_cst_4, val_main_v27, val_main_v26, val_main_v25, val_main_cst_3, val_main_v24,
    val_main_v23, val_main_v22, val_main_v18, val_main_v17, val_main_v16, val_main_cst_1, hM]
  rfl

/-- The reference's environment means are the means weighted by the mask's "at most 0.3" flags. -/
theorem r_v49 (x1 : FVec Ideal S200000x256 .f32) (x2 : FVec Ideal S256x512 .f32) (x3 : FVec Ideal S512 .f32)
    (x4 : FVec Ideal S512x1 .f32) (x5 : FVec Ideal S1 .f32) (x8 : (⟨S200000, .i32⟩ : BufTy).Contents (Elt Ideal)) :
    val_main_v49 (F := Ideal) x1 x2 x3 x4 x5 x8 = meanOf (envOf (val_main_v15 (F := Ideal) x1 x2 x3 x4 x5)) x1 x8 := by
  generalize hM : val_main_v15 (F := Ideal) x1 x2 x3 x4 x5 = M
  simp only [val_main_v49, val_main_v48, val_main_v47, val_main_v46, val_main_v45, val_main_cst_8, val_main_v44,
    val_main_v43, val_main_v42, val_main_cst_7, val_main_v41, val_main_v40, val_main_v39, val_main_cst_6, val_main_v38,
    val_main_v37, val_main_v36, val_main_v21, val_main_v20, val_main_v19, val_main_cst_2, hM]
  rfl

/-- The reference's clamped norms of the aligned means. -/
theorem r_v52 (x1 : FVec Ideal S200000x256 .f32) (x2 : FVec Ideal S256x512 .f32) (x3 : FVec Ideal S512 .f32)
    (x4 : FVec Ideal S512x1 .f32) (x5 : FVec Ideal S1 .f32) (x8 : (⟨S200000, .i32⟩ : BufTy).Contents (Elt Ideal)) :
    val_main_v52 (F := Ideal) x1 x2 x3 x4 x5 x8 = normOf (val_main_v35 (F := Ideal) x1 x2 x3 x4 x5 x8) := by
  generalize hA : val_main_v35 (F := Ideal) x1 x2 x3 x4 x5 x8 = A
  simp only [val_main_v52, val_main_v51, val_main_cst_9, val_main_v50, val_main_call1_v1, val_main_call1_cst,
    val_main_call1_v0, hA]
  rfl

/-- The reference's clamped norms of the environment means. -/
theorem r_v55 (x1 : FVec Ideal S200000x256 .f32) (x2 : FVec Ideal S256x512 .f32) (x3 : FVec Ideal S512 .f32)
    (x4 : FVec Ideal S512x1 .f32) (x5 : FVec Ideal S1 .f32) (x8 : (⟨S200000, .i32⟩ : BufTy).Contents (Elt Ideal)) :
    val_main_v55 (F := Ideal) x1 x2 x3 x4 x5 x8 = normOf (val_main_v49 (F := Ideal) x1 x2 x3 x4 x5 x8) := by
  generalize hA : val_main_v49 (F := Ideal) x1 x2 x3 x4 x5 x8 = A
  simp only [val_main_v55, val_main_v54, val_main_cst_10, val_main_v53, val_main_call2_v1, val_main_call2_cst,
    val_main_call2_v0, hA]
  rfl

/-- The reference's "row is not zero" flags of the environment means. -/
theorem r_v81 (x1 : FVec Ideal S200000x256 .f32) (x2 : FVec Ideal S256x512 .f32) (x3 : FVec Ideal S512 .f32)
    (x4 : FVec Ideal S512x1 .f32) (x5 : FVec Ideal S1 .f32) (x8 : (⟨S200000, .i32⟩ : BufTy).Contents (Elt Ideal)) :
    val_main_v81 (F := Ideal) x1 x2 x3 x4 x5 x8 = flagOf (val_main_v49 (F := Ideal) x1 x2 x3 x4 x5 x8) := by
  generalize hA : val_main_v49 (F := Ideal) x1 x2 x3 x4 x5 x8 = A
  simp only [val_main_v81, val_main_c_15, val_main_v80, val_main_v79, val_main_cst_14, hA]
  rfl

/-! ## The kernel program's stretch, read over any contents -/

/-- The contents after the five host stretches between the two kernel regions. -/
abbrev Wmid (W : Valuation Cert.KernelIdeal.τ Cert.KernelIdeal.sig (Elt Ideal)) : Valuation Cert.KernelIdeal.τ Cert.KernelIdeal.sig (Elt Ideal) :=
  after (Cert.KernelIdeal.Gen.hostOps1_4 (F := Ideal)) (after (Cert.KernelIdeal.Gen.hostOps1_3 (F := Ideal))
    (after (Cert.KernelIdeal.Gen.hostOps1_2 (F := Ideal)) (after (Cert.KernelIdeal.Gen.hostOps1_1 (F := Ideal))
      (after (Cert.KernelIdeal.Gen.hostOps1 (F := Ideal)) W))))

theorem k_v5 (W : Valuation Cert.KernelIdeal.τ Cert.KernelIdeal.sig (Elt Ideal)) : Wmid W (Proc.devRef .tc Cert.KernelIdeal.main_v5) = (shapeCast _ (W (Proc.devRef .tc Cert.KernelIdeal.main_v4)) Cert.KernelIdeal.Gen.shapeCasts_S200000x1_S200000) := by
  after_results_simp <;> rfl

theorem k_v25 (W : Valuation Cert.KernelIdeal.τ Cert.KernelIdeal.sig (Elt Ideal)) : Wmid W (Proc.devRef .tc Cert.KernelIdeal.main_v25) = meanOf (validOf (shapeCast _ (W (Proc.devRef .tc Cert.KernelIdeal.main_v4)) Cert.KernelIdeal.Gen.shapeCasts_S200000x1_S200000)) (W (Proc.devRef .tc Cert.KernelIdeal.main_arg1)) (W (Proc.devRef .tc Cert.KernelIdeal.main_arg8)) := by
  after_results_simp <;> rfl

theorem k_v39 (W : Valuation Cert.KernelIdeal.τ Cert.KernelIdeal.sig (Elt Ideal)) : Wmid W (Proc.devRef .tc Cert.KernelIdeal.main_v39) = meanOf (envOf (shapeCast _ (W (Proc.devRef .tc Cert.KernelIdeal.main_v4)) Cert.KernelIdeal.Gen.shapeCasts_S200000x1_S200000)) (W (Proc.devRef .tc Cert.KernelIdeal.main_arg1)) (W (Proc.devRef .tc Cert.KernelIdeal.main_arg8)) := by
  after_results_simp <;> rfl

theorem k_v42 (W : Valuation Cert.KernelIdeal.τ Cert.KernelIdeal.sig (Elt Ideal)) : Wmid W (Proc.devRef .tc Cert.KernelIdeal.main_v42) = normOf (meanOf (validOf (shapeCast _ (W (Proc.devRef .tc Cert.KernelIdeal.main_v4)) Cert.KernelIdeal.Gen.shapeCasts_S200000x1_S200000)) (W (Proc.devRef .tc Cert.KernelIdeal.main_arg1)) (W (Proc.devRef .tc Cert.KernelIdeal.main_arg8))) := by
  after_results_simp <;> rfl

theorem k_v45 (W : Valuation Cert.KernelIdeal.τ Cert.KernelIdeal.sig (Elt Ideal)) : Wmid W (Proc.devRef .tc Cert.KernelIdeal.main_v45) = normOf (meanOf (envOf (shapeCast _ (W (Proc.devRef .tc Cert.KernelIdeal.main_v4)) Cert.KernelIdeal.Gen.shapeCasts_S200000x1_S200000)) (W (Proc.devRef .tc Cert.KernelIdeal.main_arg1)) (W (Proc.devRef .tc Cert.KernelIdeal.main_arg8))) := by
  after_results_simp <;> rfl

theorem k_v49 (W : Valuation Cert.KernelIdeal.τ Cert.KernelIdeal.sig (Elt Ideal)) :
    Wmid W (Proc.devRef .tc Cert.KernelIdeal.main_v49) = uitofp (F := Ideal) .f32 (flagOf (meanOf (envOf (shapeCast _ (W (Proc.devRef .tc Cert.KernelIdeal.main_v4)) Cert.KernelIdeal.Gen.shapeCasts_S200000x1_S200000)) (W (Proc.devRef .tc Cert.KernelIdeal.main_arg1)) (W (Proc.devRef .tc Cert.KernelIdeal.main_arg8)))) := by
  after_results_simp <;> rfl

theorem k_v50 (W : Valuation Cert.KernelIdeal.τ Cert.KernelIdeal.sig (Elt Ideal)) :
    Wmid W (Proc.devRef .tc Cert.KernelIdeal.main_v50)
      = shapeCast S4096x1 (normOf (meanOf (validOf (shapeCast _ (W (Proc.devRef .tc Cert.KernelIdeal.main_v4)) Cert.KernelIdeal.Gen.shapeCasts_S200000x1_S200000)) (W (Proc.devRef .tc Cert.KernelIdeal.main_arg1)) (W (Proc.devRef .tc Cert.KernelIdeal.main_arg8)))) Cert.KernelIdeal.Gen.shapeCasts_S4096_S4096x1 := by
  after_results_simp <;> rfl

theorem k_v51 (W : Valuation Cert.KernelIdeal.τ Cert.KernelIdeal.sig (Elt Ideal)) :
    Wmid W (Proc.devRef .tc Cert.KernelIdeal.main_v51)
      = shapeCast S1x4096 (normOf (meanOf (validOf (shapeCast _ (W (Proc.devRef .tc Cert.KernelIdeal.main_v4)) Cert.KernelIdeal.Gen.shapeCasts_S200000x1_S200000)) (W (Proc.devRef .tc Cert.KernelIdeal.main_arg1)) (W (Proc.devRef .tc Cert.KernelIdeal.main_arg8)))) Cert.KernelIdeal.Gen.shapeCasts_S4096_S1x4096 := by
  after_results_simp <;> rfl

theorem k_v52 (W : Valuation Cert.KernelIdeal.τ Cert.KernelIdeal.sig (Elt Ideal)) :
    Wmid W (Proc.devRef .tc Cert.KernelIdeal.main_v52)
      = shapeCast S1x4096 (normOf (meanOf (envOf (shapeCast _ (W (Proc.devRef .tc Cert.KernelIdeal.main_v4)) Cert.KernelIdeal.Gen.shapeCasts_S200000x1_S200000)) (W (Proc.devRef .tc Cert.KernelIdeal.main_arg1)) (W (Proc.devRef .tc Cert.KernelIdeal.main_arg8)))) Cert.KernelIdeal.Gen.shapeCasts_S4096_S1x4096 := by
  after_results_simp <;> rfl

theorem k_v53 (W : Valuation Cert.KernelIdeal.τ Cert.KernelIdeal.sig (Elt Ideal)) :
    Wmid W (Proc.devRef .tc Cert.KernelIdeal.main_v53)
      = shapeCast S1x4096 (uitofp (F := Ideal) .f32 (flagOf (meanOf (envOf (shapeCast _ (W (Proc.devRef .tc Cert.KernelIdeal.main_v4)) Cert.KernelIdeal.Gen.shapeCasts_S200000x1_S200000)) (W (Proc.devRef .tc Cert.KernelIdeal.main_arg1)) (W (Proc.devRef .tc Cert.KernelIdeal.main_arg8)))))
          Cert.KernelIdeal.Gen.shapeCasts_S4096_S1x4096 := by
  after_results_simp <;> rfl

/-! ## Reshapes read at an index -/

/-- A vector reshaped to a column reads its own entry. -/
theorem cast_col {α : Type} (y : S4096.Idx → α) (h : S4096.ShapeCasts S4096x1) (r : Fin 4096) :
    shapeCast S4096x1 y h (ix2 r (0 : Fin 1)) = y (ix1 r) :=
  shapeCast_apply y h (ix2 r (0 : Fin 1)) (ix1 r)
    (by rewrite [Shape.rowMajor_val_two, Shape.rowMajor_val_one]; show r.val = r.val * 1 + 0; omega)

/-- A vector reshaped to a row reads its own entry. -/
theorem cast_row {α : Type} (y : S4096.Idx → α) (h : S4096.ShapeCasts S1x4096) (c : Fin 4096) :
    shapeCast S1x4096 y h (ix2 (0 : Fin 1) c) = y (ix1 c) :=
  shapeCast_apply y h (ix2 (0 : Fin 1) c) (ix1 c)
    (by rewrite [Shape.rowMajor_val_two, Shape.rowMajor_val_one]; show c.val = 0 * 4096 + c.val; omega)

/-- A one-column array whose entries are those of a vector is that vector, reshaped. -/
theorem mask_col (V : (⟨S200000x1, .f32⟩ : BufTy).Contents (Elt Ideal)) (M : FVec Ideal S200000 .f32)
    (h : S200000x1.ShapeCasts S200000) (hM : ∀ n : Fin 200000, V (ix2 n (0 : Fin 1)) = M (ix1 n)) :
    shapeCast S200000 V h = M := by
  funext i
  have e := shapeCast_apply V h i (ix2 (n0 := 200000) (n1 := 1) (i 0) (0 : Fin 1))
    (by rewrite [Shape.rowMajor_val_two, Shape.rowMajor_val_one]; show (i 0).val * 1 + 0 = (i 0).val; omega)
  exact (e.trans (hM (i 0))).trans (congrArg M (eq_ix1 i).symm)

/-! ## The two programs' stages agree -/

section Agree

variable (W : Valuation Cert.KernelIdeal.τ Cert.KernelIdeal.sig (Elt Ideal)) (x1 : FVec Ideal S200000x256 .f32) (x2 : FVec Ideal S256x512 .f32) (x3 : FVec Ideal S512 .f32)
    (x4 : FVec Ideal S512x1 .f32) (x5 : FVec Ideal S1 .f32) (x8 : (⟨S200000, .i32⟩ : BufTy).Contents (Elt Ideal))
  (hM : ∀ n : Fin 200000, (W (Proc.devRef .tc Cert.KernelIdeal.main_v4) : (⟨S200000x1, .f32⟩ : BufTy).Contents (Elt Ideal)) (ix2 n (0 : Fin 1))
        = val_main_v15 (F := Ideal) x1 x2 x3 x4 x5 (ix1 n))
    (h1 : W (Proc.devRef .tc Cert.KernelIdeal.main_arg1) = x1) (h8 : W (Proc.devRef .tc Cert.KernelIdeal.main_arg8) = x8)

include hM in
theorem mid_v5 : Wmid W (Proc.devRef .tc Cert.KernelIdeal.main_v5) = val_main_v15 (F := Ideal) x1 x2 x3 x4 x5 := by
  rw [k_v5]; exact mask_col _ _ _ hM

include hM h1 h8 in
theorem mid_v25 : Wmid W (Proc.devRef .tc Cert.KernelIdeal.main_v25) = val_main_v35 (F := Ideal) x1 x2 x3 x4 x5 x8 := by
  rw [k_v25, mask_col _ _ _ hM, h1, h8, ← r_v35]

include hM h1 h8 in
theorem mid_v39 : Wmid W (Proc.devRef .tc Cert.KernelIdeal.main_v39) = val_main_v49 (F := Ideal) x1 x2 x3 x4 x5 x8 := by
  rw [k_v39, mask_col _ _ _ hM, h1, h8, ← r_v49]

include hM h1 h8 in
theorem mid_v42 : Wmid W (Proc.devRef .tc Cert.KernelIdeal.main_v42) = val_main_v52 (F := Ideal) x1 x2 x3 x4 x5 x8 := by
  rw [k_v42, mask_col _ _ _ hM, h1, h8, ← r_v35, ← r_v52]

include hM h1 h8 in
theorem mid_v45 : Wmid W (Proc.devRef .tc Cert.KernelIdeal.main_v45) = val_main_v55 (F := Ideal) x1 x2 x3 x4 x5 x8 := by
  rw [k_v45, mask_col _ _ _ hM, h1, h8, ← r_v49, ← r_v55]

include hM h1 h8 in
theorem mid_v49 : Wmid W (Proc.devRef .tc Cert.KernelIdeal.main_v49)
    = fun i => FloatOps.uitofp (F := Ideal) .f32 (val_main_v81 (F := Ideal) x1 x2 x3 x4 x5 x8 i) := by
  rw [k_v49, mask_col _ _ _ hM, h1, h8, ← r_v49, ← r_v81]
  rfl

include hM h1 h8 in
theorem mid_v50 (r : Fin 4096) :
    (Wmid W (Proc.devRef .tc Cert.KernelIdeal.main_v50) : (⟨S4096x1, .f32⟩ : BufTy).Contents (Elt Ideal)) (ix2 r (0 : Fin 1))
      = val_main_v52 (F := Ideal) x1 x2 x3 x4 x5 x8 (ix1 r) := by
  rw [k_v50, mask_col _ _ _ hM, h1, h8, ← r_v35, ← r_v52]
  exact cast_col _ _ r

include hM h1 h8 in
theorem mid_v51 (c : Fin 4096) :
    (Wmid W (Proc.devRef .tc Cert.KernelIdeal.main_v51) : (⟨S1x4096, .f32⟩ : BufTy).Contents (Elt Ideal)) (ix2 (0 : Fin 1) c)
      = val_main_v52 (F := Ideal) x1 x2 x3 x4 x5 x8 (ix1 c) := by
  rw [k_v51, mask_col _ _ _ hM, h1, h8, ← r_v35, ← r_v52]
  exact cast_row _ _ c

include hM h1 h8 in
theorem mid_v52 (c : Fin 4096) :
    (Wmid W (Proc.devRef .tc Cert.KernelIdeal.main_v52) : (⟨S1x4096, .f32⟩ : BufTy).Contents (Elt Ideal)) (ix2 (0 : Fin 1) c)
      = val_main_v55 (F := Ideal) x1 x2 x3 x4 x5 x8 (ix1 c) := by
  rw [k_v52, mask_col _ _ _ hM, h1, h8, ← r_v49, ← r_v55]
  exact cast_row _ _ c

include hM h1 h8 in
theorem mid_v53 (c : Fin 4096) :
    (Wmid W (Proc.devRef .tc Cert.KernelIdeal.main_v53) : (⟨S1x4096, .f32⟩ : BufTy).Contents (Elt Ideal)) (ix2 (0 : Fin 1) c)
      = FloatOps.uitofp (F := Ideal) .f32 (val_main_v81 (F := Ideal) x1 x2 x3 x4 x5 x8 (ix1 c)) := by
  rw [k_v53, mask_col _ _ _ hM, h1, h8, ← r_v49, ← r_v81]
  exact cast_row _ _ c

end Agree

end Cert.KMid

end
-- ==== Proof.Spec.lean ====
/-
  The mathematics both programs compute, written once over the extended reals, index by index.

  A subgraph's mask is the logistic of a two-layer perceptron's logit: the hidden unit k of row n is
  max(∑ⱼ x[n,j]·W1[j,k] + b1[k], 0) and the logit ∑ₖ hidden[n,k]·W2[k,0] + b2[0].
  For two families of 4096 row vectors A, B of length 256 with positive scales a, b, the cosine
  distance of rows r and c is 1 − (∑ₖ A[r,k]·B[c,k]) / (a[r]·b[c]); a row's positive sum adds it over
  all c, its negative sum adds it over all c weighted by a 0/1 flag of c.  A row is "non-zero" when
  one of its entries differs from zero.
-/
import Idealize.ShloMosaic.PureOps.Ideal
import Idealize.ShloMosaic.Lib.ValueIdx

noncomputable section

namespace Cert.Spec

open Idealize.ShloMosaic Idealize.ShloMosaic.ValueIdx

/-- The float words 0.0 and 1.0 read as extended reals (kept as words: never evaluated). -/
abbrev zeroF : EReal := Ideal.ofBits .f32 0x00000000#32
abbrev oneF : EReal := Ideal.ofBits .f32 0x3F800000#32

abbrev T200000x256 : Shape := ⟨2, ![200000, 256]⟩
abbrev T256x512 : Shape := ⟨2, ![256, 512]⟩
abbrev T512 : Shape := ⟨1, ![512]⟩
abbrev T512x1 : Shape := ⟨2, ![512, 1]⟩
abbrev T1 : Shape := ⟨1, ![1]⟩
abbrev T4096x256 : Shape := ⟨2, ![4096, 256]⟩
abbrev T4096 : Shape := ⟨1, ![4096]⟩

/-- Hidden unit k of row n: max(∑ⱼ x[n,j]·W1[j,k] + b1[k], 0). -/
def hid (x : FVec Ideal T200000x256 .f32) (W1 : FVec Ideal T256x512 .f32) (b1 : FVec Ideal T512 .f32)
    (n : Fin 200000) (k : Fin 512) : EReal :=
  max ((∑ j : Fin 256, x (ix2 n j) * W1 (ix2 j k)) + b1 (ix1 k)) zeroF

/-- The logit of row n: ∑ₖ hidden[n,k]·W2[k,0] + b2[0]. -/
def logit (x : FVec Ideal T200000x256 .f32) (W1 : FVec Ideal T256x512 .f32) (b1 : FVec Ideal T512 .f32)
    (W2 : FVec Ideal T512x1 .f32) (b2 : FVec Ideal T1 .f32) (n : Fin 200000) : EReal :=
  (∑ k : Fin 512, hid x W1 b1 n k * W2 (ix2 k (0 : Fin 1))) + b2 (ix1 (0 : Fin 1))

/-- The mask of row n: the logistic of its logit. -/
def maskE (x : FVec Ideal T200000x256 .f32) (W1 : FVec Ideal T256x512 .f32) (b1 : FVec Ideal T512 .f32)
    (W2 : FVec Ideal T512x1 .f32) (b2 : FVec Ideal T1 .f32) (n : Fin 200000) : EReal :=
  Ideal.logistic (logit x W1 b1 W2 b2 n)

/-- The inner product of row r of A with row c of B. -/
def gram (A B : FVec Ideal T4096x256 .f32) (r c : Fin 4096) : EReal :=
  ∑ k : Fin 256, A (ix2 r k) * B (ix2 c k)

/-- The cosine distance of row r of A and row c of B under the scales a, b. -/
def cosd (A B : FVec Ideal T4096x256 .f32) (a b : FVec Ideal T4096 .f32) (r c : Fin 4096) : EReal :=
  oneF - Ideal.div (gram A B r c) (a (ix1 r) * b (ix1 c))

/-- Row r's positive sum: its cosine distances to every row of A itself. -/
def posE (A : FVec Ideal T4096x256 .f32) (a : FVec Ideal T4096 .f32) (r : Fin 4096) : EReal :=
  ∑ c : Fin 4096, cosd A A a a r c

/-- Row r's negative sum: its cosine distances to every row of E, each weighted by the flag of that row. -/
def negE (A E : FVec Ideal T4096x256 .f32) (a e z : FVec Ideal T4096 .f32) (r : Fin 4096) : EReal :=
  ∑ c : Fin 4096, cosd A E a e r c * z (ix1 c)

/-- Row r of A has an entry different from zero. -/
def nzP (A : FVec Ideal T4096x256 .f32) (r : Fin 4096) : Prop := ∃ k : Fin 256, A (ix2 r k) ≠ zeroF

open Classical in
/-- The 0/1 flag of a proposition, as an extended real. -/
def flagE (P : Prop) : EReal := if P then 1 else 0

end Cert.Spec

end
-- ==== Proof.KernelPayPair.lean ====
/-
  The pair kernel's stored values read at an index, over variable loaded blocks, at the extended reals.

  The distance block at (p, c) is one minus the 256-term inner product of row p of the row block with
  row c of the column block (the column block enters transposed), divided by the product of the two
  scales.  The positive sum of row p adds it over the 4096 columns c; the negative sum adds it
  weighted by the flag of column c.  The non-zero flag of row p is the conversion to a float of the
  bit "the maximum over k of the indicator (1 where the entry differs from zero, else 0), started from
  minus infinity, is above zero".
  The narrowing to bf16 is the identity on extended reals; a product into a zero accumulator is the
  plain sum over the contraction coordinate; a lane sum is the sum over the lanes.
-/
import proofs.«104446_j49211735277597_1_alg».proof.Proof.Gen.KernelIdeal.Skeleton
import proofs.«104446_j49211735277597_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelPay

open Idealize.ShloMosaic Idealize.ShloMosaic.ValueIdx
open Cert.KernelIdeal Cert.KernelIdeal.Gen Cert.Spec

/-! ## The pair kernel: the two distance sums -/

theorem lhs_pair_0 (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl
theorem lhs_pair_1 (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q
theorem rhs_pair_0 (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q
theorem rhs_pair_1 (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

/-- The product of a 256×256 block with a 256×4096 block into the zero accumulator, read at (p, c):
    the sum over the contraction coordinate of the operands' products. -/
theorem matmul_pair_apply (a : FVec Ideal S256x256 .bf16) (b : FVec Ideal S256x4096 .bf16) (p : Fin 256) (c : Fin 4096) :
    matmul dot_S256x256_S256x4096_S256x4096_1_0_0_1_n_n none a b (constant (F := Ideal) S256x4096 .f32 0x00000000#32) (ix2 p c)
      = ∑ k : Fin 256, a (ix2 p k) * b (ix2 k c) := by
  simp only [matmul]
  rw [Ideal.matmul_constant_zero_apply, ← Equiv.sum_comp (contrEquiv1 dot_S256x256_S256x4096_S256x4096_1_0_0_1_n_n 256 rfl rfl).symm]
  refine Finset.sum_congr rfl fun k _ => ?_
  have hk := contrEquiv1_symm_val dot_S256x256_S256x4096_S256x4096_1_0_0_1_n_n 256 rfl rfl k
  have el : dot_S256x256_S256x4096_S256x4096_1_0_0_1_n_n.lhsIdx (ix2 p c) ((contrEquiv1 dot_S256x256_S256x4096_S256x4096_1_0_0_1_n_n 256 rfl rfl).symm k) = ix2 p k := funext fun a => Fin.ext (by
    match a with
    | ⟨0, _⟩ => exact lhs_pair_0 _ _
    | ⟨1, _⟩ => exact (lhs_pair_1 _ _).trans hk)
  have er : dot_S256x256_S256x4096_S256x4096_1_0_0_1_n_n.rhsIdx (ix2 p c) ((contrEquiv1 dot_S256x256_S256x4096_S256x4096_1_0_0_1_n_n 256 rfl rfl).symm k) = ix2 k c := funext fun a => Fin.ext (by
    match a with
    | ⟨0, _⟩ => exact (rhs_pair_0 _ _).trans hk
    | ⟨1, _⟩ => exact rhs_pair_1 _ _)
  rw [el, er]

/-- A vector of length 256 viewed as a 256×1 column reads, at (p, 0), the vector at p. -/
theorem shapeCast_col256_apply {α : Type} (x : S256.Idx → α) (h : S256.ShapeCasts S256x1) (p : Fin 256) :
    shapeCast S256x1 x h (ix2 p (0 : Fin 1)) = x (ix1 p) :=
  shapeCast_apply x h _ _ (by
    rw [Shape.rowMajor_val_one, Shape.rowMajor_val_two]
    show p.val = p.val * 1 + 0
    omega)

/-- The lane sum of a 256×4096 block, read at p: the sum over the 4096 lanes of row p. -/
theorem rowsum_pair_apply (src : FVec Ideal S256x4096 .f32) (h : S256x4096.Reduces [1] S256) (hφ : FKind.Formats .f32)
    (hacc : (0x00000000#32 : BitVec 32) = FKind.add.neutral .f32 hφ) (p : Fin 256) :
    multiReduction (F := Ideal) .add [1] S256 src 0x00000000#32 h hφ hacc (ix1 p) = ∑ c : Fin 4096, src (ix2 p c) := by
  refine (Ideal.multiReduction_add_single src 0x00000000#32 h hφ hacc (ix1 p)).trans ?_
  refine Finset.sum_congr rfl fun c _ => congrArg src ?_
  funext a
  match a with
  | ⟨0, _⟩ => rfl
  | ⟨1, _⟩ => rfl

/-- An [a, 1] column broadcast to [a, b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The cosine-distance block of the pair kernel at (p, c): one minus the inner product of row p of the first block
    with row c of the second, divided by the product of the two scales. -/
theorem dist_pay (v0 : Vec Ideal S256x256 .f32) (v3 : Vec Ideal S4096x256 .f32) (v13 : Vec Ideal S256x1 .f32) (v15 : Vec Ideal S1x4096 .f32)
    (p : Fin 256) (c : Fin 4096) :
    k1_pay8 (F := Ideal) v0 v3 v13 v15 (ix2 p c)
      = oneF - Ideal.div (∑ k : Fin 256, v0 (ix2 p k) * v3 (ix2 c k)) (v13 (ix2 p (0 : Fin 1)) * v15 (ix2 (0 : Fin 1) c)) := by
  unfold k1_pay8 k1_pay5 k1_pay4 k1_pay6
  refine congrArg₂ (· - ·) rfl (congrArg₂ Ideal.div ?_ (congrArg₂ (· * ·) ?_ ?_))
  · refine (matmul_pair_apply _ _ p c).trans ?_
    refine Finset.sum_congr rfl fun k _ => congrArg₂ (· * ·) ?_ ?_
    · rw [shapeCast_self]; rfl
    · refine (transpose_ix2_apply _ _ k c).trans ?_
      rw [shapeCast_self]; rfl
  · rw [shapeCast_self]
    exact broadcastTo_a1_ab_apply _ _ p c
  · rw [shapeCast_self]
    exact broadcastTo_1b_ab_apply _ _ p c

theorem pos_pay (v0 : Vec Ideal S256x256 .f32) (v3 : Vec Ideal S4096x256 .f32) (v13 : Vec Ideal S256x1 .f32) (v15 : Vec Ideal S1x4096 .f32) (p : Fin 256) :
    k1_pay2 (F := Ideal) (k1_pay8 v0 v3 v13 v15) (ix2 p (0 : Fin 1)) = ∑ c : Fin 4096, (oneF - Ideal.div (∑ k : Fin 256, v0 (ix2 p k) * v3 (ix2 c k)) (v13 (ix2 p (0 : Fin 1)) * v15 (ix2 (0 : Fin 1) c))) := by
  unfold k1_pay2
  refine (shapeCast_col256_apply _ _ p).trans ?_
  refine (rowsum_pair_apply _ _ _ _ p).trans ?_
  exact Finset.sum_congr rfl fun c _ => dist_pay v0 v3 v13 v15 p c

theorem neg_pay (v0 : Vec Ideal S256x256 .f32) (v6 : Vec Ideal S4096x256 .f32) (v13 : Vec Ideal S256x1 .f32) (v17 v19 : Vec Ideal S1x4096 .f32) (p : Fin 256) :
    k1_pay3 (F := Ideal) (k1_pay7 v19) (k1_pay9 v0 v6 v13 v17) (ix2 p (0 : Fin 1)) = ∑ c : Fin 4096, (oneF - Ideal.div (∑ k : Fin 256, v0 (ix2 p k) * v6 (ix2 c k)) (v13 (ix2 p (0 : Fin 1)) * v17 (ix2 (0 : Fin 1) c))) * v19 (ix2 (0 : Fin 1) c) := by
  unfold k1_pay3 k1_pay7
  refine (shapeCast_col256_apply _ _ p).trans ?_
  refine (rowsum_pair_apply _ _ _ _ p).trans ?_
  refine Finset.sum_congr rfl fun c _ => congrArg₂ (· * ·) ?_ ?_
  · exact dist_pay v0 v6 v13 v17 p c
  · rw [shapeCast_self]
    exact broadcastTo_1b_ab_apply _ _ p c

/-! ## The pair kernel: the non-zero flag -/

/-- The word of 1.0 is the extended real 1. -/
theorem ofBits_one_f32 : Ideal.ofBits .f32 0x3F800000#32 = 1 := IdealRules.sign_bit.ideal_onePat .f32
/-- The word of minus infinity is the bottom element. -/
theorem ofBits_neg_inf_f32 : Ideal.ofBits .f32 0xFF800000#32 = ⊥ := by simp [Ideal.ofBits, Ideal.ieee]

/-- A select on the bit of a decided proposition is the `if` on the proposition. -/
theorem select_decide {α : Type} (P : Prop) [Decidable P] (a b : α) :
    Scalar.select (BitVec.ofBool (decide P)) a b = if P then a else b := by
  unfold Scalar.select
  by_cases h : P
  · rw [if_pos h, decide_eq_true h]; exact if_pos rfl
  · rw [if_neg h, decide_eq_false h]; exact if_neg (by decide)

/-- The indicator block at (p, k): 1.0 where the entry differs from zero, else 0.0. -/
theorem ind_pay (v0 : Vec Ideal S256x256 .f32) (p k : Fin 256) :
    k1_pay10 (F := Ideal) v0 (ix2 p k) = if v0 (ix2 p k) ≠ zeroF then oneF else zeroF := by
  unfold k1_pay10 k1_pay4
  rw [shapeCast_self]
  show Scalar.select (BitVec.ofBool (decide (v0 (ix2 p k) ≠ zeroF))) oneF zeroF = _
  exact select_decide _ _ _

/-- The lane maximum of a 256×256 block from minus infinity, read at p: the fold of max over the 256 lanes of row p. -/
theorem rowmax_pair_apply (src : FVec Ideal S256x256 .f32) (h : S256x256.Reduces [1] S256) (hφ : FKind.Formats .f32)
    (hacc : (0xFF800000#32 : BitVec 32) = FKind.maximumf.neutral .f32 hφ) (p : Fin 256) :
    multiReduction (F := Ideal) .maximumf [1] S256 src 0xFF800000#32 h hφ hacc (ix1 p)
      = (Finset.univ : Finset (Fin 256)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin 256)).fold max (Ideal.ofBits .f32 0xFF800000#32) f) ?_
  funext k
  refine congrArg src ?_
  funext a
  match a with
  | ⟨0, _⟩ => rfl
  | ⟨1, _⟩ => rfl

/-- The float of the widened bit "m is above zero" is the 0/1 flag of that proposition. -/
theorem flag_of_gt (m : EReal) :
    FloatOps.sitofp (F := Ideal) .f32 (BitVec.setWidth 32 (Ideal.cmp .ogt m (Ideal.ofBits .f32 0x00000000#32))) = flagE (0 < m) := by
  rw [Ideal.ofBits_zero_f32]
  unfold flagE
  show (((BitVec.setWidth 32 (BitVec.ofBool (decide (0 < m)))).toInt : ℝ) : EReal) = _
  have e1 : (BitVec.setWidth 32 (BitVec.ofBool true)).toInt = 1 := by decide
  have e0 : (BitVec.setWidth 32 (BitVec.ofBool false)).toInt = 0 := by decide
  by_cases h : 0 < m
  · rw [decide_eq_true h, if_pos h, e1, Int.cast_one, EReal.coe_one]
  · rw [decide_eq_false h, if_neg h, e0, Int.cast_zero, EReal.coe_zero]

/-- The maximum from minus infinity of a 0/1 indicator is above zero exactly when the indicated
    proposition holds somewhere. -/
theorem fold_ind_pos (f : Fin 256 → EReal) (P : Fin 256 → Prop) [DecidablePred P]
    (hf : ∀ k, f k = if P k then oneF else zeroF) :
    0 < (Finset.univ : Finset (Fin 256)).fold max (Ideal.ofBits .f32 0xFF800000#32) f ↔ ∃ k, P k := by
  rw [Finset.lt_fold_max, ofBits_neg_inf_f32]
  constructor
  · rintro (h | ⟨k, _, hk⟩)
    · exact absurd h not_lt_bot
    · refine ⟨k, ?_⟩
      by_contra hP
      rw [hf k, if_neg hP] at hk
      exact lt_irrefl _ (lt_of_lt_of_eq hk Ideal.ofBits_zero_f32)
  · rintro ⟨k, hk⟩
    refine Or.inr ⟨k, Finset.mem_univ k, ?_⟩
    rw [hf k, if_pos hk]
    exact lt_of_lt_of_eq zero_lt_one ofBits_one_f32.symm

theorem nz_pay (v0 : Vec Ideal S256x256 .f32) (p : Fin 256) :
    k1_pay1 (F := Ideal) (k1_pay10 v0) (ix2 p (0 : Fin 1)) = flagE (∃ k : Fin 256, v0 (ix2 p k) ≠ zeroF) := by
  unfold k1_pay1
  simp only [sitofp_apply, extui_apply]
  rw [shapeCast_col256_apply]
  simp only [cmpf_apply, broadcast_apply]
  rw [Ideal.cmpf_def]
  refine (congrArg (fun m : EReal => FloatOps.sitofp (F := Ideal) .f32 (BitVec.setWidth 32 (Ideal.cmp .ogt m (Ideal.ofBits .f32 0x00000000#32)))) (rowmax_pair_apply _ _ _ _ p)).trans ?_
  refine (flag_of_gt _).trans ?_
  exact congrArg flagE (propext (fold_ind_pos _ _ (fun k => ind_pay v0 p k)))

end Cert.KernelPay

end
-- ==== Proof.KArrPair.lean ====
/-
  From blocks to the arrays, for the pair region.

  Each of the 16 grid points t writes back rows 256·t … 256·t + 255 of three columns: the positive
  sums, the negative sums and the non-zero flags.  The blocks it writes are the stored values of its
  input blocks; the two row blocks are rows 256·t … of the first family and of its scale column, and
  the other blocks are whole arrays, so entry y of each written block is that quantity of row
  256·t + y, a function of the arrays as the region finds them.  Row r lies in the block of point
  r / 256, so the blocks cover each column, and each column ends holding its quantity of every row.
-/
import proofs.«104446_j49211735277597_1_alg».proof.Proof.KIFrame1
import proofs.«104446_j49211735277597_1_alg».proof.Proof.KernelPayPair
import proofs.«104446_j49211735277597_1_alg».proof.Proof.Spec
import Idealize.ShloMosaic.Lib.Pipeline.Value

set_option maxRecDepth 16384

noncomputable section

namespace Cert.KArr

open Cert.KernelIdeal Cert.KernelIdeal.Gen Cert.KernelIdeal.Frm Cert.Spec Cert.KernelPay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The positive sum of row r: its cosine distances to every row of B under the scales a, b. -/
def posAt (A B : S4096x256.Idx → EReal) (a : S4096x1.Idx → EReal) (b : S1x4096.Idx → EReal) (r : Fin 4096) : EReal :=
  ∑ c' : Fin 4096, (oneF - Ideal.div (∑ k : Fin 256, A (ix2 r k) * B (ix2 c' k)) (a (ix2 r (0 : Fin 1)) * b (ix2 (0 : Fin 1) c')))

/-- The negative sum of row r: its cosine distances to every row of E, each weighted by the flag z of that row. -/
def negAt (A E : S4096x256.Idx → EReal) (a : S4096x1.Idx → EReal) (e z : S1x4096.Idx → EReal) (r : Fin 4096) : EReal :=
  ∑ c' : Fin 4096, (oneF - Ideal.div (∑ k : Fin 256, A (ix2 r k) * E (ix2 c' k)) (a (ix2 r (0 : Fin 1)) * e (ix2 (0 : Fin 1) c'))) * z (ix2 (0 : Fin 1) c')

/-- The non-zero flag of row r. -/
def nzAt (A : S4096x256.Idx → EReal) (r : Fin 4096) : EReal := flagE (∃ k : Fin 256, A (ix2 r k) ≠ zeroF)

/-- The three output columns, index by index. -/
def posG (A B : S4096x256.Idx → EReal) (a : S4096x1.Idx → EReal) (b : S1x4096.Idx → EReal) : S4096x1.Idx → EReal :=
  fun i => posAt A B a b ⟨(i 0).val, idx2_lt0 i⟩
def negG (A E : S4096x256.Idx → EReal) (a : S4096x1.Idx → EReal) (e z : S1x4096.Idx → EReal) : S4096x1.Idx → EReal :=
  fun i => negAt A E a e z ⟨(i 0).val, idx2_lt0 i⟩
def nzG (A : S4096x256.Idx → EReal) : S4096x1.Idx → EReal :=
  fun i => nzAt A ⟨(i 0).val, idx2_lt0 i⟩

/-- The arrays the pair region reads, as the region finds them, at their literal types. -/
abbrev arrA (c : Dev nD) : S4096x256.Idx → EReal := V c main_v25
abbrev arrE (c : Dev nD) : S4096x256.Idx → EReal := V c main_v39
abbrev arrNa (c : Dev nD) : S4096x1.Idx → EReal := V c main_v50
abbrev arrNb (c : Dev nD) : S1x4096.Idx → EReal := V c main_v51
abbrev arrNe (c : Dev nD) : S1x4096.Idx → EReal := V c main_v52
abbrev arrZ (c : Dev nD) : S1x4096.Idx → EReal := V c main_v53

/-! The printed index maps over the 16 grid points: the row windows sit at block t, the others at block 0. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)

/-- Window 0's block at point t is rows 256·t … 256·t + 255 of the first family. -/
theorem iblk1_0_apply (c : Dev nD) (t : Fin cfg1.N) (x : S256x256.Idx) (k : S4096x256.Idx)
    (hk0 : (k 0).val = 256 * t.val + (x 0).val) (hk1 : (k 1).val = (x 1).val) :
    (iblk1 V c 0 t : Vec Ideal S256x256 .f32) x = (V c main_v25 : S4096x256.Idx → EReal) k := by
  obtain ⟨e0, e1⟩ := idx1_0 t
  unfold iblk1
  rw [View.read_apply]
  show V c main_v25 _ = V c main_v25 _
  congr 1
  funext a
  apply Fin.ext
  match a with
  | ⟨0, _⟩ => show win1_0.index t 0 * 256 + 1 * (x 0).val = (k 0).val; rw [e0, hk0]; omega
  | ⟨1, _⟩ => show win1_0.index t 1 * 256 + 1 * (x 1).val = (k 1).val; rw [e1, hk1]; omega

/-- Window 1's block at every point is the whole first family. -/
theorem iblk1_1_apply (c : Dev nD) (t : Fin cfg1.N) (x : S4096x256.Idx) :
    (iblk1 V c 1 t : Vec Ideal S4096x256 .f32) x = (V c main_v25 : S4096x256.Idx → EReal) x := by
  obtain ⟨e0, e1⟩ := idx1_1 t
  unfold iblk1
  rw [View.read_apply]
  show V c main_v25 _ = V c main_v25 _
  congr 1
  funext a
  apply Fin.ext
  match a with
  | ⟨0, _⟩ => show win1_1.index t 0 * 4096 + 1 * (x 0).val = (x 0).val; rw [e0]; omega
  | ⟨1, _⟩ => show win1_1.index t 1 * 256 + 1 * (x 1).val = (x 1).val; rw [e1]; omega

/-- Window 2's block at every point is the whole second family. -/
theorem iblk1_2_apply (c : Dev nD) (t : Fin cfg1.N) (x : S4096x256.Idx) :
    (iblk1 V c 2 t : Vec Ideal S4096x256 .f32) x = (V c main_v39 : S4096x256.Idx → EReal) x := by
  obtain ⟨e0, e1⟩ := idx1_2 t
  unfold iblk1
  rw [View.read_apply]
  show V c main_v39 _ = V c main_v39 _
  congr 1
  funext a
  apply Fin.ext
  match a with
  | ⟨0, _⟩ => show win1_2.index t 0 * 4096 + 1 * (x 0).val = (x 0).val; rw [e0]; omega
  | ⟨1, _⟩ => show win1_2.index t 1 * 256 + 1 * (x 1).val = (x 1).val; rw [e1]; omega

/-- Window 3's block at point t is rows 256·t … 256·t + 255 of the scale column. -/
theorem iblk1_3_apply (c : Dev nD) (t : Fin cfg1.N) (x : S256x1.Idx) (k : S4096x1.Idx)
    (hk0 : (k 0).val = 256 * t.val + (x 0).val) (hk1 : (k 1).val = (x 1).val) :
    (iblk1 V c 3 t : Vec Ideal S256x1 .f32) x = (V c main_v50 : S4096x1.Idx → EReal) k := by
  obtain ⟨e0, e1⟩ := idx1_3 t
  unfold iblk1
  rw [View.read_apply]
  show V c main_v50 _ = V c main_v50 _
  congr 1
  funext a
  apply Fin.ext
  match a with
  | ⟨0, _⟩ => show win1_3.index t 0 * 256 + 1 * (x 0).val = (k 0).val; rw [e0, hk0]; omega
  | ⟨1, _⟩ => show win1_3.index t 1 * 1 + 1 * (x 1).val = (k 1).val; rw [e1, hk1]; omega

/-- Window 4's block at every point is the whole first scale row. -/
theorem iblk1_4_apply (c : Dev nD) (t : Fin cfg1.N) (x : S1x4096.Idx) :
    (iblk1 V c 4 t : Vec Ideal S1x4096 .f32) x = (V c main_v51 : S1x4096.Idx → EReal) x := by
  obtain ⟨e0, e1⟩ := idx1_4 t
  unfold iblk1
  rw [View.read_apply]
  show V c main_v51 _ = V c main_v51 _
  congr 1
  funext a
  apply Fin.ext
  match a with
  | ⟨0, _⟩ => show win1_4.index t 0 * 1 + 1 * (x 0).val = (x 0).val; rw [e0]; omega
  | ⟨1, _⟩ => show win1_4.index t 1 * 4096 + 1 * (x 1).val = (x 1).val; rw [e1]; omega

/-- Window 5's block at every point is the whole second scale row. -/
theorem iblk1_5_apply (c : Dev nD) (t : Fin cfg1.N) (x : S1x4096.Idx) :
    (iblk1 V c 5 t : Vec Ideal S1x4096 .f32) x = (V c main_v52 : S1x4096.Idx → EReal) x := by
  obtain ⟨e0, e1⟩ := idx1_5 t
  unfold iblk1
  rw [View.read_apply]
  show V c main_v52 _ = V c main_v52 _
  congr 1
  funext a
  apply Fin.ext
  match a with
  | ⟨0, _⟩ => show win1_5.index t 0 * 1 + 1 * (x 0).val = (x 0).val; rw [e0]; omega
  | ⟨1, _⟩ => show win1_5.index t 1 * 4096 + 1 * (x 1).val = (x 1).val; rw [e1]; omega

/-- Window 6's block at every point is the whole flag row. -/
theorem iblk1_6_apply (c : Dev nD) (t : Fin cfg1.N) (x : S1x4096.Idx) :
    (iblk1 V c 6 t : Vec Ideal S1x4096 .f32) x = (V c main_v53 : S1x4096.Idx → EReal) x := by
  obtain ⟨e0, e1⟩ := idx1_6 t
  unfold iblk1
  rw [View.read_apply]
  show V c main_v53 _ = V c main_v53 _
  congr 1
  funext a
  apply Fin.ext
  match a with
  | ⟨0, _⟩ => show win1_6.index t 0 * 1 + 1 * (x 0).val = (x 0).val; rw [e0]; omega
  | ⟨1, _⟩ => show win1_6.index t 1 * 4096 + 1 * (x 1).val = (x 1).val; rw [e1]; omega

/-- The positive-sum block over variable input blocks: where the row blocks are rows 256·T … of A and a, and the
    other blocks are whole arrays, entry y of the stored block is the positive sum of row 256·T + y. -/
theorem pos_block (A B : S4096x256.Idx → EReal) (a : S4096x1.Idx → EReal) (b : S1x4096.Idx → EReal)
    (x0 : Vec Ideal S256x256 .f32) (x1 : Vec Ideal S4096x256 .f32) (x3 : Vec Ideal S256x1 .f32) (x4 : Vec Ideal S1x4096 .f32) (T : Nat)
    (h0 : ∀ (x : S256x256.Idx) (k : S4096x256.Idx), (k 0).val = 256 * T + (x 0).val → (k 1).val = (x 1).val → x0 x = A k)
    (h1 : ∀ x, x1 x = B x)
    (h3 : ∀ (x : S256x1.Idx) (k : S4096x1.Idx), (k 0).val = 256 * T + (x 0).val → (k 1).val = (x 1).val → x3 x = a k)
    (h4 : ∀ x, x4 x = b x)
    (y : S256x1.Idx) (i : S4096x1.Idx) (hi : (i 0).val = 256 * T + (y 0).val) :
    k1_pay2 (F := Ideal) (k1_pay8 x0 x1 x3 x4) y = posG A B a b i := by
  obtain ⟨p, q, rfl⟩ : ∃ (p : Fin 256) (q : Fin 1), y = ix2 p q := ⟨y 0, y 1, eq_ix2 y⟩
  obtain rfl : q = 0 := Subsingleton.elim _ _
  have e0 : ∀ k : Fin 256, x0 (ix2 p k) = A (ix2 ⟨(i 0).val, idx2_lt0 i⟩ k) := fun k => h0 _ _ hi rfl
  have e3 : x3 (ix2 p (0 : Fin 1)) = a (ix2 ⟨(i 0).val, idx2_lt0 i⟩ (0 : Fin 1)) := h3 _ _ hi rfl
  rw [pos_pay]
  unfold posG posAt
  simp only [e0, e3, h1, h4]

/-- The negative-sum block over variable input blocks, likewise. -/
theorem neg_block (A E : S4096x256.Idx → EReal) (a : S4096x1.Idx → EReal) (e z : S1x4096.Idx → EReal)
    (x0 : Vec Ideal S256x256 .f32) (x2 : Vec Ideal S4096x256 .f32) (x3 : Vec Ideal S256x1 .f32) (x5 x6 : Vec Ideal S1x4096 .f32) (T : Nat)
    (h0 : ∀ (x : S256x256.Idx) (k : S4096x256.Idx), (k 0).val = 256 * T + (x 0).val → (k 1).val = (x 1).val → x0 x = A k)
    (h2 : ∀ x, x2 x = E x)
    (h3 : ∀ (x : S256x1.Idx) (k : S4096x1.Idx), (k 0).val = 256 * T + (x 0).val → (k 1).val = (x 1).val → x3 x = a k)
    (h5 : ∀ x, x5 x = e x) (h6 : ∀ x, x6 x = z x)
    (y : S256x1.Idx) (i : S4096x1.Idx) (hi : (i 0).val = 256 * T + (y 0).val) :
    k1_pay3 (F := Ideal) (k1_pay7 x6) (k1_pay9 x0 x2 x3 x5) y = negG A E a e z i := by
  obtain ⟨p, q, rfl⟩ : ∃ (p : Fin 256) (q : Fin 1), y = ix2 p q := ⟨y 0, y 1, eq_ix2 y⟩
  obtain rfl : q = 0 := Subsingleton.elim _ _
  have e0 : ∀ k : Fin 256, x0 (ix2 p k) = A (ix2 ⟨(i 0).val, idx2_lt0 i⟩ k) := fun k => h0 _ _ hi rfl
  have e3 : x3 (ix2 p (0 : Fin 1)) = a (ix2 ⟨(i 0).val, idx2_lt0 i⟩ (0 : Fin 1)) := h3 _ _ hi rfl
  rw [neg_pay]
  unfold negG negAt
  simp only [e0, e3, h2, h5, h6]

/-- The flag block over a variable input block, likewise. -/
theorem nz_block (A : S4096x256.Idx → EReal) (x0 : Vec Ideal S256x256 .f32) (T : Nat)
    (h0 : ∀ (x : S256x256.Idx) (k : S4096x256.Idx), (k 0).val = 256 * T + (x 0).val → (k 1).val = (x 1).val → x0 x = A k)
    (y : S256x1.Idx) (i : S4096x1.Idx) (hi : (i 0).val = 256 * T + (y 0).val) :
    k1_pay1 (F := Ideal) (k1_pay10 x0) y = nzG A i := by
  obtain ⟨p, q, rfl⟩ : ∃ (p : Fin 256) (q : Fin 1), y = ix2 p q := ⟨y 0, y 1, eq_ix2 y⟩
  obtain rfl : q = 0 := Subsingleton.elim _ _
  have e0 : ∀ k : Fin 256, x0 (ix2 p k) = A (ix2 ⟨(i 0).val, idx2_lt0 i⟩ k) := fun k => h0 _ _ hi rfl
  rw [nz_pay]
  unfold nzG nzAt
  simp only [e0]

/-- What point t writes back through window 7 is block t of the positive-sum column. -/
theorem flushed_pos (c : Dev nD) (t : Fin cfg1.N) :
    (dat1 V c).flushed 7 t = ((cfg1.win 7).blk t).view.read (Elt Ideal) (posG (V c main_v25) (V c main_v25) (V c main_v50) (V c main_v51)) := by
  show (cfg1.win 7).cut (grid1.coords t) ((dat1 V c).after 7 t) = _
  rw [after1_7]
  unfold out1_7
  rw [View.canon_unit_zero hz1]
  simp only [View.ld_unit_zero (S := S256x256) hz1, View.ld_unit_zero (S := S4096x256) hz1, View.ld_unit_zero (S := S256x1) hz1, View.ld_unit_zero (S := S1x4096) hz1]
  funext j
  show k1_pay2 (F := Ideal) (k1_pay8 (iblk1 V c 0 t) (iblk1 V c 1 t) (iblk1 V c 3 t) (iblk1 V c 4 t)) j
    = posG (V c main_v25) (V c main_v25) (V c main_v50) (V c main_v51) (((cfg1.win 7).blk t).view.emb j)
  obtain ⟨e0, e1⟩ := idx1_7 t
  exact pos_block (V c main_v25) (V c main_v25) (V c main_v50) (V c main_v51)
    (iblk1 V c 0 t) (iblk1 V c 1 t) (iblk1 V c 3 t) (iblk1 V c 4 t) t.val
    (fun x k hk0 hk1 => iblk1_0_apply V c t x k hk0 hk1) (iblk1_1_apply V c t)
    (fun x k hk0 hk1 => iblk1_3_apply V c t x k hk0 hk1) (iblk1_4_apply V c t)
    j (((cfg1.win 7).blk t).view.emb j)
    (by show win1_7.index t 0 * 256 + 1 * (j 0).val = 256 * t.val + (j 0).val; rw [e0]; omega)

/-- What point t writes back through window 8 is block t of the negative-sum column. -/
theorem flushed_neg (c : Dev nD) (t : Fin cfg1.N) :
    (dat1 V c).flushed 8 t = ((cfg1.win 8).blk t).view.read (Elt Ideal) (negG (V c main_v25) (V c main_v39) (V c main_v50) (V c main_v52) (V c main_v53)) := by
  show (cfg1.win 8).cut (grid1.coords t) ((dat1 V c).after 8 t) = _
  rw [after1_8]
  unfold out1_8
  rw [View.canon_unit_zero hz1]
  simp only [View.ld_unit_zero (S := S256x256) hz1, View.ld_unit_zero (S := S4096x256) hz1, View.ld_unit_zero (S := S256x1) hz1, View.ld_unit_zero (S := S1x4096) hz1]
  funext j
  show k1_pay3 (F := Ideal) (k1_pay7 (iblk1 V c 6 t)) (k1_pay9 (iblk1 V c 0 t) (iblk1 V c 2 t) (iblk1 V c 3 t) (iblk1 V c 5 t)) j
    = negG (V c main_v25) (V c main_v39) (V c main_v50) (V c main_v52) (V c main_v53) (((cfg1.win 8).blk t).view.emb j)
  obtain ⟨e0, e1⟩ := idx1_8 t
  exact neg_block (V c main_v25) (V c main_v39) (V c main_v50) (V c main_v52) (V c main_v53)
    (iblk1 V c 0 t) (iblk1 V c 2 t) (iblk1 V c 3 t) (iblk1 V c 5 t) (iblk1 V c 6 t) t.val
    (fun x k hk0 hk1 => iblk1_0_apply V c t x k hk0 hk1) (iblk1_2_apply V c t)
    (fun x k hk0 hk1 => iblk1_3_apply V c t x k hk0 hk1) (iblk1_5_apply V c t) (iblk1_6_apply V c t)
    j (((cfg1.win 8).blk t).view.emb j)
    (by show win1_8.index t 0 * 256 + 1 * (j 0).val = 256 * t.val + (j 0).val; rw [e0]; omega)

/-- What point t writes back through window 9 is block t of the flag column. -/
theorem flushed_nz (c : Dev nD) (t : Fin cfg1.N) :
    (dat1 V c).flushed 9 t = ((cfg1.win 9).blk t).view.read (Elt Ideal) (nzG (V c main_v25)) := by
  show (cfg1.win 9).cut (grid1.coords t) ((dat1 V c).after 9 t) = _
  rw [after1_9]
  unfold out1_9
  rw [View.canon_unit_zero hz1]
  simp only [View.ld_unit_zero (S := S256x256) hz1]
  funext j
  show k1_pay1 (F := Ideal) (k1_pay10 (iblk1 V c 0 t)) j = nzG (V c main_v25) (((cfg1.win 9).blk t).view.emb j)
  obtain ⟨e0, e1⟩ := idx1_9 t
  exact nz_block (V c main_v25) (iblk1 V c 0 t) t.val
    (fun x k hk0 hk1 => iblk1_0_apply V c t x k hk0 hk1)
    j (((cfg1.win 9).blk t).view.emb j)
    (by show win1_9.index t 0 * 256 + 1 * (j 0).val = 256 * t.val + (j 0).val; rw [e0]; omega)

/-- An index of the column is in point t's block of window 7 iff each coordinate is in the block's range on its axis. -/
theorem mem_blk_pos (t : Fin cfg1.N) (i : S4096x1.Idx) :
    i ∈ ((cfg1.win 7).blk t).view.set ↔ ∀ a : Fin 2, win1_7.index t a * S256x1.size a ≤ (i a).val ∧ (i a).val < win1_7.index t a * S256x1.size a + S256x1.size a := by
  show i ∈ ((View.whole main_v54_0).slice (win1_7.rect t)).set ↔ _
  rw [View.set_slice_whole, Rect.mem_set_unit]
  exact Iff.rfl

/-- Row r of the column lies in the block of point r / 256, which is written back. -/
theorem cover_pos (i : S4096x1.Idx) :
    ∃ t : Fin cfg1.N, (cfg1.win 7).flush t = true ∧ i ∈ ((cfg1.win 7).blk t).view.set := by
  have hi0 : (i 0).val < 4096 := (i 0).isLt
  have hi1 : (i 1).val < 1 := (i 1).isLt
  have hN : cfg1.N = 16 := N_1
  have ht : (i 0).val / 256 < cfg1.N := by rw [hN]; omega
  refine ⟨⟨(i 0).val / 256, ht⟩, flush1_7 _, ?_⟩
  rw [mem_blk_pos]
  obtain ⟨e0, e1⟩ := idx1_7 ⟨(i 0).val / 256, ht⟩
  have e0' : win1_7.index ⟨(i 0).val / 256, ht⟩ (0 : Fin 2) = (i 0).val / 256 := e0
  intro a
  match a with
  | ⟨0, _⟩ =>
    show win1_7.index ⟨(i 0).val / 256, ht⟩ (0 : Fin 2) * 256 ≤ (i 0).val ∧ (i 0).val < win1_7.index ⟨(i 0).val / 256, ht⟩ (0 : Fin 2) * 256 + 256
    rw [e0']; omega
  | ⟨1, _⟩ =>
    show win1_7.index ⟨(i 0).val / 256, ht⟩ (1 : Fin 2) * 1 ≤ (i 1).val ∧ (i 1).val < win1_7.index ⟨(i 0).val / 256, ht⟩ (1 : Fin 2) * 1 + 1
    rw [e1]; omega

/-- An index of the column is in point t's block of window 8 iff each coordinate is in the block's range on its axis. -/
theorem mem_blk_neg (t : Fin cfg1.N) (i : S4096x1.Idx) :
    i ∈ ((cfg1.win 8).blk t).view.set ↔ ∀ a : Fin 2, win1_8.index t a * S256x1.size a ≤ (i a).val ∧ (i a).val < win1_8.index t a * S256x1.size a + S256x1.size a := by
  show i ∈ ((View.whole main_v54_1).slice (win1_8.rect t)).set ↔ _
  rw [View.set_slice_whole, Rect.mem_set_unit]
  exact Iff.rfl

/-- Row r of the column lies in the block of point r / 256, which is written back. -/
theorem cover_neg (i : S4096x1.Idx) :
    ∃ t : Fin cfg1.N, (cfg1.win 8).flush t = true ∧ i ∈ ((cfg1.win 8).blk t).view.set := by
  have hi0 : (i 0).val < 4096 := (i 0).isLt
  have hi1 : (i 1).val < 1 := (i 1).isLt
  have hN : cfg1.N = 16 := N_1
  have ht : (i 0).val / 256 < cfg1.N := by rw [hN]; omega
  refine ⟨⟨(i 0).val / 256, ht⟩, flush1_8 _, ?_⟩
  rw [mem_blk_neg]
  obtain ⟨e0, e1⟩ := idx1_8 ⟨(i 0).val / 256, ht⟩
  have e0' : win1_8.index ⟨(i 0).val / 256, ht⟩ (0 : Fin 2) = (i 0).val / 256 := e0
  intro a
  match a with
  | ⟨0, _⟩ =>
    show win1_8.index ⟨(i 0).val / 256, ht⟩ (0 : Fin 2) * 256 ≤ (i 0).val ∧ (i 0).val < win1_8.index ⟨(i 0).val / 256, ht⟩ (0 : Fin 2) * 256 + 256
    rw [e0']; omega
  | ⟨1, _⟩ =>
    show win1_8.index ⟨(i 0).val / 256, ht⟩ (1 : Fin 2) * 1 ≤ (i 1).val ∧ (i 1).val < win1_8.index ⟨(i 0).val / 256, ht⟩ (1 : Fin 2) * 1 + 1
    rw [e1]; omega

/-- An index of the column is in point t's block of window 9 iff each coordinate is in the block's range on its axis. -/
theorem mem_blk_nz (t : Fin cfg1.N) (i : S4096x1.Idx) :
    i ∈ ((cfg1.win 9).blk t).view.set ↔ ∀ a : Fin 2, win1_9.index t a * S256x1.size a ≤ (i a).val ∧ (i a).val < win1_9.index t a * S256x1.size a + S256x1.size a := by
  show i ∈ ((View.whole main_v54_2).slice (win1_9.rect t)).set ↔ _
  rw [View.set_slice_whole, Rect.mem_set_unit]
  exact Iff.rfl

/-- Row r of the column lies in the block of point r / 256, which is written back. -/
theorem cover_nz (i : S4096x1.Idx) :
    ∃ t : Fin cfg1.N, (cfg1.win 9).flush t = true ∧ i ∈ ((cfg1.win 9).blk t).view.set := by
  have hi0 : (i 0).val < 4096 := (i 0).isLt
  have hi1 : (i 1).val < 1 := (i 1).isLt
  have hN : cfg1.N = 16 := N_1
  have ht : (i 0).val / 256 < cfg1.N := by rw [hN]; omega
  refine ⟨⟨(i 0).val / 256, ht⟩, flush1_9 _, ?_⟩
  rw [mem_blk_nz]
  obtain ⟨e0, e1⟩ := idx1_9 ⟨(i 0).val / 256, ht⟩
  have e0' : win1_9.index ⟨(i 0).val / 256, ht⟩ (0 : Fin 2) = (i 0).val / 256 := e0
  intro a
  match a with
  | ⟨0, _⟩ =>
    show win1_9.index ⟨(i 0).val / 256, ht⟩ (0 : Fin 2) * 256 ≤ (i 0).val ∧ (i 0).val < win1_9.index ⟨(i 0).val / 256, ht⟩ (0 : Fin 2) * 256 + 256
    rw [e0']; omega
  | ⟨1, _⟩ =>
    show win1_9.index ⟨(i 0).val / 256, ht⟩ (1 : Fin 2) * 1 ≤ (i 1).val ∧ (i 1).val < win1_9.index ⟨(i 0).val / 256, ht⟩ (1 : Fin 2) * 1 + 1
    rw [e1]; omega

/-- The three output columns after the region. -/
theorem pos_final (c : Dev nD) :
    (dat1 V c).arrAt 7 cfg1.N = posG (V c main_v25) (V c main_v25) (V c main_v50) (V c main_v51) :=
  (dat1 V c).arrAt_eq_of_cover 7 (posG (V c main_v25) (V c main_v25) (V c main_v50) (V c main_v51))
    (fun t _ => flushed_pos V c t) cover_pos
theorem neg_final (c : Dev nD) :
    (dat1 V c).arrAt 8 cfg1.N = negG (V c main_v25) (V c main_v39) (V c main_v50) (V c main_v52) (V c main_v53) :=
  (dat1 V c).arrAt_eq_of_cover 8 (negG (V c main_v25) (V c main_v39) (V c main_v50) (V c main_v52) (V c main_v53))
    (fun t _ => flushed_neg V c t) cover_neg
theorem nz_final (c : Dev nD) :
    (dat1 V c).arrAt 9 cfg1.N = nzG (V c main_v25) :=
  (dat1 V c).arrAt_eq_of_cover 9 (nzG (V c main_v25)) (fun t _ => flushed_nz V c t) cover_nz

/-- The positive-sum column after the region, at row r. -/
theorem pos_arr (c : Dev nD) (r : Fin 4096) :
    (dat1 (F := Ideal) V c).arrAt 7 cfg1.N (ix2 r (0 : Fin 1))
      = ∑ c' : Fin 4096, (oneF - Ideal.div (∑ k : Fin 256, arrA V c (ix2 r k) * arrA V c (ix2 c' k)) (arrNa V c (ix2 r (0 : Fin 1)) * arrNb V c (ix2 (0 : Fin 1) c'))) :=
  congrFun (pos_final V c) (ix2 r (0 : Fin 1))

/-- The negative-sum column after the region, at row r. -/
theorem neg_arr (c : Dev nD) (r : Fin 4096) :
    (dat1 (F := Ideal) V c).arrAt 8 cfg1.N (ix2 r (0 : Fin 1))
      = ∑ c' : Fin 4096, (oneF - Ideal.div (∑ k : Fin 256, arrA V c (ix2 r k) * arrE V c (ix2 c' k)) (arrNa V c (ix2 r (0 : Fin 1)) * arrNe V c (ix2 (0 : Fin 1) c'))) * arrZ V c (ix2 (0 : Fin 1) c') :=
  congrFun (neg_final V c) (ix2 r (0 : Fin 1))

/-- The flag column after the region, at row r. -/
theorem nz_arr (c : Dev nD) (r : Fin 4096) :
    (dat1 (F := Ideal) V c).arrAt 9 cfg1.N (ix2 r (0 : Fin 1)) = flagE (∃ k : Fin 256, arrA V c (ix2 r k) ≠ zeroF) :=
  congrFun (nz_final V c) (ix2 r (0 : Fin 1))

end Cert.KArr

end
-- ==== Proof.KernelPayMask.lean ====
/-
  The mask kernel's stored value read at an index, over variable loaded blocks, at the extended reals.

  Row p of the stored column is the logistic of the logit: the 256-term inner product of row p of the
  input block with column k of the first weight block, plus the first bias at k, cut below at zero,
  times the second weight at k, summed over the 512 hidden units k, plus the second bias.
  The narrowing to bf16 is the identity on extended reals; the product into a zero accumulator is the
  plain sum over the contraction coordinate; the lane sum is the sum over the 512 lanes.
-/
import proofs.«104446_j49211735277597_1_alg».proof.Proof.Gen.KernelIdeal.Skeleton
import proofs.«104446_j49211735277597_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelPay

open Idealize.ShloMosaic Idealize.ShloMosaic.ValueIdx
open Cert.KernelIdeal Cert.KernelIdeal.Gen Cert.Spec

/-! ## The mask kernel -/

theorem lhs_mask_0 (i : S4000x512.Idx) (q : dot_S4000x256_S256x512_S4000x512_1_0_0_1_n_n.contr.Idx) :
    (dot_S4000x256_S256x512_S4000x512_1_0_0_1_n_n.lhsIdx i q 0).val = (i 0).val := by
  unfold DotDims.lhsIdx
  rw [dif_neg (show ¬(0 : Fin S4000x256.rank) ∈ dot_S4000x256_S256x512_S4000x512_1_0_0_1_n_n.lhsBatch by decide), dif_pos (show (0 : Fin S4000x256.rank) ∈ dot_S4000x256_S256x512_S4000x512_1_0_0_1_n_n.lhsNonContracting by decide)]
  rfl
theorem lhs_mask_1 (i : S4000x512.Idx) (q : dot_S4000x256_S256x512_S4000x512_1_0_0_1_n_n.contr.Idx) :
    (dot_S4000x256_S256x512_S4000x512_1_0_0_1_n_n.lhsIdx i q 1).val = (q ⟨0, by decide⟩).val :=
  dot_S4000x256_S256x512_S4000x512_1_0_0_1_n_n.lhsIdx_val_of_single rfl i q
theorem rhs_mask_0 (i : S4000x512.Idx) (q : dot_S4000x256_S256x512_S4000x512_1_0_0_1_n_n.contr.Idx) :
    (dot_S4000x256_S256x512_S4000x512_1_0_0_1_n_n.rhsIdx i q 0).val = (q ⟨0, by decide⟩).val :=
  dot_S4000x256_S256x512_S4000x512_1_0_0_1_n_n.rhsIdx_val_of_single rfl i q
theorem rhs_mask_1 (i : S4000x512.Idx) (q : dot_S4000x256_S256x512_S4000x512_1_0_0_1_n_n.contr.Idx) :
    (dot_S4000x256_S256x512_S4000x512_1_0_0_1_n_n.rhsIdx i q 1).val = (i 1).val := by
  unfold DotDims.rhsIdx
  rw [dif_neg (show ¬(1 : Fin S256x512.rank) ∈ dot_S4000x256_S256x512_S4000x512_1_0_0_1_n_n.rhsBatch by decide), dif_pos (show (1 : Fin S256x512.rank) ∈ dot_S4000x256_S256x512_S4000x512_1_0_0_1_n_n.rhsNonContracting by decide)]
  rfl

/-- The product of a 4000×256 block with a 256×512 block into the zero accumulator, read at (p, k):
    the sum over the contraction coordinate of the operands' products. -/
theorem matmul_mask_apply (a : FVec Ideal S4000x256 .bf16) (b : FVec Ideal S256x512 .bf16) (p : Fin 4000) (k : Fin 512) :
    matmul dot_S4000x256_S256x512_S4000x512_1_0_0_1_n_n none a b (constant (F := Ideal) S4000x512 .f32 0x00000000#32) (ix2 p k)
      = ∑ j : Fin 256, a (ix2 p j) * b (ix2 j k) := by
  simp only [matmul]
  rw [Ideal.matmul_constant_zero_apply, ← Equiv.sum_comp (contrEquiv1 dot_S4000x256_S256x512_S4000x512_1_0_0_1_n_n 256 rfl rfl).symm]
  refine Finset.sum_congr rfl fun j _ => ?_
  have hk := contrEquiv1_symm_val dot_S4000x256_S256x512_S4000x512_1_0_0_1_n_n 256 rfl rfl j
  have el : dot_S4000x256_S256x512_S4000x512_1_0_0_1_n_n.lhsIdx (ix2 p k) ((contrEquiv1 dot_S4000x256_S256x512_S4000x512_1_0_0_1_n_n 256 rfl rfl).symm j) = ix2 p j := funext fun a => Fin.ext (by
    match a with
    | ⟨0, _⟩ => exact lhs_mask_0 _ _
    | ⟨1, _⟩ => exact (lhs_mask_1 _ _).trans hk)
  have er : dot_S4000x256_S256x512_S4000x512_1_0_0_1_n_n.rhsIdx (ix2 p k) ((contrEquiv1 dot_S4000x256_S256x512_S4000x512_1_0_0_1_n_n 256 rfl rfl).symm j) = ix2 j k := funext fun a => Fin.ext (by
    match a with
    | ⟨0, _⟩ => exact (rhs_mask_0 _ _).trans hk
    | ⟨1, _⟩ => exact rhs_mask_1 _ _)
  rw [el, er]

/-- A vector of length 4000 viewed as a 4000×1 column reads, at (p, 0), the vector at p. -/
theorem shapeCast_col4000_apply {α : Type} (x : S4000.Idx → α) (h : S4000.ShapeCasts S4000x1) (p : Fin 4000) :
    shapeCast S4000x1 x h (ix2 p (0 : Fin 1)) = x (ix1 p) :=
  shapeCast_apply x h _ _ (by
    rw [Shape.rowMajor_val_one, Shape.rowMajor_val_two]
    show p.val = p.val * 1 + 0
    omega)

/-- The lane sum of a 4000×512 block, read at p: the sum over the 512 lanes of row p. -/
theorem rowsum_mask_apply (src : FVec Ideal S4000x512 .f32) (h : S4000x512.Reduces [1] S4000) (hφ : FKind.Formats .f32)
    (hacc : (0x00000000#32 : BitVec 32) = FKind.add.neutral .f32 hφ) (p : Fin 4000) :
    multiReduction (F := Ideal) .add [1] S4000 src 0x00000000#32 h hφ hacc (ix1 p) = ∑ k : Fin 512, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

theorem mask_pay (v0 : Vec Ideal S4000x256 .f32) (v2 : Vec Ideal S256x512 .bf16) (v5 v11 : Vec Ideal S1x512 .f32) (v17 : Vec Ideal S1x1 .f32) (p : Fin 4000) :
    k0_pay1 (F := Ideal) v0 v2 v5 v11 v17 (ix2 p (0 : Fin 1)) = Ideal.logistic ((∑ k : Fin 512, max ((∑ j : Fin 256, v0 (ix2 p j) * v2 (ix2 j k)) + v5 (ix2 (0 : Fin 1) k)) zeroF * v11 (ix2 (0 : Fin 1) k)) + v17 (ix2 (0 : Fin 1) (0 : Fin 1))) := by
  unfold k0_pay1
  refine congrArg Ideal.logistic ?_
  refine congrArg₂ (· + ·) ?_ ?_
  · refine (shapeCast_col4000_apply _ _ p).trans ?_
    refine (rowsum_mask_apply _ _ _ _ p).trans ?_
    refine Finset.sum_congr rfl fun k _ => ?_
    refine congrArg₂ (· * ·) (congrArg₂ max (congrArg₂ (· + ·) ?_ ?_) rfl) ?_
    · refine (matmul_mask_apply _ _ p k).trans ?_
      rw [shapeCast_self]
      rfl
    · rw [shapeCast_self]
      exact broadcastTo_1b_ab_apply _ _ p k
    · rw [shapeCast_self]
      exact broadcastTo_1b_ab_apply _ _ p k
  · rw [shapeCast_self]
    exact broadcastTo_1b_ab_apply _ _ p (0 : Fin 1)

end Cert.KernelPay

end
-- ==== Proof.KArrMask.lean ====
/-
  From blocks to the array, for the mask region.

  Each of the 50 grid points t writes back rows 4000·t … 4000·t + 3999 of the mask column.  The block
  it writes is the stored value of its five input blocks; the row block is rows 4000·t … of the
  feature array and the other four blocks are whole arrays, so entry y of the written block is the
  mask of row 4000·t + y, a function of the five arrays as the region finds them.  Row n lies in the
  block of point n / 4000, so the blocks cover the column, and the column ends holding the mask of
  every row.
-/
import proofs.«104446_j49211735277597_1_alg».proof.Proof.KIFrame0
import proofs.«104446_j49211735277597_1_alg».proof.Proof.KernelPayMask
import proofs.«104446_j49211735277597_1_alg».proof.Proof.Spec
import Idealize.ShloMosaic.Lib.Pipeline.Value

set_option maxRecDepth 16384

noncomputable section

namespace Cert.KArr

open Cert.KernelIdeal Cert.KernelIdeal.Gen Cert.KernelIdeal.Frm Cert.Spec Cert.KernelPay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The mask of row n as a function of the five arrays. -/
def maskAt (X : S200000x256.Idx → EReal) (W1 : S256x512.Idx → EReal) (b1 W2 : S1x512.Idx → EReal) (b2 : S1x1.Idx → EReal)
    (n : Fin 200000) : EReal :=
  Ideal.logistic ((∑ k : Fin 512, max ((∑ j : Fin 256, X (ix2 n j) * W1 (ix2 j k)) + b1 (ix2 (0 : Fin 1) k)) zeroF * W2 (ix2 (0 : Fin 1) k)) + b2 (ix2 (0 : Fin 1) (0 : Fin 1)))

/-- The whole mask column. -/
def maskG (X : S200000x256.Idx → EReal) (W1 : S256x512.Idx → EReal) (b1 W2 : S1x512.Idx → EReal) (b2 : S1x1.Idx → EReal) :
    S200000x1.Idx → EReal :=
  fun i => maskAt X W1 b1 W2 b2 ⟨(i 0).val, idx2_lt0 i⟩

/-- The printed index maps over the 50 grid points: the row windows sit at block t, the others at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The five arrays the mask region reads, as the region finds them, at their literal types. -/
abbrev arrX (c : Dev nD) : S200000x256.Idx → EReal := V c main_arg1
abbrev arrW1 (c : Dev nD) : S256x512.Idx → EReal := V c main_v0
abbrev arrB1 (c : Dev nD) : S1x512.Idx → EReal := V c main_v1
abbrev arrW2 (c : Dev nD) : S1x512.Idx → EReal := V c main_v2
abbrev arrB2 (c : Dev nD) : S1x1.Idx → EReal := V c main_v3

/-- Window 0's block at point t is rows 4000·t … 4000·t + 3999 of the feature array. -/
theorem iblk0_0_apply (c : Dev nD) (t : Fin cfg0.N) (x : S4000x256.Idx) (k : S200000x256.Idx)
    (hk0 : (k 0).val = 4000 * t.val + (x 0).val) (hk1 : (k 1).val = (x 1).val) :
    (iblk0 V c 0 t : Vec Ideal S4000x256 .f32) x = (V c main_arg1 : S200000x256.Idx → EReal) k := by
  obtain ⟨e0, e1, -⟩ := idx_facts0 t
  unfold iblk0
  rw [View.read_apply]
  show V c main_arg1 _ = V c main_arg1 _
  congr 1
  funext a
  apply Fin.ext
  match a with
  | ⟨0, _⟩ => show win0_0.index t 0 * 4000 + 1 * (x 0).val = (k 0).val; rw [e0, hk0]; omega
  | ⟨1, _⟩ => show win0_0.index t 1 * 256 + 1 * (x 1).val = (k 1).val; rw [e1, hk1]; omega

/-- Window 1's block at every point is the whole first weight matrix. -/
theorem iblk0_1_apply (c : Dev nD) (t : Fin cfg0.N) (x : S256x512.Idx) :
    (iblk0 V c 1 t : Vec Ideal S256x512 .bf16) x = (V c main_v0 : S256x512.Idx → EReal) x := by
  obtain ⟨-, -, e0, e1, -⟩ := idx_facts0 t
  unfold iblk0
  rw [View.read_apply]
  show V c main_v0 _ = V c main_v0 _
  congr 1
  funext a
  apply Fin.ext
  match a with
  | ⟨0, _⟩ => show win0_1.index t 0 * 256 + 1 * (x 0).val = (x 0).val; rw [e0]; omega
  | ⟨1, _⟩ => show win0_1.index t 1 * 512 + 1 * (x 1).val = (x 1).val; rw [e1]; omega

/-- Window 2's block at every point is the whole first bias row. -/
theorem iblk0_2_apply (c : Dev nD) (t : Fin cfg0.N) (x : S1x512.Idx) :
    (iblk0 V c 2 t : Vec Ideal S1x512 .f32) x = (V c main_v1 : S1x512.Idx → EReal) x := by
  obtain ⟨-, -, -, -, e0, e1, -⟩ := idx_facts0 t
  unfold iblk0
  rw [View.read_apply]
  show V c main_v1 _ = V c main_v1 _
  congr 1
  funext a
  apply Fin.ext
  match a with
  | ⟨0, _⟩ => show win0_2.index t 0 * 1 + 1 * (x 0).val = (x 0).val; rw [e0]; omega
  | ⟨1, _⟩ => show win0_2.index t 1 * 512 + 1 * (x 1).val = (x 1).val; rw [e1]; omega

/-- Window 3's block at every point is the whole second weight row. -/
theorem iblk0_3_apply (c : Dev nD) (t : Fin cfg0.N) (x : S1x512.Idx) :
    (iblk0 V c 3 t : Vec Ideal S1x512 .f32) x = (V c main_v2 : S1x512.Idx → EReal) x := by
  obtain ⟨-, -, -, -, -, -, e0, e1, -⟩ := idx_facts0 t
  unfold iblk0
  rw [View.read_apply]
  show V c main_v2 _ = V c main_v2 _
  congr 1
  funext a
  apply Fin.ext
  match a with
  | ⟨0, _⟩ => show win0_3.index t 0 * 1 + 1 * (x 0).val = (x 0).val; rw [e0]; omega
  | ⟨1, _⟩ => show win0_3.index t 1 * 512 + 1 * (x 1).val = (x 1).val; rw [e1]; omega

/-- Window 4's block at every point is the whole second bias. -/
theorem iblk0_4_apply (c : Dev nD) (t : Fin cfg0.N) (x : S1x1.Idx) :
    (iblk0 V c 4 t : Vec Ideal S1x1 .f32) x = (V c main_v3 : S1x1.Idx → EReal) x := by
  obtain ⟨-, -, -, -, -, -, -, -, e0, e1, -⟩ := idx_facts0 t
  unfold iblk0
  rw [View.read_apply]
  show V c main_v3 _ = V c main_v3 _
  congr 1
  funext a
  apply Fin.ext
  match a with
  | ⟨0, _⟩ => show win0_4.index t 0 * 1 + 1 * (x 0).val = (x 0).val; rw [e0]; omega
  | ⟨1, _⟩ => show win0_4.index t 1 * 1 + 1 * (x 1).val = (x 1).val; rw [e1]; omega

/-- The stored block over variable input blocks: where the row block is rows 4000·T … of X and the other
    blocks are the whole arrays, entry y of the stored block is the mask of row 4000·T + y. -/
theorem mask_block (X : S200000x256.Idx → EReal) (W1 : S256x512.Idx → EReal) (b1 W2 : S1x512.Idx → EReal) (b2 : S1x1.Idx → EReal)
    (x0 : Vec Ideal S4000x256 .f32) (x1 : Vec Ideal S256x512 .bf16) (x2 x3 : Vec Ideal S1x512 .f32) (x4 : Vec Ideal S1x1 .f32) (T : Nat)
    (h0 : ∀ (x : S4000x256.Idx) (k : S200000x256.Idx), (k 0).val = 4000 * T + (x 0).val → (k 1).val = (x 1).val → x0 x = X k)
    (h1 : ∀ x, x1 x = W1 x) (h2 : ∀ x, x2 x = b1 x) (h3 : ∀ x, x3 x = W2 x) (h4 : ∀ x, x4 x = b2 x)
    (y : S4000x1.Idx) (i : S200000x1.Idx) (hi : (i 0).val = 4000 * T + (y 0).val) :
    k0_pay1 (F := Ideal) x0 x1 x2 x3 x4 y = maskG X W1 b1 W2 b2 i := by
  obtain ⟨p, q, rfl⟩ : ∃ (p : Fin 4000) (q : Fin 1), y = ix2 p q := ⟨y 0, y 1, eq_ix2 y⟩
  obtain rfl : q = 0 := Subsingleton.elim _ _
  have e0 : ∀ j : Fin 256, x0 (ix2 p j) = X (ix2 ⟨(i 0).val, idx2_lt0 i⟩ j) := fun j => h0 _ _ hi rfl
  rw [mask_pay]
  unfold maskG maskAt
  simp only [e0, h1, h2, h3, h4]

/-- What point t writes back is block t of the mask column of the arrays as the region finds them. -/
theorem flushed_mask (c : Dev nD) (t : Fin cfg0.N) :
    (dat0 V c).flushed 5 t = ((cfg0.win 5).blk t).view.read (Elt Ideal) (maskG (V c main_arg1) (V c main_v0) (V c main_v1) (V c main_v2) (V c main_v3)) := by
  show (cfg0.win 5).cut (grid0.coords t) ((dat0 V c).after 5 t) = _
  rw [after0_5]
  unfold out0_5
  rw [View.canon_unit_zero hz]
  simp only [View.ld_unit_zero (S := S4000x256) hz, View.ld_unit_zero (S := S256x512) hz, View.ld_unit_zero (S := S1x512) hz, View.ld_unit_zero (S := S1x1) hz]
  funext j
  show k0_pay1 (F := Ideal) (iblk0 V c 0 t) (iblk0 V c 1 t) (iblk0 V c 2 t) (iblk0 V c 3 t) (iblk0 V c 4 t) j
    = maskG (V c main_arg1) (V c main_v0) (V c main_v1) (V c main_v2) (V c main_v3) (((cfg0.win 5).blk t).view.emb j)
  obtain ⟨-, -, -, -, -, -, -, -, -, -, e0, e1⟩ := idx_facts0 t
  exact mask_block (V c main_arg1) (V c main_v0) (V c main_v1) (V c main_v2) (V c main_v3)
    (iblk0 V c 0 t) (iblk0 V c 1 t) (iblk0 V c 2 t) (iblk0 V c 3 t) (iblk0 V c 4 t) t.val
    (fun x k hk0 hk1 => iblk0_0_apply V c t x k hk0 hk1) (iblk0_1_apply V c t) (iblk0_2_apply V c t) (iblk0_3_apply V c t) (iblk0_4_apply V c t)
    j (((cfg0.win 5).blk t).view.emb j)
    (by show win0_5.index t 0 * 4000 + 1 * (j 0).val = 4000 * t.val + (j 0).val; rw [e0]; omega)

/-- An index of the mask column is in point t's block iff each coordinate is in the block's range on its axis. -/
theorem mem_blk_mask (t : Fin cfg0.N) (i : S200000x1.Idx) :
    i ∈ ((cfg0.win 5).blk t).view.set ↔ ∀ a : Fin 2, win0_5.index t a * S4000x1.size a ≤ (i a).val ∧ (i a).val < win0_5.index t a * S4000x1.size a + S4000x1.size a := by
  show i ∈ ((View.whole main_v4).slice (win0_5.rect t)).set ↔ _
  rw [View.set_slice_whole, Rect.mem_set_unit]
  exact Iff.rfl

/-- Row n of the column lies in the block of point n / 4000, which is written back. -/
theorem cover_mask (i : S200000x1.Idx) :
    ∃ t : Fin cfg0.N, (cfg0.win 5).flush t = true ∧ i ∈ ((cfg0.win 5).blk t).view.set := by
  have hi0 : (i 0).val < 200000 := (i 0).isLt
  have hi1 : (i 1).val < 1 := (i 1).isLt
  have hN : cfg0.N = 50 := N_0
  have ht : (i 0).val / 4000 < cfg0.N := by rw [hN]; omega
  refine ⟨⟨(i 0).val / 4000, ht⟩, flush0_5 _, ?_⟩
  rw [mem_blk_mask]
  obtain ⟨-, -, -, -, -, -, -, -, -, -, e0, e1⟩ := idx_facts0 ⟨(i 0).val / 4000, ht⟩
  have e0' : win0_5.index ⟨(i 0).val / 4000, ht⟩ (0 : Fin 2) = (i 0).val / 4000 := e0
  intro a
  match a with
  | ⟨0, _⟩ =>
    show win0_5.index ⟨(i 0).val / 4000, ht⟩ (0 : Fin 2) * 4000 ≤ (i 0).val ∧ (i 0).val < win0_5.index ⟨(i 0).val / 4000, ht⟩ (0 : Fin 2) * 4000 + 4000
    rw [e0']; omega
  | ⟨1, _⟩ =>
    show win0_5.index ⟨(i 0).val / 4000, ht⟩ (1 : Fin 2) * 1 ≤ (i 1).val ∧ (i 1).val < win0_5.index ⟨(i 0).val / 4000, ht⟩ (1 : Fin 2) * 1 + 1
    rw [e1]; omega

/-- The mask column after the region: the mask of every row, of the arrays as the region finds them. -/
theorem mask_final (c : Dev nD) :
    (dat0 V c).arrAt 5 cfg0.N = maskG (V c main_arg1) (V c main_v0) (V c main_v1) (V c main_v2) (V c main_v3) :=
  (dat0 V c).arrAt_eq_of_cover 5 (maskG (V c main_arg1) (V c main_v0) (V c main_v1) (V c main_v2) (V c main_v3))
    (fun t _ => flushed_mask V c t) cover_mask

/-- The mask column after the region, at row n. -/
theorem mask_arr (c : Dev nD) (n : Fin 200000) :
    (dat0 (F := Ideal) V c).arrAt 5 cfg0.N (ix2 n (0 : Fin 1))
      = Ideal.logistic ((∑ k : Fin 512, max ((∑ j : Fin 256, arrX V c (ix2 n j) * arrW1 V c (ix2 j k)) + arrB1 V c (ix2 (0 : Fin 1) k)) zeroF * arrW2 V c (ix2 (0 : Fin 1) k)) + arrB2 V c (ix2 (0 : Fin 1) (0 : Fin 1))) :=
  congrFun (mask_final V c) (ix2 n (0 : Fin 1))

end Cert.KArr

end
-- ==== Proof.KMaskCol.lean ====
/-
  The mask column in terms of the argument arrays.

  Before the mask region four operations prepare its inputs: the first weight matrix narrowed to bf16
  (the identity on extended reals), the first bias [512] viewed as a row [1,512], the second weight
  column [512,1] viewed as a row [1,512], and the second bias [1] viewed as [1,1]; the feature array
  is left as it was.  Reading each view at an index — row (0, k) of a reshaped vector is its entry k,
  row (0, k) of the reshaped column is its entry (k, 0) — turns the mask of row n, as the region
  computes it from the prepared arrays, into the specification's mask of row n of the arguments.
-/
import proofs.«104446_j49211735277597_1_alg».proof.Proof.KArrMask
import proofs.«104446_j49211735277597_1_alg».proof.Proof.Spec
import proofs.«104446_j49211735277597_1_alg».proof.Proof.Gen.KernelIdeal.Regions
import Idealize.ShloMosaic.Lib.StableHlo.Run

set_option maxRecDepth 16384

noncomputable section

namespace Cert.KMaskCol

open Cert.KernelIdeal Cert.KernelIdeal.Gen Cert.KernelIdeal.Frm Cert.Spec Cert.KArr
open Idealize.ShloMosaic Idealize.ShloMosaic.TcCoe Idealize.ShloMosaic.ValueIdx Idealize.SL.Sem
open Idealize.ShloMosaic.Pipeline (Dat)

variable (W : Valuation τ sig (Elt Ideal))

/-- The five argument arrays at their literal types. -/
abbrev argX : FVec Ideal T200000x256 .f32 := W (Proc.devRef .tc main_arg1)
abbrev argW1 : FVec Ideal T256x512 .f32 := W (Proc.devRef .tc main_arg2)
abbrev argB1 : FVec Ideal T512 .f32 := W (Proc.devRef .tc main_arg3)
abbrev argW2 : FVec Ideal T512x1 .f32 := W (Proc.devRef .tc main_arg4)
abbrev argB2 : FVec Ideal T1 .f32 := W (Proc.devRef .tc main_arg5)

/-- The feature array is not written by the four operations before the region. -/
theorem after_arg1 : StableHlo.after (hostOps0 (F := Ideal)) W (Proc.devRef .tc main_arg1) = W (Proc.devRef .tc main_arg1) :=
  StableHlo.after_of_writes_sub hostOps0 W hostOps0_writes (by decide)

/-- The first weight matrix narrowed to bf16, -/
theorem after_v0 : (StableHlo.after (hostOps0 (F := Ideal)) W (Proc.devRef .tc main_v0) : S256x512.Idx → EReal)
    = truncf (F := Ideal) .bf16 (argW1 W) bitsLt_bf16_f32 := by
  after_results_simp <;> rfl

/-- the first bias as a row, -/
theorem after_v1 : (StableHlo.after (hostOps0 (F := Ideal)) W (Proc.devRef .tc main_v1) : S1x512.Idx → EReal)
    = shapeCast S1x512 (argB1 W) shapeCasts_S512_S1x512 := by
  after_results_simp <;> rfl

/-- the second weight column as a row, -/
theorem after_v2 : (StableHlo.after (hostOps0 (F := Ideal)) W (Proc.devRef .tc main_v2) : S1x512.Idx → EReal)
    = shapeCast S1x512 (argW2 W) shapeCasts_S512x1_S1x512 := by
  after_results_simp <;> rfl

/-- and the second bias as a 1×1 block. -/
theorem after_v3 : (StableHlo.after (hostOps0 (F := Ideal)) W (Proc.devRef .tc main_v3) : S1x1.Idx → EReal)
    = shapeCast S1x1 (argB2 W) shapeCasts_S1_S1x1 := by
  after_results_simp <;> rfl

/-- A 512×1 column viewed as a 1×512 row reads, at (0, k), the column at (k, 0). -/
theorem shapeCast_col_row_apply {α : Type} (x : S512x1.Idx → α) (h : S512x1.ShapeCasts S1x512) (k : Fin 512) :
    shapeCast S1x512 x h (ix2 (0 : Fin 1) k) = x (ix2 k (0 : Fin 1)) :=
  shapeCast_apply x h _ _ (by
    rw [Shape.rowMajor_val_two, Shape.rowMajor_val_two]
    show k.val * 1 + 0 = 0 * 512 + k.val
    omega)

variable (V : (c : Dev nD) → (b : Ref sig .tc) → Buf (Elt Ideal) ((c : Thread nD τ).loc b))

/-- The mask column after the region, when the region is entered after the four operations from the
    contents W: the mask of every row of the argument arrays. -/
theorem mask_col (c : Dev nD) (hV : ∀ b, V c b = StableHlo.after (hostOps0 (F := Ideal)) W (Proc.devRef .tc b)) (n : Fin 200000) :
    (dat0 (F := Ideal) V c).arrAt 5 cfg0.N (ix2 n (0 : Fin 1)) = maskE (argX W) (argW1 W) (argB1 W) (argW2 W) (argB2 W) n := by
  rw [mask_arr]
  have hX : arrX V c = argX W := (hV main_arg1).trans (after_arg1 W)
  have hW1 : arrW1 V c = truncf (F := Ideal) .bf16 (argW1 W) bitsLt_bf16_f32 := (hV main_v0).trans (after_v0 W)
  have hB1 : arrB1 V c = shapeCast S1x512 (argB1 W) shapeCasts_S512_S1x512 := (hV main_v1).trans (after_v1 W)
  have hW2 : arrW2 V c = shapeCast S1x512 (argW2 W) shapeCasts_S512x1_S1x512 := (hV main_v2).trans (after_v2 W)
  have hB2 : arrB2 V c = shapeCast S1x1 (argB2 W) shapeCasts_S1_S1x1 := (hV main_v3).trans (after_v3 W)
  rw [hX, hW1, hB1, hW2, hB2]
  unfold maskE logit hid
  refine congrArg Ideal.logistic (congrArg₂ (· + ·) (Finset.sum_congr rfl fun k _ => congrArg₂ (· * ·) (congrArg₂ max (congrArg₂ (· + ·) rfl ?_) rfl) ?_) ?_)
  · exact shapeCast_a_1a_apply _ _ (0 : Fin 1) k
  · exact shapeCast_col_row_apply _ _ k
  · exact shapeCast_a_1a_apply _ _ (0 : Fin 1) (0 : Fin 1)

end Cert.KMaskCol

end
-- ==== Proof.TailSpec.lean ====
/-
  The scalar tail of the contrastive loss, as mathematics over the extended reals.  From four vectors of length 4096
  — a row's positive sum p, its negative sum n, the 0/1 flags zp of the rows of the first family that are not zero and
  the flags zn of the second — with P = ∑ zp and N = ∑ zn: the row's contribution is
  max(p/max(P − 1, 1) − n/max(N, 1) + 1, 0) · zp · [N > 0], and the loss is the sum of the contributions over 4096.
-/
import proofs.«104446_j49211735277597_1_alg».proof.Proof.Spec
import Idealize.ShloMosaic.Lib.IdealHost

noncomputable section

open scoped BigOperators

namespace Cert.Tail

open Idealize.ShloMosaic Idealize.ShloMosaic.ValueIdx Cert.Spec

/-- The float word 4096.0 read as an extended real (kept as a word: never evaluated). -/
abbrev w4096 : EReal := Ideal.ofBits .f32 0x45800000#32

/-- The loss from the four vectors. -/
def lossE (p n zp zn : FVec Ideal T4096 .f32) : EReal :=
  Ideal.div (∑ r : Fin 4096,
      max (Ideal.div (p (ix1 r)) (max ((∑ i : Fin 4096, zp (ix1 i)) - oneF) oneF)
            - Ideal.div (n (ix1 r)) (max (∑ i : Fin 4096, zn (ix1 i)) oneF) + oneF) zeroF
        * zp (ix1 r) * flagE (zeroF < ∑ i : Fin 4096, zn (ix1 i))) w4096

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The 0/1 flag of a proposition under any decision procedure. -/
theorem flagE_eq_ite (P : Prop) [Decidable P] : flagE P = if P then 1 else 0 := by
  unfold flagE
  by_cases h : P
  · rw [if_pos h, if_pos h]
  · rw [if_neg h, if_neg h]

/-- A decided bit converted to a float is the 0/1 flag of the proposition. -/
theorem uitofp_ofBool (P : Prop) [Decidable P] :
    (FloatOps.uitofp (F := Ideal) .f32 (BitVec.ofBool (decide P)) : EReal) = flagE P := by
  unfold flagE
  by_cases h : P
  · rw [if_pos h, decide_eq_true h]
    show (((1#1 : BitVec 1).toNat : ℝ) : EReal) = _
    simp
  · rw [if_neg h, decide_eq_false h]
    show (((0#1 : BitVec 1).toNat : ℝ) : EReal) = _
    simp

end Cert.Tail

end
-- ==== Proof.TailKernel.lean ====
/-
  The kernel's scalar tail.  After the pair kernel has written its three [4096,1] results (the rows' positive sums,
  negative sums and non-zero flags), the host reshapes them to vectors, sums the flags as floats, and forms the loss:
  for any contents of the program's buffers, the value left in the result's buffer is the loss of Proof/TailSpec.lean
  at the three columns and the vector of the second family's flags.
-/
import proofs.«104446_j49211735277597_1_alg».proof.Proof.Gen.KernelIdeal.Launch
import proofs.«104446_j49211735277597_1_alg».proof.Proof.TailSpec
import Idealize.ShloMosaic.Lib.StableHlo.Run
import Idealize.ShloMosaic.Lib.Pipeline.Value
import Idealize.ShloMosaic.Lib.IdealHost

set_option maxRecDepth 4096

noncomputable section

open scoped BigOperators

namespace Cert.Tail

open Idealize.ShloMosaic Idealize.ShloMosaic.ValueIdx Cert.Spec
open Cert.KernelIdeal Cert.KernelIdeal.Gen Idealize.ShloMosaic.StableHlo Idealize.ShloMosaic.TcCoe

/-- A [4096,1] column as a vector of length 4096. -/
def col (a : FVec Ideal S4096x1 .f32) : FVec Ideal T4096 .f32 :=
  fun i => a (ix2 (⟨(i 0).val, (i 0).isLt⟩ : Fin 4096) (0 : Fin 1))

/-- The column's vector at a coordinate. -/
theorem col_ix1 (a : FVec Ideal S4096x1 .f32) (r : Fin 4096) : col a (ix1 r) = a (ix2 r (0 : Fin 1)) := rfl

/-- The host operations of the tail as one term over the four arrays they read. -/
def kernTail (a b c : FVec Ideal S4096x1 .f32) (d : FVec Ideal S4096 .f32) : FVec Ideal S_ .f32 :=
  Host.divf (F := Ideal)
    (Host.reduceAdd (F := Ideal)
      (mulf
        (mulf
          (maximumf
            (addf
              (subf
                (Host.divf (F := Ideal) (shapeCast S4096 a shapeCasts_S4096x1_S4096)
                  (broadcastInDim S4096 ![] bcast_S_S4096
                    (maximumf
                      (subf
                        (Host.reduceAdd (F := Ideal) (shapeCast S4096 c shapeCasts_S4096x1_S4096)
                          (constant (F := Ideal) S_ .f32 0x00000000#32) reducesTo_S4096_S_d0 h_S_)
                        (constant (F := Ideal) S_ .f32 0x3F800000#32))
                      (constant (F := Ideal) S_ .f32 0x3F800000#32))))
                (Host.divf (F := Ideal) (shapeCast S4096 b shapeCasts_S4096x1_S4096)
                  (broadcastInDim S4096 ![] bcast_S_S4096
                    (maximumf
                      (Host.reduceAdd (F := Ideal) d (constant (F := Ideal) S_ .f32 0x00000000#32) reducesTo_S4096_S_d0 h_S_)
                      (constant (F := Ideal) S_ .f32 0x3F800000#32)))))
              (broadcastInDim S4096 ![] bcast_S_S4096 (constant (F := Ideal) S_ .f32 0x3F800000#32)))
            (broadcastInDim S4096 ![] bcast_S_S4096 (constant (F := Ideal) S_ .f32 0x00000000#32)))
          (shapeCast S4096 c shapeCasts_S4096x1_S4096))
        (broadcastInDim S4096 ![] bcast_S_S4096
          (uitofp .f32
            (cmpf .ogt
              (Host.reduceAdd (F := Ideal) d (constant (F := Ideal) S_ .f32 0x00000000#32) reducesTo_S4096_S_d0 h_S_)
              (constant (F := Ideal) S_ .f32 0x00000000#32)))))
      (constant (F := Ideal) S_ .f32 0x00000000#32) reducesTo_S4096_S_d0 h_S_)
    (constant (F := Ideal) S_ .f32 0x45800000#32)

/-- The three lists of host operations, run from any contents, leave that term in the result's buffer. -/
theorem after_eq_kernTail (W : Valuation Cert.KernelIdeal.τ Cert.KernelIdeal.sig (Elt Ideal)) :
    StableHlo.after (hostOps2_2 (F := Ideal)) (StableHlo.after (hostOps2_1 (F := Ideal)) (StableHlo.after (hostOps2 (F := Ideal)) W))
        (Proc.devRef .tc main_v77)
      = kernTail (W (Proc.devRef .tc main_v54_0)) (W (Proc.devRef .tc main_v54_1)) (W (Proc.devRef .tc main_v54_2))
          (W (Proc.devRef .tc main_v49)) := by
  after_results_simp <;> rfl

/-- A [4096,1] column reshaped to a vector reads the column's entry. -/
theorem shapeCast_col (a : FVec Ideal S4096x1 .f32) (r : Fin 4096) :
    shapeCast S4096 a shapeCasts_S4096x1_S4096 (ix1 r) = a (ix2 r (0 : Fin 1)) :=
  shapeCast_apply a shapeCasts_S4096x1_S4096 (ix1 r) (ix2 r (0 : Fin 1)) (by
    rw [Shape.rowMajor_val_two, Shape.rowMajor_val_one]
    show r.val * 1 + 0 = r.val
    omega)

/-- The host's float sum of a vector of length 4096 from the zero word is the sum of its entries. -/
theorem reduceAdd_vec (x : FVec Ideal S4096 .f32) (k : S_.Idx) :
    Host.reduceAdd (F := Ideal) x (constant (F := Ideal) S_ .f32 0x00000000#32) reducesTo_S4096_S_d0 h_S_ k
      = ∑ r : Fin 4096, x (ix1 r) := by
  rw [hostReduceAdd_apply, Ideal.hostReduceAdd_total reducesTo_S4096_S_d0 (fun b => b.elim0), constant_apply,
    Ideal.ofBits_zero_f32, zero_add, sum_idx1]

/-- A scalar broadcast to a vector of length 4096 reads the scalar. -/
theorem bcast_vec {α : Type} (x : S_.Idx → α) (j : S4096.Idx) : broadcastInDim S4096 ![] bcast_S_S4096 x j = x ix0 :=
  broadcastInDim_scalar_apply _ x j

/-- An unsigned conversion at an index converts the element. -/
theorem uitofp_at {s : Shape} {w : Nat} (x : IVec s w) (i : s.Idx) :
    (uitofp .f32 x : FVec Ideal s .f32) i = FloatOps.uitofp .f32 (x i) := rfl

/-- The comparison "greater than" at the ideal instance is the decided order. -/
theorem cmpf_ogt (x y : Ideal .f32) : FloatOps.cmpf .ogt x y = BitVec.ofBool (decide (y < x)) := rfl

/-- THE KERNEL'S TAIL IS THE LOSS of the three columns and the flag vector. -/
theorem kernTail_eq (a b c : FVec Ideal S4096x1 .f32) (d : FVec Ideal S4096 .f32) (k : S_.Idx) :
    kernTail a b c d k = lossE (col a) (col b) (col c) d := by
  unfold kernTail lossE
  rw [hostDivf_apply, reduceAdd_vec, constant_apply]
  refine congrArg (fun s : EReal => Ideal.div s (Ideal.ofBits .f32 0x45800000#32)) ?_
  refine Finset.sum_congr rfl fun r _ => ?_
  simp only [mulf_apply, maximumf_apply, addf_apply, subf_apply, hostDivf_apply, constant_apply,
    bcast_vec, shapeCast_col, reduceAdd_vec, col_ix1, uitofp_at, cmpf_apply, cmpf_ogt, uitofp_ofBool]
  rw [bcast_vec, bcast_vec, bcast_vec, bcast_vec, bcast_vec]
  simp only [maximumf_apply, subf_apply, constant_apply, reduceAdd_vec, shapeCast_col, uitofp_at, cmpf_apply, cmpf_ogt,
    uitofp_ofBool]

/-- THE KERNEL'S TAIL: run from any contents of the buffers, the three lists of host operations leave in the result's
    buffer the loss of the pair kernel's three result columns and the second family's flag vector. -/
theorem kernel_tail (W : Valuation Cert.KernelIdeal.τ Cert.KernelIdeal.sig (Elt Ideal)) (k : S_.Idx) :
    (StableHlo.after (hostOps2_2 (F := Ideal)) (StableHlo.after (hostOps2_1 (F := Ideal)) (StableHlo.after (hostOps2 (F := Ideal)) W))
        (Proc.devRef .tc main_v77) : FVec Ideal S_ .f32) k
      = lossE (col (W (Proc.devRef .tc main_v54_0))) (col (W (Proc.devRef .tc main_v54_1)))
          (col (W (Proc.devRef .tc main_v54_2))) (W (Proc.devRef .tc main_v49)) :=
  (congrFun (after_eq_kernTail W) k).trans (kernTail_eq _ _ _ _ k)

end Cert.Tail

end
-- ==== Proof.LibCountFlags.lean ====
/-
  Counting flags.  A family of one-bit flags, each widened to 32 bits and added up in 32-bit words, gives the NUMBER
  of set flags as a word; while that number is below 2^31 the word read as a signed integer is the number itself, so
  converting it to a float (at the ideal instance: the integer as a real) gives the sum of the flags converted one by
  one.  The same holds after the integer operations a mean's denominator goes through: max(count − 1, 1),
  max(count, 1), and the test count > 0.
-/
import Idealize.ShloMosaic.Lib.IndicatorCount
import Idealize.ShloMosaic.PureOps.Ideal
import Idealize.ShloMosaic.PureOps.Reduce

noncomputable section

open scoped BigOperators

namespace Cert.LibCountFlags

open Idealize.ShloMosaic

/-- The number of set flags of a finite family of one-bit words. -/
def count {ι : Type} [Fintype ι] (b : ι → BitVec 1) : ℕ := (Finset.univ.filter fun i => b i = 1#1).card

/-- There are no more set flags than flags. -/
theorem count_le {ι : Type} [Fintype ι] (b : ι → BitVec 1) : count b ≤ Fintype.card ι :=
  Finset.card_le_univ _

/-- The sum of the flags as floats, an extended real: the quantity every statement below is phrased in. -/
def fsum {ι : Type} [Fintype ι] (b : ι → BitVec 1) : EReal := ∑ i, FloatOps.uitofp (F := Ideal) .f32 (b i)

/-- A flag converted to a float is the real 1 when set and 0 otherwise. -/
theorem uitofp_flag (x : BitVec 1) :
    (FloatOps.uitofp (F := Ideal) .f32 x : EReal) = (((if x = 1#1 then 1 else 0 : ℝ)) : EReal) := by
  rcases BitVec.eq_zero_or_eq_one x with h | h <;> subst h
  · show (((0#1 : BitVec 1).toNat : ℝ) : EReal) = _
    simp
  · show (((1#1 : BitVec 1).toNat : ℝ) : EReal) = _
    simp

/-- A finite sum of reals, each read as an extended real, is the sum read as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two reals read as extended reals. -/
theorem coe_max (x y : ℝ) : ((max x y : ℝ) : EReal) = max (x : EReal) (y : EReal) :=
  (EReal.coe_strictMono.monotone.map_max)

/-- THE COUNT: the sum of the flags as floats is the number of set flags. -/
theorem fsum_eq_count {ι : Type} [Fintype ι] (b : ι → BitVec 1) : fsum b = ((count b : ℝ) : EReal) := by
  unfold fsum count
  simp only [uitofp_flag]
  rw [coe_sum, Finset.sum_boole]

/-- The 32-bit word of a number below 2^31, read signed, is the number. -/
theorem toInt_ofNat {c : ℕ} (hc : c < 2 ^ 31) : (BitVec.ofNat 32 c).toInt = (c : ℤ) := by
  rw [BitVec.toInt_ofNat']
  exact Int.bmod_eq_of_le (by omega) (by omega)

/-- The signed maximum of two words, read signed, is the maximum. -/
theorem toInt_maxsi {w : ℕ} (x y : BitVec w) : (IntOp.maxsi x y).toInt = max x.toInt y.toInt := by
  unfold IntOp.maxsi
  by_cases h : y.slt x = true
  · rw [if_pos h]; rw [BitVec.slt_iff_toInt_lt] at h; omega
  · rw [if_neg h]; rw [BitVec.slt_iff_toInt_lt] at h; omega

/-- max(count − 1, 1) in 32-bit signed arithmetic, read signed. -/
theorem toInt_max_pred {c : ℕ} (hc : c < 2 ^ 31) :
    (IntOp.maxsi (IntOp.subi (BitVec.ofNat 32 c) 1#32) 1#32).toInt = max ((c : ℤ) - 1) 1 := by
  rw [toInt_maxsi]
  have h1 : (1#32 : BitVec 32).toInt = 1 := by decide
  have hs : (IntOp.subi (BitVec.ofNat 32 c) 1#32).toInt = (c : ℤ) - 1 := by
    unfold IntOp.subi
    rw [BitVec.toInt_sub, toInt_ofNat hc, h1]
    exact Int.bmod_eq_of_le (by omega) (by omega)
  rw [hs, h1]

/-- max(count, 1) in 32-bit signed arithmetic, read signed. -/
theorem toInt_max_one {c : ℕ} (hc : c < 2 ^ 31) :
    (IntOp.maxsi (BitVec.ofNat 32 c) 1#32).toInt = max (c : ℤ) 1 := by
  rw [toInt_maxsi, toInt_ofNat hc]
  have h1 : (1#32 : BitVec 32).toInt = 1 := by decide
  rw [h1]

variable {ι : Type} [Fintype ι]

/-- The count as a word, converted signed to a float, is the sum of the flags as floats. -/
theorem sitofp_count (b : ι → BitVec 1) (hc : count b < 2 ^ 31) :
    (FloatOps.sitofp (F := Ideal) .f32 (BitVec.ofNat 32 (count b)) : EReal) = fsum b := by
  rw [fsum_eq_count]
  show ((((BitVec.ofNat 32 (count b)).toInt : ℤ) : ℝ) : EReal) = _
  rw [toInt_ofNat hc]; norm_cast

/-- max(count − 1, 1) computed on words and converted to a float is max(sum − 1, 1) of the float sum. -/
theorem sitofp_max_pred (b : ι → BitVec 1) (hc : count b < 2 ^ 31) :
    (FloatOps.sitofp (F := Ideal) .f32 (IntOp.maxsi (IntOp.subi (BitVec.ofNat 32 (count b)) 1#32) 1#32) : EReal)
      = max (fsum b - 1) 1 := by
  rw [fsum_eq_count]
  show ((((IntOp.maxsi (IntOp.subi (BitVec.ofNat 32 (count b)) 1#32) 1#32).toInt : ℤ) : ℝ) : EReal) = _
  rw [toInt_max_pred hc, Int.cast_max, coe_max, Int.cast_sub, Int.cast_one, EReal.coe_sub, EReal.coe_one, Int.cast_natCast]

/-- max(count, 1) computed on words and converted to a float is max(sum, 1) of the float sum. -/
theorem sitofp_max_one (b : ι → BitVec 1) (hc : count b < 2 ^ 31) :
    (FloatOps.sitofp (F := Ideal) .f32 (IntOp.maxsi (BitVec.ofNat 32 (count b)) 1#32) : EReal) = max (fsum b) 1 := by
  rw [fsum_eq_count]
  show ((((IntOp.maxsi (BitVec.ofNat 32 (count b)) 1#32).toInt : ℤ) : ℝ) : EReal) = _
  rw [toInt_max_one hc, Int.cast_max, coe_max, Int.cast_one, EReal.coe_one, Int.cast_natCast]

/-- The signed test count > 0 on words, converted to a float, is the 0/1 flag of "the float sum is positive". -/
theorem uitofp_count_pos (b : ι → BitVec 1) (hc : count b < 2 ^ 31) :
    (FloatOps.uitofp (F := Ideal) .f32 (IntOp.cmpi .sgt (BitVec.ofNat 32 (count b)) 0#32) : EReal)
      = if 0 < fsum b then 1 else 0 := by
  rw [fsum_eq_count, uitofp_flag]
  have h0 : (0#32 : BitVec 32).toInt = 0 := by decide
  have hiff : IntOp.cmpi .sgt (BitVec.ofNat 32 (count b)) 0#32 = 1#1 ↔ 0 < count b := by
    unfold IntOp.cmpi
    show BitVec.ofBool ((0#32 : BitVec 32).slt (BitVec.ofNat 32 (count b))) = 1#1 ↔ _
    rw [show ∀ x : Bool, (BitVec.ofBool x = 1#1 ↔ x = true) from by decide, BitVec.slt_iff_toInt_lt, h0, toInt_ofNat hc]
    omega
  by_cases h : 0 < count b
  · rw [if_pos (hiff.2 h), if_pos (by rw [EReal.coe_pos]; exact_mod_cast h)]; norm_cast
  · rw [if_neg (fun e => h (hiff.1 e)), if_neg (by rw [EReal.coe_pos]; exact_mod_cast h)]; norm_cast

/-- A host reduce by 32-bit addition, from a zero word, of one-bit flags widened to 32 bits, into a result whose axes
    all have size one, is the count of the set flags as a word. -/
theorem hostReduce_addi_extui {s t u : Shape} {axes : List (Fin s.rank)} (b : IVec s 1) (h32 : 1 < 32)
    (init : u.Idx → BitVec 32) (h : s.ReducesTo axes t) (hu : 0 < u.numel) (hinit : init (Shape.Idx.first hu) = 0#32)
    (ht : ∀ a, t.size a = 1) (j : t.Idx) :
    Host.reduce IntOp.addi (extui 32 b h32) init h hu j = BitVec.ofNat 32 (count b) := by
  rw [Host.reduce_eq_fold, hinit, Finset.filter_true_of_mem fun i _ => funext fun a => Fin.ext (by
    have := (h.drop i a).isLt; have := (j a).isLt; have := ht a; omega)]
  exact IndicatorCount.fold_addi_setWidth_eq_card b Finset.univ

end Cert.LibCountFlags

end
-- ==== Proof.TailRef.lean ====
/-
  The reference's scalar tail.  The reference counts the non-zero rows in 32-bit integers (flags widened and added,
  max(count − 1, 1), max(count, 1), count > 0) and converts the results to floats; the counts are at most 4096, far
  below 2^31, so each of these is what the same operation gives on the float sum of the flags, and the value the
  reference leaves is the loss of Proof/TailSpec.lean at its own four vectors.
-/
import proofs.«104446_j49211735277597_1_alg».proof.Proof.Gen.ReferenceIdeal.Read
import proofs.«104446_j49211735277597_1_alg».proof.Proof.TailSpec
import proofs.«104446_j49211735277597_1_alg».proof.Proof.LibCountFlags

set_option maxRecDepth 4096

noncomputable section

open scoped BigOperators

namespace Cert.Tail

open Idealize.ShloMosaic Idealize.ShloMosaic.ValueIdx Cert.Spec Cert.LibCountFlags
open Cert.ReferenceIdeal Cert.ReferenceIdeal.Gen Cert.ReferenceIdeal.Read

/-- A vector of 4096 flags has fewer than 2^31 set flags. -/
theorem count_lt (b : IVec S4096 1) : count b < 2 ^ 31 :=
  lt_of_le_of_lt (count_le b) (by rw [Fintype.card_congr (idxEquiv1 (n := 4096)), Fintype.card_fin]; norm_num)

/-- The float sum of a vector of flags, over the coordinate. -/
theorem fsum_vec (b : IVec S4096 1) : fsum b = ∑ r : Fin 4096, FloatOps.uitofp (F := Ideal) .f32 (b (ix1 r)) := by
  unfold fsum; exact sum_idx1 _

section
variable (x1 : (⟨S200000x256, .f32⟩ : BufTy).Contents (Elt Ideal)) (x2 : (⟨S256x512, .f32⟩ : BufTy).Contents (Elt Ideal)) (x3 : (⟨S512, .f32⟩ : BufTy).Contents (Elt Ideal)) (x4 : (⟨S512x1, .f32⟩ : BufTy).Contents (Elt Ideal)) (x5 : (⟨S1, .f32⟩ : BufTy).Contents (Elt Ideal)) (x8 : (⟨S200000, .i32⟩ : BufTy).Contents (Elt Ideal))

/-- The integer sum of the first family's widened flags is their count, as a word. -/
theorem v83_eq (k : S_.Idx) :
    val_main_v83 (F := Ideal) x1 x2 x3 x4 x5 x8 k = BitVec.ofNat 32 (count (val_main_v78 (F := Ideal) x1 x2 x3 x4 x5 x8)) := by
  unfold val_main_v83 val_main_v82
  exact hostReduce_addi_extui _ natLt_1_32 _ reducesTo_S4096_S_d0 h_S_ rfl (fun a => a.elim0) k

/-- The integer sum of the second family's widened flags is their count, as a word. -/
theorem v88_eq (k : S_.Idx) :
    val_main_v88 (F := Ideal) x1 x2 x3 x4 x5 x8 k = BitVec.ofNat 32 (count (val_main_v81 (F := Ideal) x1 x2 x3 x4 x5 x8)) := by
  unfold val_main_v88 val_main_v87
  exact hostReduce_addi_extui _ natLt_1_32 _ reducesTo_S4096_S_d0 h_S_ rfl (fun a => a.elim0) k

/-- THE REFERENCE'S TAIL: the reference's loss is the loss of its rows' positive sums, negative sums, and the two
    families' non-zero flags converted to floats. -/
theorem ref_tail (i : S_.Idx) :
    val_main_v112 (F := Ideal) x1 x2 x3 x4 x5 x8 i
      = lossE (val_main_v98 (F := Ideal) x1 x2 x3 x4 x5 x8) (val_main_v93 (F := Ideal) x1 x2 x3 x4 x5 x8)
          (fun j => FloatOps.uitofp .f32 (val_main_v78 (F := Ideal) x1 x2 x3 x4 x5 x8 j))
          (fun j => FloatOps.uitofp .f32 (val_main_v81 (F := Ideal) x1 x2 x3 x4 x5 x8 j)) := by
  rw [val_main_v112_apply, val_main_v111_apply]
  simp only [val_main_v110_apply, val_main_v109_apply, val_main_v108_apply, val_main_v107_apply, val_main_v106_apply,
    val_main_v105_apply, val_main_v104_apply, val_main_v103_apply, val_main_v102_apply, val_main_v101_apply,
    val_main_v100_apply, val_main_v99_apply, val_main_v97_apply, val_main_v96_apply, val_main_v95_apply,
    val_main_v94_apply, val_main_v86_apply, val_main_v85_apply, val_main_v84_apply,
    val_main_call3_v0_apply, val_main_call3_cst_apply, val_main_cst_23_apply, val_main_cst_25_apply, val_main_cst_26_apply,
    val_main_c_17_apply, val_main_c_18_apply, val_main_c_21_apply, val_main_c_24_apply, v83_eq, v88_eq]
  generalize val_main_v98 (F := Ideal) x1 x2 x3 x4 x5 x8 = p
  generalize val_main_v93 (F := Ideal) x1 x2 x3 x4 x5 x8 = n
  generalize val_main_v78 (F := Ideal) x1 x2 x3 x4 x5 x8 = bp
  generalize val_main_v81 (F := Ideal) x1 x2 x3 x4 x5 x8 = bn
  rw [sitofp_max_pred bp (count_lt bp), sitofp_max_one bn (count_lt bn), uitofp_count_pos bn (count_lt bn), sum_idx1,
    fsum_vec bp, fsum_vec bn]
  simp only [Ideal.hostDivf_def, Ideal.mulf_def, Ideal.maximumf_def, Ideal.addf_def, Ideal.subf_def, Ideal.ofBits_def,
    Ideal.ofBits_zero_f32, Ideal.ofBits_one_f32, zero_add, lossE, oneF, zeroF, w4096, flagE_eq_ite]

end

/-! ## The or-reduce of "entry differs from zero" along a row, as a float, is the row's non-zero flag -/

/-- A fold by "or" of one-bit words from the zero word is 1 exactly when one of the words is. -/
theorem fold_ori_eq_one {ι : Type} (S : Finset ι) (f : ι → BitVec 1) :
    S.fold IntOp.ori 0#1 f = 1#1 ↔ ∃ k ∈ S, f k = 1#1 := by
  classical
  have hor : ∀ x y : BitVec 1, IntOp.ori x y = 1#1 ↔ x = 1#1 ∨ y = 1#1 := by decide
  induction S using Finset.induction_on with
  | empty => simp
  | insert a S ha ih =>
    rw [Finset.fold_insert ha]
    refine (hor _ _).trans ?_
    constructor
    · rintro (h | h)
      · exact ⟨a, Finset.mem_insert_self a S, h⟩
      · obtain ⟨k, hk, h⟩ := ih.1 h
        exact ⟨k, Finset.mem_insert_of_mem hk, h⟩
    · rintro ⟨k, hk, h⟩
      rcases Finset.mem_insert.1 hk with rfl | hk
      · exact Or.inl h
      · exact Or.inr (ih.2 ⟨k, hk, h⟩)

/-- The index a reduction along the columns inserts column k into, at row r. -/
theorem lift_row (h : S4096x256.Reduces [1] S4096) (r : Fin 4096) (k : Fin 256) :
    h.lift (ix1 r) k = ix2 r k :=
  funext fun a => Fin.ext (by match a with | ⟨0, _⟩ => rfl | ⟨1, _⟩ => rfl)

/-- THE FLAG: for any matrix A, the or-reduce along row r of "A[r,k] differs from the zero word", converted to a
    float, is the 0/1 flag of "row r of A has an entry different from zero". -/
theorem orReduce_flag (A : FVec Ideal S4096x256 .f32) (r : Fin 4096) :
    FloatOps.uitofp (F := Ideal) .f32
        (Host.reduce IntOp.ori
          (cmpf .une A (broadcastInDim S4096x256 ![] bcast_S_S4096x256 (constant (F := Ideal) S_ .f32 0x00000000#32)))
          (constantI S_ 1 0#1) reducesTo_S4096x256_S4096_d1 h_S_ (ix1 r))
      = flagE (nzP A r) := by
  have hR : S4096x256.Reduces [1] S4096 := by decide
  rw [Host.reduce_eq_fold_single IntOp.ori _ _ reducesTo_S4096x256_S4096_d1 hR h_S_ (ix1 r), uitofp_flag]
  have hiff : (Finset.univ.fold IntOp.ori (constantI S_ 1 0#1 (Shape.Idx.first h_S_))
        ((cmpf .une A (broadcastInDim S4096x256 ![] bcast_S_S4096x256 (constant (F := Ideal) S_ .f32 0x00000000#32)))
          ∘ hR.lift (ix1 r)) = 1#1) ↔ nzP A r := by
    rw [show constantI S_ 1 0#1 (Shape.Idx.first h_S_) = 0#1 from rfl, fold_ori_eq_one]
    have hk : ∀ k : Fin 256, ((cmpf .une A (broadcastInDim S4096x256 ![] bcast_S_S4096x256 (constant (F := Ideal) S_ .f32 0x00000000#32)))
          ∘ hR.lift (ix1 r)) k = BitVec.ofBool (decide (A (ix2 r k) ≠ zeroF)) := by
      intro k
      show FloatOps.cmpf .une (A (hR.lift (ix1 r) k)) _ = _
      rw [lift_row hR r k]
      rfl
    unfold nzP
    constructor
    · rintro ⟨k, -, h⟩
      refine ⟨k, ?_⟩
      have := (hk k).symm.trans h
      exact of_decide_eq_true (by cases hd : decide (A (ix2 r k) ≠ zeroF) <;> simp_all)
    · rintro ⟨k, h⟩
      exact ⟨k, Finset.mem_univ _, (hk k).trans (by rw [decide_eq_true h]; rfl)⟩
  unfold flagE
  by_cases h : nzP A r
  · rw [if_pos (hiff.2 h), if_pos h]; norm_cast
  · rw [if_neg (fun e => h (hiff.1 e)), if_neg h]; norm_cast

section
variable (x1 : (⟨S200000x256, .f32⟩ : BufTy).Contents (Elt Ideal)) (x2 : (⟨S256x512, .f32⟩ : BufTy).Contents (Elt Ideal)) (x3 : (⟨S512, .f32⟩ : BufTy).Contents (Elt Ideal)) (x4 : (⟨S512x1, .f32⟩ : BufTy).Contents (Elt Ideal)) (x5 : (⟨S1, .f32⟩ : BufTy).Contents (Elt Ideal)) (x8 : (⟨S200000, .i32⟩ : BufTy).Contents (Elt Ideal))

/-- The first family's flag at row r. -/
theorem ref_flag (r : Fin 4096) :
    FloatOps.uitofp (F := Ideal) .f32 (val_main_v78 (F := Ideal) x1 x2 x3 x4 x5 x8 (ix1 r))
      = flagE (nzP (val_main_v35 (F := Ideal) x1 x2 x3 x4 x5 x8) r) := by
  unfold val_main_v78 val_main_v77 val_main_v76 val_main_cst_13 val_main_c
  generalize val_main_v35 (F := Ideal) x1 x2 x3 x4 x5 x8 = A
  exact orReduce_flag A r

/-- The second family's flag at row r. -/
theorem ref_flag_env (r : Fin 4096) :
    FloatOps.uitofp (F := Ideal) .f32 (val_main_v81 (F := Ideal) x1 x2 x3 x4 x5 x8 (ix1 r))
      = flagE (nzP (val_main_v49 (F := Ideal) x1 x2 x3 x4 x5 x8) r) := by
  unfold val_main_v81 val_main_v80 val_main_v79 val_main_cst_14 val_main_c_15
  generalize val_main_v49 (F := Ideal) x1 x2 x3 x4 x5 x8 = A
  exact orReduce_flag A r

end

end Cert.Tail

end
-- ==== Proof.KOut.lean ====
/-
  The first result, out = concatenate(h_graph, aligned means) · Wc + bc.  Both programs compute it with the same five
  host operations — a concatenation along the columns, a matrix product, two broadcasts of the bias and a sum — so
  once the kernel's buffers hold the reference's operands (the argument arrays and the aligned means), the kernel's
  result buffer holds the reference's value.
-/
import proofs.«104446_j49211735277597_1_alg».proof.Proof.Gen.KernelIdeal.Launch
import proofs.«104446_j49211735277597_1_alg».proof.Proof.Gen.ReferenceIdeal.Read
import Idealize.ShloMosaic.Lib.StableHlo.Run

set_option maxRecDepth 4096

noncomputable section

namespace Cert.KOut

open Idealize.ShloMosaic Idealize.ShloMosaic.StableHlo Idealize.ShloMosaic.TcCoe

/-- The five operations as one term over the four arrays they read (the kernel's copies of the shape records). -/
def outK (a b : FVec Ideal Cert.KernelIdeal.S4096x256 .f32) (w : FVec Ideal Cert.KernelIdeal.S512x10 .f32)
    (bias : FVec Ideal Cert.KernelIdeal.S10 .f32) : FVec Ideal Cert.KernelIdeal.S4096x10 .f32 :=
  addf
    (Host.dotGeneral (F := Ideal) Cert.KernelIdeal.dot_S4096x512_S512x10_S4096x10_1_0_0_1_n_n none
      (concatenate Cert.KernelIdeal.S4096x512 1 [⟨Cert.KernelIdeal.S4096x256, a⟩, ⟨Cert.KernelIdeal.S4096x256, b⟩]
        Cert.KernelIdeal.Gen.concatenates_S4096x256_S4096x256_S4096x512_d1)
      w)
    (broadcastInDim Cert.KernelIdeal.S4096x10 ![0, 1] Cert.KernelIdeal.Gen.bcast_S1x10_S4096x10_0_1
      (broadcastInDim Cert.KernelIdeal.S1x10 ![1] Cert.KernelIdeal.Gen.bcast_S10_S1x10_1 bias))

/-- The last list of host operations, run from any contents, leaves that term of the contents in the result's buffer:
    its first ten operations write none of the four buffers the last five read. -/
theorem after_eq_outK (W : Valuation Cert.KernelIdeal.τ Cert.KernelIdeal.sig (Elt Ideal)) :
    StableHlo.after (Cert.KernelIdeal.Gen.hostOps2_2 (F := Ideal)) W (Proc.devRef .tc Cert.KernelIdeal.main_v82)
      = outK (W (Proc.devRef .tc Cert.KernelIdeal.main_arg0)) (W (Proc.devRef .tc Cert.KernelIdeal.main_v25))
          (W (Proc.devRef .tc Cert.KernelIdeal.main_arg6)) (W (Proc.devRef .tc Cert.KernelIdeal.main_arg7)) := by
  have hsplit : StableHlo.after (Cert.KernelIdeal.Gen.hostOps2_2 (F := Ideal)) W
      = StableHlo.after ((Cert.KernelIdeal.Gen.hostOps2_2 (F := Ideal)).drop 10)
          (StableHlo.after ((Cert.KernelIdeal.Gen.hostOps2_2 (F := Ideal)).take 10) W) := rfl
  have h0 : StableHlo.after ((Cert.KernelIdeal.Gen.hostOps2_2 (F := Ideal)).take 10) W (Proc.devRef .tc Cert.KernelIdeal.main_arg0)
      = W (Proc.devRef .tc Cert.KernelIdeal.main_arg0) := by
    simp only [List.take_succ_cons, List.take_zero]
    after_results_simp
  have h25 : StableHlo.after ((Cert.KernelIdeal.Gen.hostOps2_2 (F := Ideal)).take 10) W (Proc.devRef .tc Cert.KernelIdeal.main_v25)
      = W (Proc.devRef .tc Cert.KernelIdeal.main_v25) := by
    simp only [List.take_succ_cons, List.take_zero]
    after_results_simp
  have h6 : StableHlo.after ((Cert.KernelIdeal.Gen.hostOps2_2 (F := Ideal)).take 10) W (Proc.devRef .tc Cert.KernelIdeal.main_arg6)
      = W (Proc.devRef .tc Cert.KernelIdeal.main_arg6) := by
    simp only [List.take_succ_cons, List.take_zero]
    after_results_simp
  have h7 : StableHlo.after ((Cert.KernelIdeal.Gen.hostOps2_2 (F := Ideal)).take 10) W (Proc.devRef .tc Cert.KernelIdeal.main_arg7)
      = W (Proc.devRef .tc Cert.KernelIdeal.main_arg7) := by
    simp only [List.take_succ_cons, List.take_zero]
    after_results_simp
  rw [hsplit, ← h0, ← h25, ← h6, ← h7]
  generalize StableHlo.after ((Cert.KernelIdeal.Gen.hostOps2_2 (F := Ideal)).take 10) W = V
  simp only [List.drop_succ_cons, List.drop_zero]
  after_results_simp
  rfl

/-- THE FIRST RESULT: when the kernel's buffers hold the reference's operands — the first argument, the aligned means,
    the weights and the bias —, the last list of host operations leaves the reference's first result in its buffer. -/
theorem kernel_out (W : Valuation Cert.KernelIdeal.τ Cert.KernelIdeal.sig (Elt Ideal))
    (x0 : (⟨Cert.ReferenceIdeal.S4096x256, .f32⟩ : BufTy).Contents (Elt Ideal)) (x1 : (⟨Cert.ReferenceIdeal.S200000x256, .f32⟩ : BufTy).Contents (Elt Ideal)) (x2 : (⟨Cert.ReferenceIdeal.S256x512, .f32⟩ : BufTy).Contents (Elt Ideal)) (x3 : (⟨Cert.ReferenceIdeal.S512, .f32⟩ : BufTy).Contents (Elt Ideal)) (x4 : (⟨Cert.ReferenceIdeal.S512x1, .f32⟩ : BufTy).Contents (Elt Ideal)) (x5 : (⟨Cert.ReferenceIdeal.S1, .f32⟩ : BufTy).Contents (Elt Ideal)) (x6 : (⟨Cert.ReferenceIdeal.S512x10, .f32⟩ : BufTy).Contents (Elt Ideal)) (x7 : (⟨Cert.ReferenceIdeal.S10, .f32⟩ : BufTy).Contents (Elt Ideal)) (x8 : (⟨Cert.ReferenceIdeal.S200000, .i32⟩ : BufTy).Contents (Elt Ideal))
    (hA : W (Proc.devRef .tc Cert.KernelIdeal.main_v25) = Cert.ReferenceIdeal.Read.val_main_v35 (F := Ideal) x1 x2 x3 x4 x5 x8)
    (h0 : W (Proc.devRef .tc Cert.KernelIdeal.main_arg0) = x0)
    (h6 : W (Proc.devRef .tc Cert.KernelIdeal.main_arg6) = x6)
    (h7 : W (Proc.devRef .tc Cert.KernelIdeal.main_arg7) = x7) :
    StableHlo.after (Cert.KernelIdeal.Gen.hostOps2_2 (F := Ideal)) W (Proc.devRef .tc Cert.KernelIdeal.main_v82)
      = Cert.ReferenceIdeal.Read.val_main_v117 (F := Ideal) x0 x1 x2 x3 x4 x5 x6 x7 x8 := by
  rw [after_eq_outK, hA, h0, h6, h7]
  unfold Cert.ReferenceIdeal.Read.val_main_v117 Cert.ReferenceIdeal.Read.val_main_v116 Cert.ReferenceIdeal.Read.val_main_v115
    Cert.ReferenceIdeal.Read.val_main_v114 Cert.ReferenceIdeal.Read.val_main_v113
  generalize Cert.ReferenceIdeal.Read.val_main_v35 (F := Ideal) x1 x2 x3 x4 x5 x8 = A
  rfl

end Cert.KOut

end
-- ==== Proof.RefMask.lean ====
/-
  The reference's mask, read index by index: element n of the sigmoid the reference prints as
  1 / (1 + exp(−logit)) is the logistic of the two-layer perceptron's logit of row n.
-/
import proofs.«104446_j49211735277597_1_alg».proof.Proof.Gen.ReferenceIdeal.Read
import proofs.«104446_j49211735277597_1_alg».proof.Proof.Spec
import Idealize.ShloMosaic.Lib.IdealHost

noncomputable section

namespace Cert.RefMask

open Idealize.ShloMosaic Idealize.ShloMosaic.ValueIdx Cert.ReferenceIdeal Cert.ReferenceIdeal.Read

/-- Hidden unit k of row n: the first product plus the bias, clamped below at zero. -/
theorem ref_hid (x1 : FVec Ideal S200000x256 .f32) (x2 : FVec Ideal S256x512 .f32) (x3 : FVec Ideal S512 .f32)
    (n : Fin 200000) (k : Fin 512) :
    val_main_v4 (F := Ideal) x1 x2 x3 (ix2 n k) = Cert.Spec.hid x1 x2 x3 n k := by
  rw [val_main_v4_apply, val_main_v3_apply, val_main_v0_apply, val_main_v2_apply, val_main_v1_apply,
    val_main_call0_v0_apply, val_main_call0_cst_apply]
  unfold Cert.Spec.hid
  simp only [Ideal.maximumf_def, Ideal.addf_def, Ideal.ofBits_def]
  have eb : idx_main_v1 (idx_main_v2 (ix2 n k)) = ix1 k := by
    funext a; match a with | ⟨0, _⟩ => rfl
  rw [eb]
  congr 2
  refine Finset.sum_congr rfl fun j _ => ?_
  have el : lidx_main_v0 (ix2 n k) j = ix2 n j := by
    funext a; match a with | ⟨0, _⟩ => rfl | ⟨1, _⟩ => rfl
  have er : ridx_main_v0 (ix2 n k) j = ix2 j k := by
    funext a; match a with | ⟨0, _⟩ => rfl | ⟨1, _⟩ => rfl
  rw [el, er]

/-- The logit of row n: the second product plus its bias, read through the reshape [200000,1] → [200000]. -/
theorem ref_logit (x1 : FVec Ideal S200000x256 .f32) (x2 : FVec Ideal S256x512 .f32) (x3 : FVec Ideal S512 .f32)
    (x4 : FVec Ideal S512x1 .f32) (x5 : FVec Ideal S1 .f32) (n : Fin 200000) :
    val_main_v9 (F := Ideal) x1 x2 x3 x4 x5 (ix1 n) = Cert.Spec.logit x1 x2 x3 x4 x5 n := by
  have e9 : idx_main_v9 (ix1 n) = ix2 n (0 : Fin 1) := by
    funext a; match a with | ⟨0, _⟩ => exact Fin.ext (Nat.div_one _) | ⟨1, _⟩ => rfl
  rw [val_main_v9_apply, e9, val_main_v8_apply, val_main_v5_apply, val_main_v7_apply, val_main_v6_apply]
  unfold Cert.Spec.logit
  simp only [Ideal.addf_def]
  have eb : idx_main_v6 (idx_main_v7 (ix2 n (0 : Fin 1))) = ix1 (0 : Fin 1) := by
    funext a; match a with | ⟨0, _⟩ => rfl
  rw [eb]
  congr 1
  refine Finset.sum_congr rfl fun k _ => ?_
  have el : lidx_main_v5 (ix2 n (0 : Fin 1)) k = ix2 n k := by
    funext a; match a with | ⟨0, _⟩ => rfl | ⟨1, _⟩ => rfl
  have er : ridx_main_v5 (ix2 n (0 : Fin 1)) k = ix2 k (0 : Fin 1) := by
    funext a; match a with | ⟨0, _⟩ => rfl | ⟨1, _⟩ => rfl
  rw [el, er, ref_hid]

/-- The mask of row n: 1 / (1 + exp(−logit)) is the logistic of the logit, the word 0x3F800000 being one. -/
theorem ref_mask (x1 : FVec Ideal S200000x256 .f32) (x2 : FVec Ideal S256x512 .f32) (x3 : FVec Ideal S512 .f32)
    (x4 : FVec Ideal S512x1 .f32) (x5 : FVec Ideal S1 .f32) (n : Fin 200000) :
    val_main_v15 (F := Ideal) x1 x2 x3 x4 x5 (ix1 n) = Cert.Spec.maskE x1 x2 x3 x4 x5 n := by
  rw [val_main_v15_apply, val_main_v14_apply, val_main_cst_0_apply, val_main_v13_apply, val_main_v12_apply,
    val_main_cst_apply, val_main_v11_apply, val_main_v10_apply, ref_logit]
  simp only [Ideal.hostDivf_def, Ideal.addf_def, Ideal.hostUnary_exp_def, Ideal.hostNegf_def, Ideal.negf_def,
    Ideal.ofBits_def, Ideal.ofBits_one_f32]
  rfl

end Cert.RefMask

end
-- ==== Proof.RefPair.lean ====
/-
  The reference's pairwise sums, read index by index: row r of the reduce over axis 1 of
  1 − (A·Aᵀ)[r,c] / (a[r]·a[c]) is row r's positive sum, and row r of the reduce over axis 1 of
  (1 − (A·Eᵀ)[r,c] / (a[r]·e[c])) · flag[c] is its negative sum.  The aligned and environment means A, E,
  the clamped norms a, e and the flags stay opaque: only the operations after them are read.
-/
import proofs.«104446_j49211735277597_1_alg».proof.Proof.Gen.ReferenceIdeal.Read
import proofs.«104446_j49211735277597_1_alg».proof.Proof.Spec
import Idealize.ShloMosaic.Lib.IdealHost

noncomputable section

namespace Cert.RefPair

open Idealize.ShloMosaic Idealize.ShloMosaic.ValueIdx Cert.ReferenceIdeal Cert.ReferenceIdeal.Read

/-- Entry (r, c) of 1 − (A·Aᵀ) / (a ⊗ a) is the cosine distance of rows r and c of A. -/
theorem ref_pos_elt (x1 : FVec Ideal S200000x256 .f32) (x2 : FVec Ideal S256x512 .f32) (x3 : FVec Ideal S512 .f32)
    (x4 : FVec Ideal S512x1 .f32) (x5 : FVec Ideal S1 .f32) (x8 : (⟨S200000, .i32⟩ : BufTy).Contents (Elt Ideal)) (r c : Fin 4096) :
    val_main_v65 (F := Ideal) x1 x2 x3 x4 x5 x8 (ix2 r c)
      = Cert.Spec.cosd (val_main_v35 (F := Ideal) x1 x2 x3 x4 x5 x8) (val_main_v35 (F := Ideal) x1 x2 x3 x4 x5 x8)
          (val_main_v52 (F := Ideal) x1 x2 x3 x4 x5 x8) (val_main_v52 (F := Ideal) x1 x2 x3 x4 x5 x8) r c := by
  rw [val_main_v65_apply, val_main_v64_apply, val_main_cst_11_apply, val_main_v63_apply, val_main_v62_apply,
    val_main_v60_apply, val_main_v58_apply, val_main_v61_apply, val_main_v59_apply, val_main_v57_apply]
  have ea : idx_main_v58 (idx_main_v60 (ix2 r c)) = ix1 r := by
    funext a; match a with | ⟨0, _⟩ => rfl
  have eb : idx_main_v59 (idx_main_v61 (ix2 r c)) = ix1 c := by
    funext a; match a with | ⟨0, _⟩ => rfl
  rw [ea, eb]
  have es : (∑ k : Fin 256, val_main_v35 (F := Ideal) x1 x2 x3 x4 x5 x8 (lidx_main_v57 (ix2 r c) k)
        * val_main_v56 (F := Ideal) x1 x2 x3 x4 x5 x8 (ridx_main_v57 (ix2 r c) k))
      = ∑ k : Fin 256, val_main_v35 (F := Ideal) x1 x2 x3 x4 x5 x8 (ix2 r k) * val_main_v35 (F := Ideal) x1 x2 x3 x4 x5 x8 (ix2 c k) := by
    refine Finset.sum_congr rfl fun k _ => ?_
    have el : lidx_main_v57 (ix2 r c) k = ix2 r k := by
      funext a; match a with | ⟨0, _⟩ => rfl | ⟨1, _⟩ => rfl
    have er : idx_main_v56 (ridx_main_v57 (ix2 r c) k) = ix2 c k := by
      funext a; match a with | ⟨0, _⟩ => rfl | ⟨1, _⟩ => rfl
    rw [val_main_v56_apply, el, er]
  rw [es]
  generalize val_main_v35 (F := Ideal) x1 x2 x3 x4 x5 x8 = A
  generalize val_main_v52 (F := Ideal) x1 x2 x3 x4 x5 x8 = a
  rfl

/-- Row r's positive sum: the reduce over axis 1, whose initial word is zero. -/
theorem ref_pos (x1 : FVec Ideal S200000x256 .f32) (x2 : FVec Ideal S256x512 .f32) (x3 : FVec Ideal S512 .f32)
    (x4 : FVec Ideal S512x1 .f32) (x5 : FVec Ideal S1 .f32) (x8 : (⟨S200000, .i32⟩ : BufTy).Contents (Elt Ideal)) (r : Fin 4096) :
    val_main_v98 (F := Ideal) x1 x2 x3 x4 x5 x8 (ix1 r)
      = Cert.Spec.posE (val_main_v35 (F := Ideal) x1 x2 x3 x4 x5 x8) (val_main_v52 (F := Ideal) x1 x2 x3 x4 x5 x8) r := by
  rw [val_main_v98_apply, val_main_cst_22_apply]
  simp only [Ideal.ofBits_def, Ideal.ofBits_zero_f32, zero_add]
  unfold Cert.Spec.posE
  refine Finset.sum_congr rfl fun c _ => ?_
  have e : idx_main_v98 (ix1 r) c = ix2 r c := by
    funext a; match a with | ⟨0, _⟩ => rfl | ⟨1, _⟩ => rfl
  rw [e, ref_pos_elt]

/-- Entry (r, c) of 1 − (A·Eᵀ) / (a ⊗ e) is the cosine distance of row r of A and row c of E. -/
theorem ref_neg_elt (x1 : FVec Ideal S200000x256 .f32) (x2 : FVec Ideal S256x512 .f32) (x3 : FVec Ideal S512 .f32)
    (x4 : FVec Ideal S512x1 .f32) (x5 : FVec Ideal S1 .f32) (x8 : (⟨S200000, .i32⟩ : BufTy).Contents (Elt Ideal)) (r c : Fin 4096) :
    val_main_v75 (F := Ideal) x1 x2 x3 x4 x5 x8 (ix2 r c)
      = Cert.Spec.cosd (val_main_v35 (F := Ideal) x1 x2 x3 x4 x5 x8) (val_main_v49 (F := Ideal) x1 x2 x3 x4 x5 x8)
          (val_main_v52 (F := Ideal) x1 x2 x3 x4 x5 x8) (val_main_v55 (F := Ideal) x1 x2 x3 x4 x5 x8) r c := by
  rw [val_main_v75_apply, val_main_v74_apply, val_main_cst_12_apply, val_main_v73_apply, val_main_v72_apply,
    val_main_v70_apply, val_main_v68_apply, val_main_v71_apply, val_main_v69_apply, val_main_v67_apply]
  have ea : idx_main_v68 (idx_main_v70 (ix2 r c)) = ix1 r := by
    funext a; match a with | ⟨0, _⟩ => rfl
  have eb : idx_main_v69 (idx_main_v71 (ix2 r c)) = ix1 c := by
    funext a; match a with | ⟨0, _⟩ => rfl
  rw [ea, eb]
  have es : (∑ k : Fin 256, val_main_v35 (F := Ideal) x1 x2 x3 x4 x5 x8 (lidx_main_v67 (ix2 r c) k)
        * val_main_v66 (F := Ideal) x1 x2 x3 x4 x5 x8 (ridx_main_v67 (ix2 r c) k))
      = ∑ k : Fin 256, val_main_v35 (F := Ideal) x1 x2 x3 x4 x5 x8 (ix2 r k) * val_main_v49 (F := Ideal) x1 x2 x3 x4 x5 x8 (ix2 c k) := by
    refine Finset.sum_congr rfl fun k _ => ?_
    have el : lidx_main_v67 (ix2 r c) k = ix2 r k := by
      funext a; match a with | ⟨0, _⟩ => rfl | ⟨1, _⟩ => rfl
    have er : idx_main_v66 (ridx_main_v67 (ix2 r c) k) = ix2 c k := by
      funext a; match a with | ⟨0, _⟩ => rfl | ⟨1, _⟩ => rfl
    rw [val_main_v66_apply, el, er]
  rw [es]
  generalize val_main_v35 (F := Ideal) x1 x2 x3 x4 x5 x8 = A
  generalize val_main_v49 (F := Ideal) x1 x2 x3 x4 x5 x8 = E
  generalize val_main_v52 (F := Ideal) x1 x2 x3 x4 x5 x8 = a
  generalize val_main_v55 (F := Ideal) x1 x2 x3 x4 x5 x8 = e
  rfl

/-- Row r's negative sum: each distance times the 0/1 flag of its column, the initial word being zero. -/
theorem ref_neg (x1 : FVec Ideal S200000x256 .f32) (x2 : FVec Ideal S256x512 .f32) (x3 : FVec Ideal S512 .f32)
    (x4 : FVec Ideal S512x1 .f32) (x5 : FVec Ideal S1 .f32) (x8 : (⟨S200000, .i32⟩ : BufTy).Contents (Elt Ideal)) (r : Fin 4096) :
    val_main_v93 (F := Ideal) x1 x2 x3 x4 x5 x8 (ix1 r)
      = Cert.Spec.negE (val_main_v35 (F := Ideal) x1 x2 x3 x4 x5 x8) (val_main_v49 (F := Ideal) x1 x2 x3 x4 x5 x8)
          (val_main_v52 (F := Ideal) x1 x2 x3 x4 x5 x8) (val_main_v55 (F := Ideal) x1 x2 x3 x4 x5 x8)
          (fun i => FloatOps.uitofp (F := Ideal) .f32 (val_main_v81 (F := Ideal) x1 x2 x3 x4 x5 x8 i)) r := by
  rw [val_main_v93_apply, val_main_cst_20_apply]
  simp only [Ideal.ofBits_def, Ideal.ofBits_zero_f32, zero_add]
  unfold Cert.Spec.negE
  refine Finset.sum_congr rfl fun c _ => ?_
  have e : idx_main_v93 (ix1 r) c = ix2 r c := by
    funext a; match a with | ⟨0, _⟩ => rfl | ⟨1, _⟩ => rfl
  have ez : idx_main_v89 (idx_main_v91 (ix2 r c)) = ix1 c := by
    funext a; match a with | ⟨0, _⟩ => rfl
  rw [e, val_main_v92_apply, ref_neg_elt, val_main_v91_apply, val_main_v90_apply, val_main_v89_apply, ez]
  rfl

end Cert.RefPair

end
-- ==== Proof.Alg.lean ====
/-
  The two idealized programs compute the same three results.
  The kernel program's mask column is the logistic of the perceptron's logit of each row, which is what
  the reference computes; from equal masks the shared host stretch gives equal aligned and environment
  means, norms and flags; region 1's three columns are then the reference's row sums of cosine distances
  and its non-zero flags, row by row; the loss is one function of those four vectors on both sides (a
  count of 0/1 flags is the same taken over the integers or over the reals), and the classifier output
  is one function of the aligned means.
-/
import proofs.«104446_j49211735277597_1_alg».proof.Proof.KIVals
import proofs.«104446_j49211735277597_1_alg».proof.Proof.KMid
import proofs.«104446_j49211735277597_1_alg».proof.Proof.KArrPair
import proofs.«104446_j49211735277597_1_alg».proof.Proof.KMaskCol
import proofs.«104446_j49211735277597_1_alg».proof.Proof.TailKernel
import proofs.«104446_j49211735277597_1_alg».proof.Proof.TailRef
import proofs.«104446_j49211735277597_1_alg».proof.Proof.KOut
import proofs.«104446_j49211735277597_1_alg».proof.Proof.RefMask
import proofs.«104446_j49211735277597_1_alg».proof.Proof.RefPair

set_option maxRecDepth 16384

noncomputable section

namespace Cert.Alg

open Cert.KernelIdeal Cert.KernelIdeal.Gen Cert.KernelIdeal.Frm
open Cert.ReferenceIdeal.Read
open Idealize.ShloMosaic Idealize.ShloMosaic.TcCoe Idealize.ShloMosaic.ValueIdx
open Idealize.SL Idealize.SL.Sem
open Cert.Spec Cert.Tail

variable (m : (ℓ : Loc nD τ sig) → Buf (Elt Ideal) ℓ) (c : Dev nD)

/-- The launch contents of the arguments. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)

theorem W2_arg1 : W2 m c (Proc.devRef .tc main_arg1) = a1 m c :=
  (W2_of_ne m c main_arg1 (by decide)).trans (W1_back0 m c main_arg1 (by decide))
theorem W2_arg8 : W2 m c (Proc.devRef .tc main_arg8) = a8 m c :=
  (W2_of_ne m c main_arg8 (by decide)).trans (W1_back0 m c main_arg8 (by decide))

/-- The mask column region 0 leaves is the reference's mask, row by row. -/
theorem hM (n : Fin 200000) : (W2 m c (Proc.devRef .tc main_v4) : (⟨S200000x1, .f32⟩ : BufTy).Contents (Elt Ideal)) (ix2 n (0 : Fin 1))
    = val_main_v15 (F := Ideal) (a1 m c) (a2 m c) (a3 m c) (a4 m c) (a5 m c) (ix1 n) := by
  rw [W2_v4]
  exact (Cert.KMaskCol.mask_col (W0 m c) (T1 m) c (fun _ => rfl) n).trans (Cert.RefMask.ref_mask _ _ _ _ _ n).symm

/-- The buffers region 1 is entered with are the reference's stages. -/
theorem W7_v25 : W7 m c (Proc.devRef .tc main_v25) = val_main_v35 (F := Ideal) (a1 m c) (a2 m c) (a3 m c) (a4 m c) (a5 m c) (a8 m c) :=
  Cert.KMid.mid_v25 (W2 m c) _ _ _ _ _ _ (hM m c) (W2_arg1 m c) (W2_arg8 m c)
theorem W7_v39 : W7 m c (Proc.devRef .tc main_v39) = val_main_v49 (F := Ideal) (a1 m c) (a2 m c) (a3 m c) (a4 m c) (a5 m c) (a8 m c) :=
  Cert.KMid.mid_v39 (W2 m c) _ _ _ _ _ _ (hM m c) (W2_arg1 m c) (W2_arg8 m c)
theorem W7_v49 : W7 m c (Proc.devRef .tc main_v49) = fun i => FloatOps.uitofp (F := Ideal) .f32 (val_main_v81 (F := Ideal) (a1 m c) (a2 m c) (a3 m c) (a4 m c) (a5 m c) (a8 m c) i) :=
  Cert.KMid.mid_v49 (W2 m c) _ _ _ _ _ _ (hM m c) (W2_arg1 m c) (W2_arg8 m c)

/-- Result 3: the mask vector. -/
theorem res_mask : W11 m c (Proc.devRef .tc main_v5) = val_main_v15 (F := Ideal) (a1 m c) (a2 m c) (a3 m c) (a4 m c) (a5 m c) :=
  (W11_back8 m c main_v5 (by decide) (by decide) (by decide)).trans <|
    (W8_of_ne m c main_v5 (by decide) (by decide) (by decide)).trans (Cert.KMid.mid_v5 (W2 m c) _ _ _ _ _ (hM m c))

/-- From the stretch before the last back to region 1's exit. -/
theorem W10_back8 (r : Ref sig .tc) (h21 : r ∉ hostOps2_1_W) (h2 : r ∉ hostOps2_W) :
    W10 m c (Proc.devRef .tc r) = W8 m c (Proc.devRef .tc r) :=
  (StableHlo.after_of_writes_sub hostOps2_1 _ hostOps2_1_writes h21).trans (StableHlo.after_of_writes_sub hostOps2 _ hostOps2_writes h2)
theorem W10_launch (r : Ref sig .tc) (h21 : r ∉ hostOps2_1_W) (h2 : r ∉ hostOps2_W)
    (n0 : r ≠ main_v54_0) (n1 : r ≠ main_v54_1) (n2 : r ≠ main_v54_2)
    (h14 : r ∉ hostOps1_4_W) (h13 : r ∉ hostOps1_3_W) (h12 : r ∉ hostOps1_2_W) (h11 : r ∉ hostOps1_1_W) (h1 : r ∉ hostOps1_W)
    (n4 : r ≠ main_v4) (h0 : r ∉ hostOps0_W) : W10 m c (Proc.devRef .tc r) = m ((c : Thread nD τ).loc r) :=
  (W10_back8 m c r h21 h2).trans <| (W8_of_ne m c r n0 n1 n2).trans <| (W7_back2 m c r h14 h13 h12 h11 h1).trans <|
    (W2_of_ne m c r n4).trans (W1_back0 m c r h0)

/-- Result 1: the classifier output. -/
theorem res_out : W11 m c (Proc.devRef .tc main_v82)
    = val_main_v117 (F := Ideal) (a0 m c) (a1 m c) (a2 m c) (a3 m c) (a4 m c) (a5 m c) (a6 m c) (a7 m c) (a8 m c) :=
  Cert.KOut.kernel_out (W10 m c) _ _ _ _ _ _ _ _ _
    ((W10_back8 m c main_v25 (by decide) (by decide)).trans ((W8_of_ne m c main_v25 (by decide) (by decide) (by decide)).trans (W7_v25 m c)))
    (W10_launch m c main_arg0 (by decide) (by decide) (by decide) (by decide) (by decide) (by decide) (by decide) (by decide) (by decide) (by decide) (by decide) (by decide))
    (W10_launch m c main_arg6 (by decide) (by decide) (by decide) (by decide) (by decide) (by decide) (by decide) (by decide) (by decide) (by decide) (by decide) (by decide))
    (W10_launch m c main_arg7 (by decide) (by decide) (by decide) (by decide) (by decide) (by decide) (by decide) (by decide) (by decide) (by decide) (by decide) (by decide))

local notation "XX" => (a1 m c) (a2 m c) (a3 m c) (a4 m c) (a5 m c) (a8 m c)

/-- Region 1's first column is the reference's positive sums. -/
theorem pos_eq (r : Fin 4096) : (W8 m c (Proc.devRef .tc main_v54_0) : (⟨S4096x1, .f32⟩ : BufTy).Contents (Elt Ideal)) (ix2 r (0 : Fin 1))
    = val_main_v98 (F := Ideal) (a1 m c) (a2 m c) (a3 m c) (a4 m c) (a5 m c) (a8 m c) (ix1 r) := by
  have hA : Cert.KArr.arrA (T7 m) c = val_main_v35 (F := Ideal) (a1 m c) (a2 m c) (a3 m c) (a4 m c) (a5 m c) (a8 m c) := W7_v25 m c
  have hNa : Cert.KArr.arrNa (T7 m) c (ix2 r (0 : Fin 1)) = val_main_v52 (F := Ideal) (a1 m c) (a2 m c) (a3 m c) (a4 m c) (a5 m c) (a8 m c) (ix1 r) := Cert.KMid.mid_v50 (W2 m c) _ _ _ _ _ _ (hM m c) (W2_arg1 m c) (W2_arg8 m c) r
  have hNb : ∀ c' : Fin 4096, Cert.KArr.arrNb (T7 m) c (ix2 (0 : Fin 1) c') = val_main_v52 (F := Ideal) (a1 m c) (a2 m c) (a3 m c) (a4 m c) (a5 m c) (a8 m c) (ix1 c') := fun c' => Cert.KMid.mid_v51 (W2 m c) _ _ _ _ _ _ (hM m c) (W2_arg1 m c) (W2_arg8 m c) c'
  rw [W8_v54_0, Cert.KArr.pos_arr (T7 m) c r, Cert.RefPair.ref_pos]
  unfold posE cosd gram
  simp only [hA, hNa, hNb]

/-- Region 1's second column is the reference's negative sums. -/
theorem neg_eq (r : Fin 4096) : (W8 m c (Proc.devRef .tc main_v54_1) : (⟨S4096x1, .f32⟩ : BufTy).Contents (Elt Ideal)) (ix2 r (0 : Fin 1))
    = val_main_v93 (F := Ideal) (a1 m c) (a2 m c) (a3 m c) (a4 m c) (a5 m c) (a8 m c) (ix1 r) := by
  have hA : Cert.KArr.arrA (T7 m) c = val_main_v35 (F := Ideal) (a1 m c) (a2 m c) (a3 m c) (a4 m c) (a5 m c) (a8 m c) := W7_v25 m c
  have hE : Cert.KArr.arrE (T7 m) c = val_main_v49 (F := Ideal) (a1 m c) (a2 m c) (a3 m c) (a4 m c) (a5 m c) (a8 m c) := W7_v39 m c
  have hNa : Cert.KArr.arrNa (T7 m) c (ix2 r (0 : Fin 1)) = val_main_v52 (F := Ideal) (a1 m c) (a2 m c) (a3 m c) (a4 m c) (a5 m c) (a8 m c) (ix1 r) := Cert.KMid.mid_v50 (W2 m c) _ _ _ _ _ _ (hM m c) (W2_arg1 m c) (W2_arg8 m c) r
  have hNe : ∀ c' : Fin 4096, Cert.KArr.arrNe (T7 m) c (ix2 (0 : Fin 1) c') = val_main_v55 (F := Ideal) (a1 m c) (a2 m c) (a3 m c) (a4 m c) (a5 m c) (a8 m c) (ix1 c') := fun c' => Cert.KMid.mid_v52 (W2 m c) _ _ _ _ _ _ (hM m c) (W2_arg1 m c) (W2_arg8 m c) c'
  have hZ : ∀ c' : Fin 4096, Cert.KArr.arrZ (T7 m) c (ix2 (0 : Fin 1) c') = FloatOps.uitofp (F := Ideal) .f32 (val_main_v81 (F := Ideal) (a1 m c) (a2 m c) (a3 m c) (a4 m c) (a5 m c) (a8 m c) (ix1 c')) := fun c' => Cert.KMid.mid_v53 (W2 m c) _ _ _ _ _ _ (hM m c) (W2_arg1 m c) (W2_arg8 m c) c'
  rw [W8_v54_1, Cert.KArr.neg_arr (T7 m) c r, Cert.RefPair.ref_neg]
  unfold negE cosd gram
  simp only [hA, hE, hNa, hNe, hZ]

/-- Region 1's third column is the reference's flags of non-zero rows. -/
theorem nz_eq (r : Fin 4096) : (W8 m c (Proc.devRef .tc main_v54_2) : (⟨S4096x1, .f32⟩ : BufTy).Contents (Elt Ideal)) (ix2 r (0 : Fin 1))
    = FloatOps.uitofp (F := Ideal) .f32 (val_main_v78 (F := Ideal) (a1 m c) (a2 m c) (a3 m c) (a4 m c) (a5 m c) (a8 m c) (ix1 r)) := by
  rw [W8_v54_2, Cert.KArr.nz_arr (T7 m) c r, Cert.Tail.ref_flag]
  unfold nzP
  rw [show Cert.KArr.arrA (T7 m) c = val_main_v35 (F := Ideal) (a1 m c) (a2 m c) (a3 m c) (a4 m c) (a5 m c) (a8 m c) from W7_v25 m c]

/-- Result 2: the loss. -/
theorem res_loss (k : S_.Idx) : (W11 m c (Proc.devRef .tc main_v77) : (⟨S_, .f32⟩ : BufTy).Contents (Elt Ideal)) k
    = val_main_v112 (F := Ideal) (a1 m c) (a2 m c) (a3 m c) (a4 m c) (a5 m c) (a8 m c) k := by
  rw [Cert.Tail.ref_tail]
  refine (Cert.Tail.kernel_tail (W8 m c) k).trans ?_
  have e1 : Cert.Tail.col (W8 m c (Proc.devRef .tc main_v54_0)) = val_main_v98 (F := Ideal) (a1 m c) (a2 m c) (a3 m c) (a4 m c) (a5 m c) (a8 m c) := by
    funext i; obtain ⟨r, rfl⟩ : ∃ r : Fin 4096, i = ix1 r := ⟨i 0, eq_ix1 i⟩
    exact (Cert.Tail.col_ix1 _ r).trans (pos_eq m c r)
  have e2 : Cert.Tail.col (W8 m c (Proc.devRef .tc main_v54_1)) = val_main_v93 (F := Ideal) (a1 m c) (a2 m c) (a3 m c) (a4 m c) (a5 m c) (a8 m c) := by
    funext i; obtain ⟨r, rfl⟩ : ∃ r : Fin 4096, i = ix1 r := ⟨i 0, eq_ix1 i⟩
    exact (Cert.Tail.col_ix1 _ r).trans (neg_eq m c r)
  have e3 : Cert.Tail.col (W8 m c (Proc.devRef .tc main_v54_2)) = fun j => FloatOps.uitofp (F := Ideal) .f32 (val_main_v78 (F := Ideal) (a1 m c) (a2 m c) (a3 m c) (a4 m c) (a5 m c) (a8 m c) j) := by
    funext i; obtain ⟨r, rfl⟩ : ∃ r : Fin 4096, i = ix1 r := ⟨i 0, eq_ix1 i⟩
    exact (Cert.Tail.col_ix1 _ r).trans (nz_eq m c r)
  have e4 : W8 m c (Proc.devRef .tc main_v49) = fun j => FloatOps.uitofp (F := Ideal) .f32 (val_main_v81 (F := Ideal) (a1 m c) (a2 m c) (a3 m c) (a4 m c) (a5 m c) (a8 m c) j) :=
    (W8_of_ne m c main_v49 (by decide) (by decide) (by decide)).trans (W7_v49 m c)
  rw [e1, e2, e3, e4]

end Cert.Alg

end
-- ==== Proof.lean ====
/-
  The certificate's five claims.
  Both printed forms of the kernel program run to the end leaving every argument as launched: its host
  stretches only write their own results, and each of its two kernel regions stages blocks of its operands,
  computes, and writes back blocks of its own result buffers.  The reference is a straight line of host
  operations.  The idealization rewrote nothing.  At the extended reals the kernel program and the
  reference end with the same three results: the mask vector, the contrastive loss and the classifier output.
-/
import proofs.«104446_j49211735277597_1_alg».proof.Defs
import proofs.«104446_j49211735277597_1_alg».proof.Proof.Gen.Kernel
import proofs.«104446_j49211735277597_1_alg».proof.Proof.Gen.KernelIdeal
import proofs.«104446_j49211735277597_1_alg».proof.Proof.Gen.ReferenceIdeal
import proofs.«104446_j49211735277597_1_alg».proof.Proof.Gen.Pre_finite_inputs
import proofs.«104446_j49211735277597_1_alg».proof.Proof.Gen.ReferenceIdeal.Read
import proofs.«104446_j49211735277597_1_alg».proof.Proof.KVals
import proofs.«104446_j49211735277597_1_alg».proof.Proof.KIVals
import proofs.«104446_j49211735277597_1_alg».proof.Proof.Alg
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Frm.frame (F := Bits) m ρ
theorem frame_ki : Cert.frame_KernelIdeal := fun m ρ _ => Cert.KernelIdeal.Frm.frame (F := Ideal) m ρ
theorem frame_ri : Cert.frame_ReferenceIdeal := fun m ρ _ =>
  (θ_run Cert.ReferenceIdeal.defs _ _).mono (fun _ h c => (h c).2.2.2) (Cert.ReferenceIdeal.Value.run (F := Ideal) m ρ)

open Cert.KernelIdeal Cert.KernelIdeal.Frm in
/-- Both idealized programs end with the kernel program's last boundary contents at the three results. -/
theorem algebraic : Cert.algebraic_KernelIdeal_ReferenceIdeal := by
  intro m g m' g' _ hagree
  refine ⟨fun c => W11 m c (Proc.devRef .tc main_v82), fun c => W11 m c (Proc.devRef .tc main_v77), fun c => W11 m c (Proc.devRef .tc main_v5), ?_, ?_⟩
  · exact (θ_run Cert.KernelIdeal.defs _ _).mono (fun r h c => ⟨h c _ (mem_uc main_v82 (by decide)), h c _ (mem_uc main_v77 (by decide)), h c _ (mem_uc main_v5 (by decide)),
      (h c _ (mem_uc main_arg0 (by decide))).trans (W11_arg0 m c),
      (h c _ (mem_uc main_arg1 (by decide))).trans (W11_arg1 m c),
      (h c _ (mem_uc main_arg2 (by decide))).trans (W11_arg2 m c),
      (h c _ (mem_uc main_arg3 (by decide))).trans (W11_arg3 m c),
      (h c _ (mem_uc main_arg4 (by decide))).trans (W11_arg4 m c),
      (h c _ (mem_uc main_arg5 (by decide))).trans (W11_arg5 m c),
      (h c _ (mem_uc main_arg6 (by decide))).trans (W11_arg6 m c),
      (h c _ (mem_uc main_arg7 (by decide))).trans (W11_arg7 m c),
      (h c _ (mem_uc main_arg8 (by decide))).trans (W11_arg8 m c)⟩)
      (run_main (F := Ideal) m g)
  · refine (θ_run Cert.ReferenceIdeal.defs _ _).mono (fun r h c => ?_) (Cert.ReferenceIdeal.Value.run (F := Ideal) m' g')
    obtain ⟨e0, e1, e2, e3, e4, e5, e6, e7, e8⟩ := hagree c
    refine ⟨(h c).1.trans ?_, (h c).2.1.trans ?_, (h c).2.2.1.trans ?_, (h c).2.2.2⟩
    · refine (Cert.ReferenceIdeal.Read.val_main_v117_eq _ _ _ _ _ _ _ _ _).trans ?_
      rw [e0, e1, e2, e3, e4, e5, e6, e7, e8]
      exact (Cert.Alg.res_out m c).symm
    · refine (Cert.ReferenceIdeal.Read.val_main_v112_eq m' c).trans ?_
      rw [e1, e2, e3, e4, e5, e8]
      funext k
      exact (Cert.Alg.res_loss m c k).symm
    · refine (Cert.ReferenceIdeal.Read.val_main_v15_eq _ _ _ _ _).trans ?_
      rw [e1, e2, e3, e4, e5]
      exact (Cert.Alg.res_mask m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
